-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x128 : Shape := ⟨3, ![128, 256, 128]⟩
abbrev S128x256x256 : Shape := ⟨3, ![128, 256, 256]⟩
abbrev S128x512 : Shape := ⟨2, ![128, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S128x256x128 : S_.BroadcastsInDim S128x256x128 (![] : Fin 0 → Fin S128x256x128.rank)
  reducesTo_S128x256x128_S_d0_1_2 : S128x256x128.ReducesTo [0, 1, 2] S_
  h_S_ : 0 < S_.numel
  bcast_S_S128x256x256 : S_.BroadcastsInDim S128x256x256 (![] : Fin 0 → Fin S128x256x256.rank)
  reducesTo_S128x256x256_S_d0_1_2 : S128x256x256.ReducesTo [0, 1, 2] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S512x128 .f32) (main_arg5 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S128x256x128 .f32) (main_arg1 : FVec F S128x256x256 .f32) (main_arg2 : FVec F S128x512 .f32) (main_arg3 : FVec F S512 .f32) (main_arg4 : FVec F S512x128 .f32) (main_arg5 : FVec F S128 .f32) : IVec S_ 1 :=
  let main_v0 : FVec F S128x256x128 .f32 := Host.absf main_arg0
  let main_cst : FVec F S_ .f32 := constant S_ .f32 0x7F800000#32
  let main_v1 : FVec F S128x256x128 .f32 := broadcastInDim S128x256x128 ![] bcast_S_S128x256x128 main_cst
  let main_v2 : IVec S128x256x128 1 := cmpf .olt main_v0 main_v1
  let main_c : IVec S_ 1 := constantI S_ 1 1#1
  let main_v3 : IVec S_ 1 := (fun x v => Host.reduce IntOp.andi x v reducesTo_S128x256x128_S_d0_1_2 h_S_) main_v2 main_c
  let main_v4 : FVec F S128x256x256 .f32 := Host.absf main_arg1
  let main_cst_0 : FVec F S_ .f32 := constant S_ .f32 0x7F800000#32
  let main_v5 : FVec F S128x256x256 .f32 := broadcastInDim S128x256x256 ![] bcast_S_S128x256x256 main_cst_0
  let main_v6 : IVec S128x256x256 1 := cmpf .olt main_v4 main_v5
  let main_c_1 : IVec S_ 1 := constantI S_ 1 1#1
  let main_v7 : IVec S_ 1 := (fun x v => Host.reduce IntOp.andi x v reducesTo_S128x256x256_S_d0_1_2 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S128x256x128 : Shape := ⟨3, ![128, 256, 128]⟩
abbrev S128x256x256 : Shape := ⟨3, ![128, 256, 256]⟩
abbrev S128x512 : Shape := ⟨2, ![128, 512]⟩
abbrev S512 : Shape := ⟨1, ![512]⟩
abbrev S512x128 : Shape := ⟨2, ![512, 128]⟩
abbrev S128 : Shape := ⟨1, ![128]⟩
abbrev S8x16x256x128 : Shape := ⟨4, ![8, 16, 256, 128]⟩
abbrev S8x16x256x256 : Shape := ⟨4, ![8, 16, 256, 256]⟩
abbrev S1x512 : Shape := ⟨2, ![1, 512]⟩
abbrev S_ : Shape := ⟨0, ![]⟩
abbrev S127x512 : Shape := ⟨2, ![127, 512]⟩
abbrev S256x512 : Shape := ⟨2, ![256, 512]⟩
abbrev S1x128 : Shape := ⟨2, ![1, 128]⟩
abbrev S8x4096x128 : Shape := ⟨3, ![8, 4096, 128]⟩
abbrev S1x16x256x128 : Shape := ⟨4, ![1, 16, 256, 128]⟩
abbrev S1x16x256x256 : Shape := ⟨4, ![1, 16, 256, 256]⟩
abbrev S1x4096x128 : Shape := ⟨3, ![1, 4096, 128]⟩
abbrev S4096x256 : Shape := ⟨2, ![4096, 256]⟩
abbrev S4096x128 : Shape := ⟨2, ![4096, 128]⟩
abbrev S4096x1 : Shape := ⟨2, ![4096, 1]⟩
abbrev S1x1x256x128 : Shape := ⟨4, ![1, 1, 256, 128]⟩
abbrev S256x128 : Shape := ⟨2, ![256, 128]⟩
abbrev S1x1x256x256 : Shape := ⟨4, ![1, 1, 256, 256]⟩
abbrev S256x256 : Shape := ⟨2, ![256, 256]⟩
abbrev S256x1 : Shape := ⟨2, ![256, 1]⟩
abbrev S4096x512 : Shape := ⟨2, ![4096, 512]⟩

abbrev nBuf : Space → Nat
  | .hbm => 15
  | .vmem => 11
  | .smem => 0
  | _ => 0

abbrev bufTy : (tb : Table) → Fin (tcTables nBuf tb) → BufTy
  | .hbm, ⟨0, _⟩ => ⟨S128x256x128, .f32⟩
  | .hbm, ⟨1, _⟩ => ⟨S128x256x256, .f32⟩
  | .hbm, ⟨2, _⟩ => ⟨S128x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S8x16x256x128, .f32⟩
  | .hbm, ⟨7, _⟩ => ⟨S8x16x256x256, .f32⟩
  | .hbm, ⟨8, _⟩ => ⟨S1x512, .f32⟩
  | .hbm, ⟨9, _⟩ => ⟨S_, .f32⟩
  | .hbm, ⟨10, _⟩ => ⟨S127x512, .f32⟩
  | .hbm, ⟨11, _⟩ => ⟨S256x512, .f32⟩
  | .hbm, ⟨12, _⟩ => ⟨S1x128, .f32⟩
  | .hbm, ⟨13, _⟩ => ⟨S8x4096x128, .f32⟩
  | .hbm, ⟨14, _⟩ => ⟨S128x256x128, .f32⟩
  | .local _ .vmem, ⟨0, _⟩ => ⟨S1x16x256x128, .f32⟩
  | .local _ .vmem, ⟨1, _⟩ => ⟨S1x16x256x128, .f32⟩
  | .local _ .vmem, ⟨2, _⟩ => ⟨S1x16x256x256, .f32⟩
  | .local _ .vmem, ⟨3, _⟩ => ⟨S1x16x256x256, .f32⟩
  | .local _ .vmem, ⟨4, _⟩ => ⟨S256x512, .f32⟩
  | .local _ .vmem, ⟨5, _⟩ => ⟨S512x128, .f32⟩
  | .local _ .vmem, ⟨6, _⟩ => ⟨S1x128, .f32⟩
  | .local _ .vmem, ⟨7, _⟩ => ⟨S1x4096x128, .f32⟩
  | .local _ .vmem, ⟨8, _⟩ => ⟨S1x4096x128, .f32⟩
  | .local _ .vmem, ⟨9, _⟩ => ⟨S4096x256, .f32⟩
  | .local _ .vmem, ⟨10, _⟩ => ⟨S4096x256, .f32⟩
  | _, _ => ⟨S128x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128x256x128_S8x16x256x128 : S128x256x128.ShapeCasts S8x16x256x128
  shapeCasts_S128x256x256_S8x16x256x256 : S128x256x256.ShapeCasts S8x16x256x256
  bcast_S512_S1x512_1 : S512.BroadcastsInDim S1x512 (![1] : Fin 1 → Fin S1x512.rank)
  bcast_S_S127x512 : S_.BroadcastsInDim S127x512 (![] : Fin 0 → Fin S127x512.rank)
  concatenates_S128x512_S1x512_S127x512_S256x512_d0 : Shape.Concatenates [S128x512, S1x512, S127x512] S256x512 0
  shapeCasts_S128_S1x128 : S128.ShapeCasts S1x128
  inb_S4096x256_S4096x128_0_128 : ∀ a, (![0, 128] : Fin 2 → Nat) a + S4096x128.size a ≤ S4096x256.size a
  h_S4096x128 : 0 < S4096x128.numel
  shapeCasts_S4096x128_S4096x128 : S4096x128.ShapeCasts S4096x128
  inb_S4096x256_S4096x1_0_128 : ∀ a, (![0, 128] : Fin 2 → Nat) a + S4096x1.size a ≤ S4096x256.size a
  h_S4096x1 : 0 < S4096x1.numel
  shapeCasts_S4096x1_S4096x1 : S4096x1.ShapeCasts S4096x1
  inb_S1x16x256x128_S1x1x256x128_0_0_0_0 : ∀ a, (![0, 0, 0, 0] : Fin 4 → Nat) a + S1x1x256x128.size a ≤ S1x16x256x128.size a
  h_S1x1x256x128 : 0 < S1x1x256x128.numel
  shapeCasts_S1x1x256x128_S256x128 : S1x1x256x128.ShapeCasts S256x128
  inb_S4096x256_S256x128_0_0 : ∀ a, (![0, 0] : Fin 2 → Nat) a + S256x128.size a ≤ S4096x256.size a
  h_S256x128 : 0 < S256x128.numel
  shapeCasts_S256x128_S256x128 : S256x128.ShapeCasts S256x128
  inb_S1x16x256x256_S1x1x256x256_0_0_0_0 : ∀ a, (![0, 0, 0, 0] : Fin 4 → Nat) a + S1x1x256x256.size a ≤ S1x16x256x256.size a
  h_S1x1x256x256 : 0 < S1x1x256x256.numel
  shapeCasts_S1x1x256x256_S256x256 : S1x1x256x256.ShapeCasts S256x256
  inb_S4096x256_S256x256_0_0 : ∀ a, (![0, 0] : Fin 2 → Nat) a + S256x256.size a ≤ S4096x256.size a
  h_S256x256 : 0 < S256x256.numel
  slices_S256x256_o0_128_S256x1 : S256x256.Slices ![0, 128] S256x1
  broadcasts_S256x1_S256x256 : S256x1.Broadcasts S256x256
  shapeCasts_S256x256_S256x256 : S256x256.ShapeCasts S256x256
  inb_S1x16x256x128_S1x1x256x128_0_1_0_0 : ∀ a, (![0, 1, 0, 0] : Fin 4 → Nat) a + S1x1x256x128.size a ≤ S1x16x256x128.size a
  inb_S4096x256_S256x128_256_0 : ∀ a, (![256, 0] : Fin 2 → Nat) a + S256x128.size a ≤ S4096x256.size a
  inb_S1x16x256x256_S1x1x256x256_0_1_0_0 : ∀ a, (![0, 1, 0, 0] : Fin 4 → Nat) a + S1x1x256x256.size a ≤ S1x16x256x256.size a
  inb_S4096x256_S256x256_256_0 : ∀ a, (![256, 0] : Fin 2 → Nat) a + S256x256.size a ≤ S4096x256.size a
  inb_S1x16x256x128_S1x1x256x128_0_2_0_0 : ∀ a, (![0, 2, 0, 0] : Fin 4 → Nat) a + S1x1x256x128.size a ≤ S1x16x256x128.size a
  inb_S4096x256_S256x128_512_0 : ∀ a, (![512, 0] : Fin 2 → Nat) a + S256x128.size a ≤ S4096x256.size a
  inb_S1x16x256x256_S1x1x256x256_0_2_0_0 : ∀ a, (![0, 2, 0, 0] : Fin 4 → Nat) a + S1x1x256x256.size a ≤ S1x16x256x256.size a
  inb_S4096x256_S256x256_512_0 : ∀ a, (![512, 0] : Fin 2 → Nat) a + S256x256.size a ≤ S4096x256.size a
  inb_S1x16x256x128_S1x1x256x128_0_3_0_0 : ∀ a, (![0, 3, 0, 0] : Fin 4 → Nat) a + S1x1x256x128.size a ≤ S1x16x256x128.size a
  inb_S4096x256_S256x128_768_0 : ∀ a, (![768, 0] : Fin 2 → Nat) a + S256x128.size a ≤ S4096x256.size a
  inb_S1x16x256x256_S1x1x256x256_0_3_0_0 : ∀ a, (![0, 3, 0, 0] : Fin 4 → Nat) a + S1x1x256x256.size a ≤ S1x16x256x256.size a
  inb_S4096x256_S256x256_768_0 : ∀ a, (![768, 0] : Fin 2 → Nat) a + S256x256.size a ≤ S4096x256.size a
  inb_S1x16x256x128_S1x1x256x128_0_4_0_0 : ∀ a, (![0, 4, 0, 0] : Fin 4 → Nat) a + S1x1x256x128.size a ≤ S1x16x256x128.size a
  inb_S4096x256_S256x128_1024_0 : ∀ a, (![1024, 0] : Fin 2 → Nat) a + S256x128.size a ≤ S4096x256.size a
  inb_S1x16x256x256_S1x1x256x256_0_4_0_0 : ∀ a, (![0, 4, 0, 0] : Fin 4 → Nat) a + S1x1x256x256.size a ≤ S1x16x256x256.size a
  inb_S4096x256_S256x256_1024_0 : ∀ a, (![1024, 0] : Fin 2 → Nat) a + S256x256.size a ≤ S4096x256.size a
  inb_S1x16x256x128_S1x1x256x128_0_5_0_0 : ∀ a, (![0, 5, 0, 0] : Fin 4 → Nat) a + S1x1x256x128.size a ≤ S1x16x256x128.size a
  inb_S4096x256_S256x128_1280_0 : ∀ a, (![1280, 0] : Fin 2 → Nat) a + S256x128.size a ≤ S4096x256.size a
  inb_S1x16x256x256_S1x1x256x256_0_5_0_0 : ∀ a, (![0, 5, 0, 0] : Fin 4 → Nat) a + S1x1x256x256.size a ≤ S1x16x256x256.size a
  inb_S4096x256_S256x256_1280_0 : ∀ a, (![1280, 0] : Fin 2 → Nat) a + S256x256.size a ≤ S4096x256.size a
  inb_S1x16x256x128_S1x1x256x128_0_6_0_0 : ∀ a, (![0, 6, 0, 0] : Fin 4 → Nat) a + S1x1x256x128.size a ≤ S1x16x256x128.size a
  inb_S4096x256_S256x128_1536_0 : ∀ a, (![1536, 0] : Fin 2 → Nat) a + S256x128.size a ≤ S4096x256.size a
  inb_S1x16x256x256_S1x1x256x256_0_6_0_0 : ∀ a, (![0, 6, 0, 0] : Fin 4 → Nat) a + S1x1x256x256.size a ≤ S1x16x256x256.size a
  inb_S4096x256_S256x256_1536_0 : ∀ a, (![1536, 0] : Fin 2 → Nat) a + S256x256.size a ≤ S4096x256.size a
  inb_S1x16x256x128_S1x1x256x128_0_7_0_0 : ∀ a, (![0, 7, 0, 0] : Fin 4 → Nat) a + S1x1x256x128.size a ≤ S1x16x256x128.size a
  inb_S4096x256_S256x128_1792_0 : ∀ a, (![1792, 0] : Fin 2 → Nat) a + S256x128.size a ≤ S4096x256.size a
  inb_S1x16x256x256_S1x1x256x256_0_7_0_0 : ∀ a, (![0, 7, 0, 0] : Fin 4 → Nat) a + S1x1x256x256.size a ≤ S1x16x256x256.size a
  inb_S4096x256_S256x256_1792_0 : ∀ a, (![1792, 0] : Fin 2 → Nat) a + S256x256.size a ≤ S4096x256.size a
  inb_S1x16x256x128_S1x1x256x128_0_8_0_0 : ∀ a, (![0, 8, 0, 0] : Fin 4 → Nat) a + S1x1x256x128.size a ≤ S1x16x256x128.size a
  inb_S4096x256_S256x128_2048_0 : ∀ a, (![2048, 0] : Fin 2 → Nat) a + S256x128.size a ≤ S4096x256.size a
  inb_S1x16x256x256_S1x1x256x256_0_8_0_0 : ∀ a, (![0, 8, 0, 0] : Fin 4 → Nat) a + S1x1x256x256.size a ≤ S1x16x256x256.size a
  inb_S4096x256_S256x256_2048_0 : ∀ a, (![2048, 0] : Fin 2 → Nat) a + S256x256.size a ≤ S4096x256.size a
  inb_S1x16x256x128_S1x1x256x128_0_9_0_0 : ∀ a, (![0, 9, 0, 0] : Fin 4 → Nat) a + S1x1x256x128.size a ≤ S1x16x256x128.size a
  inb_S4096x256_S256x128_2304_0 : ∀ a, (![2304, 0] : Fin 2 → Nat) a + S256x128.size a ≤ S4096x256.size a
  inb_S1x16x256x256_S1x1x256x256_0_9_0_0 : ∀ a, (![0, 9, 0, 0] : Fin 4 → Nat) a + S1x1x256x256.size a ≤ S1x16x256x256.size a
  inb_S4096x256_S256x256_2304_0 : ∀ a, (![2304, 0] : Fin 2 → Nat) a + S256x256.size a ≤ S4096x256.size a
  inb_S1x16x256x128_S1x1x256x128_0_10_0_0 : ∀ a, (![0, 10, 0, 0] : Fin 4 → Nat) a + S1x1x256x128.size a ≤ S1x16x256x128.size a
  inb_S4096x256_S256x128_2560_0 : ∀ a, (![2560, 0] : Fin 2 → Nat) a + S256x128.size a ≤ S4096x256.size a
  inb_S1x16x256x256_S1x1x256x256_0_10_0_0 : ∀ a, (![0, 10, 0, 0] : Fin 4 → Nat) a + S1x1x256x256.size a ≤ S1x16x256x256.size a
  inb_S4096x256_S256x256_2560_0 : ∀ a, (![2560, 0] : Fin 2 → Nat) a + S256x256.size a ≤ S4096x256.size a
  inb_S1x16x256x128_S1x1x256x128_0_11_0_0 : ∀ a, (![0, 11, 0, 0] : Fin 4 → Nat) a + S1x1x256x128.size a ≤ S1x16x256x128.size a
  inb_S4096x256_S256x128_2816_0 : ∀ a, (![2816, 0] : Fin 2 → Nat) a + S256x128.size a ≤ S4096x256.size a
  inb_S1x16x256x256_S1x1x256x256_0_11_0_0 : ∀ a, (![0, 11, 0, 0] : Fin 4 → Nat) a + S1x1x256x256.size a ≤ S1x16x256x256.size a
  inb_S4096x256_S256x256_2816_0 : ∀ a, (![2816, 0] : Fin 2 → Nat) a + S256x256.size a ≤ S4096x256.size a
  inb_S1x16x256x128_S1x1x256x128_0_12_0_0 : ∀ a, (![0, 12, 0, 0] : Fin 4 → Nat) a + S1x1x256x128.size a ≤ S1x16x256x128.size a
  inb_S4096x256_S256x128_3072_0 : ∀ a, (![3072, 0] : Fin 2 → Nat) a + S256x128.size a ≤ S4096x256.size a
  inb_S1x16x256x256_S1x1x256x256_0_12_0_0 : ∀ a, (![0, 12, 0, 0] : Fin 4 → Nat) a + S1x1x256x256.size a ≤ S1x16x256x256.size a
  inb_S4096x256_S256x256_3072_0 : ∀ a, (![3072, 0] : Fin 2 → Nat) a + S256x256.size a ≤ S4096x256.size a
  inb_S1x16x256x128_S1x1x256x128_0_13_0_0 : ∀ a, (![0, 13, 0, 0] : Fin 4 → Nat) a + S1x1x256x128.size a ≤ S1x16x256x128.size a
  inb_S4096x256_S256x128_3328_0 : ∀ a, (![3328, 0] : Fin 2 → Nat) a + S256x128.size a ≤ S4096x256.size a
  inb_S1x16x256x256_S1x1x256x256_0_13_0_0 : ∀ a, (![0, 13, 0, 0] : Fin 4 → Nat) a + S1x1x256x256.size a ≤ S1x16x256x256.size a
  inb_S4096x256_S256x256_3328_0 : ∀ a, (![3328, 0] : Fin 2 → Nat) a + S256x256.size a ≤ S4096x256.size a
  inb_S1x16x256x128_S1x1x256x128_0_14_0_0 : ∀ a, (![0, 14, 0, 0] : Fin 4 → Nat) a + S1x1x256x128.size a ≤ S1x16x256x128.size a
  inb_S4096x256_S256x128_3584_0 : ∀ a, (![3584, 0] : Fin 2 → Nat) a + S256x128.size a ≤ S4096x256.size a
  inb_S1x16x256x256_S1x1x256x256_0_14_0_0 : ∀ a, (![0, 14, 0, 0] : Fin 4 → Nat) a + S1x1x256x256.size a ≤ S1x16x256x256.size a
  inb_S4096x256_S256x256_3584_0 : ∀ a, (![3584, 0] : Fin 2 → Nat) a + S256x256.size a ≤ S4096x256.size a
  inb_S1x16x256x128_S1x1x256x128_0_15_0_0 : ∀ a, (![0, 15, 0, 0] : Fin 4 → Nat) a + S1x1x256x128.size a ≤ S1x16x256x128.size a
  inb_S4096x256_S256x128_3840_0 : ∀ a, (![3840, 0] : Fin 2 → Nat) a + S256x128.size a ≤ S4096x256.size a
  inb_S1x16x256x256_S1x1x256x256_0_15_0_0 : ∀ a, (![0, 15, 0, 0] : Fin 4 → Nat) a + S1x1x256x256.size a ≤ S1x16x256x256.size a
  inb_S4096x256_S256x256_3840_0 : ∀ a, (![3840, 0] : Fin 2 → Nat) a + S256x256.size a ≤ S4096x256.size a
  inb_S4096x256_S4096x256_0_0 : ∀ a, (![0, 0] : Fin 2 → Nat) a + S4096x256.size a ≤ S4096x256.size a
  h_S4096x256 : 0 < S4096x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  shapeCasts_S4096x128_S1x4096x128 : S4096x128.ShapeCasts S1x4096x128
  shapeCasts_S8x4096x128_S128x256x128 : S8x4096x128.ShapeCasts S128x256x128
  dot_S256x256_S256x256_S256x256_1_0_0_1_n_n_wf : DotDims.WF S256x256 S256x256 S256x256 [1] [0] [0] [1] [] []
  dot_S4096x256_S256x512_S4096x512_1_0_0_1_n_n_wf : DotDims.WF S4096x256 S256x512 S4096x512 [1] [0] [0] [1] [] []
  dot_S4096x512_S512x128_S4096x128_1_0_0_1_n_n_wf : DotDims.WF S4096x512 S512x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x128.size a ≤ S8x16x256x128.size a
  hwx0_0 : ∀ i : grid0.Coords, EltTy.bits .f32 = 32 ∨ (Rect.block (s := S8x16x256x128) S1x16x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x256x256.size a ≤ S8x16x256x256.size a
  hwx0_1 : ∀ i : grid0.Coords, EltTy.bits .f32 = 32 ∨ (Rect.block (s := S8x16x256x256) S1x16x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096x128.size a ≤ S8x4096x128.size a
  hwx0_5 : ∀ i : grid0.Coords, EltTy.bits .f32 = 32 ∨ (Rect.block (s := S8x4096x128) S1x4096x128.size (cc0_transform_5 i) (hinb0_5 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win0_0 : Pipeline.Window sig grid0 :=
  Pipeline.Window.ofSpec (Memref.whole main_v0) S1x16x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x256x128 : Shape := ⟨3, ![128, 256, 128]⟩
abbrev S128x256x256 : Shape := ⟨3, ![128, 256, 256]⟩
abbrev S128x512 : Shape := ⟨2, ![128, 512]⟩
abbrev S512 : Shape := ⟨1, ![512]⟩
abbrev S512x128 : Shape := ⟨2, ![512, 128]⟩
abbrev S128 : Shape := ⟨1, ![128]⟩
abbrev S128x256x512 : Shape := ⟨3, ![128, 256, 512]⟩
abbrev S1x1x512 : Shape := ⟨3, ![1, 1, 512]⟩
abbrev S_ : Shape := ⟨0, ![]⟩
abbrev S128x256 : Shape := ⟨2, ![128, 256]⟩
abbrev S128x256x1 : Shape := ⟨3, ![128, 256, 1]⟩
abbrev S1x1x128 : Shape := ⟨3, ![1, 1, 128]⟩

abbrev nBuf : Space → Nat
  | .hbm => 27
  | .vmem => 0
  | .smem => 0
  | _ => 0

abbrev bufTy : (tb : Table) → Fin (tcTables nBuf tb) → BufTy
  | .hbm, ⟨0, _⟩ => ⟨S128x256x128, .f32⟩
  | .hbm, ⟨1, _⟩ => ⟨S128x256x256, .f32⟩
  | .hbm, ⟨2, _⟩ => ⟨S128x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S128x256x512, .f32⟩
  | .hbm, ⟨7, _⟩ => ⟨S1x1x512, .f32⟩
  | .hbm, ⟨8, _⟩ => ⟨S128x256x512, .f32⟩
  | .hbm, ⟨9, _⟩ => ⟨S128x256x512, .f32⟩
  | .hbm, ⟨10, _⟩ => ⟨S128x256x512, .f32⟩
  | .hbm, ⟨11, _⟩ => ⟨S_, .f32⟩
  | .hbm, ⟨12, _⟩ => ⟨S128x256, .f32⟩
  | .hbm, ⟨13, _⟩ => ⟨S128x256x1, .f32⟩
  | .hbm, ⟨14, _⟩ => ⟨S_, .f32⟩
  | .hbm, ⟨15, _⟩ => ⟨S_, .f32⟩
  | .hbm, ⟨16, _⟩ => ⟨S128x256x1, .f32⟩
  | .hbm, ⟨17, _⟩ => ⟨S128x256x1, .f32⟩
  | .hbm, ⟨18, _⟩ => ⟨S128x256x512, .f32⟩
  | .hbm, ⟨19, _⟩ => ⟨S128x256x512, .f32⟩
  | .hbm, ⟨20, _⟩ => ⟨S_, .f32⟩
  | .hbm, ⟨21, _⟩ => ⟨S128x256x512, .f32⟩
  | .hbm, ⟨22, _⟩ => ⟨S128x256x512, .f32⟩
  | .hbm, ⟨23, _⟩ => ⟨S128x256x128, .f32⟩
  | .hbm, ⟨24, _⟩ => ⟨S1x1x128, .f32⟩
  | .hbm, ⟨25, _⟩ => ⟨S128x256x128, .f32⟩
  | .hbm, ⟨26, _⟩ => ⟨S128x256x128, .f32⟩
  | _, _ => ⟨S128x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call1_cst : Ref sig .tc := ⟨.hbm, 20, rfl⟩
abbrev main_call1_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S128x256x512_0_1_2 : S1x1x512.BroadcastsInDim S128x256x512 (![0, 1, 2] : Fin 3 → Fin S128x256x512.rank)
  reducesTo_S128x256x256_S128x256_d2 : S128x256x256.ReducesTo [2] S128x256
  h_S_ : 0 < S_.numel
  bcast_S128x256_S128x256x1_0_1 : S128x256.BroadcastsInDim S128x256x1 (![0, 1] : Fin 2 → Fin S128x256x1.rank)
  bcast_S_S128x256x1 : S_.BroadcastsInDim S128x256x1 (![] : Fin 0 → Fin S128x256x1.rank)
  bcast_S128x256x1_S128x256x512_0_1_2 : S128x256x1.BroadcastsInDim S128x256x512 (![0, 1, 2] : Fin 3 → Fin S128x256x512.rank)
  bcast_S_S128x256x512 : S_.BroadcastsInDim S128x256x512 (![] : Fin 0 → Fin S128x256x512.rank)
  bcast_S128_S1x1x128_2 : S128.BroadcastsInDim S1x1x128 (![2] : Fin 1 → Fin S1x1x128.rank)
  bcast_S1x1x128_S128x256x128_0_1_2 : S1x1x128.BroadcastsInDim S128x256x128 (![0, 1, 2] : Fin 3 → Fin S128x256x128.rank)
  dot_S128x256x128_S128x512_S128x256x512_2_0_01_1_n_n_wf : DotDims.WF S128x256x128 S128x512 S128x256x512 [2] [0] [0, 1] [1] [] []
  dot_S128x256x256_S128x256x512_S128x256x512_2_1_1_2_0_0_wf : DotDims.WF S128x256x256 S128x256x512 S128x256x512 [2] [1] [1] [2] [0] [0]
  dot_S128x256x512_S512x128_S128x256x128_2_0_01_1_n_n_wf : DotDims.WF S128x256x512 S512x128 S128x256x128 [2] [0] [0, 1] [1] [] []

variable [Facts₀]

def dot_S128x256x128_S128x512_S128x256x512_2_0_01_1_n_n : DotDims S128x256x128 S128x512 S128x256x512 where
  lhsContracting := [2]
  rhsContracting := [0]
  lhsNonContracting := [0, 1]
  rhsNonContracting := [1]
  lhsBatch := []
  rhsBatch := []
  wf := dot_S128x256x128_S128x512_S128x256x512_2_0_01_1_n_n_wf
def dot_S128x256x256_S128x256x512_S128x256x512_2_1_1_2_0_0 : DotDims S128x256x256 S128x256x512 S128x256x512 where
  lhsContracting := [2]
  rhsContracting := [1]
  lhsNonContracting := [1]
  rhsNonContracting := [2]
  lhsBatch := [0]
  rhsBatch := [0]
  wf := dot_S128x256x256_S128x256x512_S128x256x512_2_1_1_2_0_0_wf
def dot_S128x256x512_S512x128_S128x256x128_2_0_01_1_n_n : DotDims S128x256x512 S512x128 S128x256x128 where
  lhsContracting := [2]
  rhsContracting := [0]
  lhsNonContracting := [0, 1]
  rhsNonContracting := [1]
  lhsBatch := []
  rhsBatch := []
  wf := dot_S128x256x512_S512x128_S128x256x128_2_0_01_1_n_n_wf

class Facts : Prop extends Facts₀ where

variable [Facts]
-- ==== Proof.KB.Kit.lean ====
/-
  The launch side of the fused sub-layer's one region: what the host lines before the region leave in
  the buffers the region stages, the region's proof obligations about the lines around it, each
  window's block at a grid point, and how the run's final memory gives back the six argument arrays.
-/
import proofs.«105909_g1906965479736_cont_8to1_1380_15_alg».proof.Proof.Gen.Kernel.Launch
import proofs.«105909_g1906965479736_cont_8to1_1380_15_alg».proof.Proof.Gen.Kernel.Skeleton
import proofs.«105909_g1906965479736_cont_8to1_1380_15_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers of core `c` when the region is entered: the start memory after the seven host lines
    (two reshapes, the bias row, the zero block, the widened weight matrix, the output bias row). -/
abbrev V0 (c : Dev nD) : Valuation τ sig (Elt F) := StableHlo.after (List.flatten [hostOps0]) (fun b => m (c, b))
/-- The same read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the region, the region, the one reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes its own result only, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes `main_arg0`: the region finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg1`: the region finds it as it was at the start. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg2`: the region finds it as it was at the start. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg3`: the region finds it as it was at the start. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg4`: the region finds it as it was at the start. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg5`: the region finds it as it was at the start. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg0`, and no window stages it: it ends as it was at the start. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line after the region writes `main_arg1`, and no window stages it: it ends as it was at the start. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes `main_arg2`, and no window stages it: it ends as it was at the start. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the region writes `main_arg3`, and no window stages it: it ends as it was at the start. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line after the region writes `main_arg5`, and no window stages it: it ends as it was at the start. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The six argument arrays at the end -/

/-- From a run that ends with every staged array at what the proof data computes and every other
    unscoped buffer as the reshape after the region leaves it: the six argument arrays end as they
    began (the second dense layer's weights are a staged input; the other five bypass the region). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(((h c).2 main_arg0 (Pipeline.mem_restRefs_of main_arg0 (by decide) (by decide))).trans (W_main_arg0 m dats c)), (((h c).2 main_arg1 (Pipeline.mem_restRefs_of main_arg1 (by decide) (by decide))).trans (W_main_arg1 m dats c)), (((h c).2 main_arg2 (Pipeline.mem_restRefs_of main_arg2 (by decide) (by decide))).trans (W_main_arg2 m dats c)), (((h c).2 main_arg3 (Pipeline.mem_restRefs_of main_arg3 (by decide) (by decide))).trans (W_main_arg3 m dats c)),
    ((h c).1 3).trans (((dats 0 c).arrAt_in 3 rfl _).trans ((hA c 3).trans (V_main_arg4 m c))), (((h c).2 main_arg5 (Pipeline.mem_restRefs_of main_arg5 (by decide) (by decide))).trans (W_main_arg5 m dats c))⟩) h

/-! ## The branch on the first grid point -/

/-- The body's one branch: the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- No window is ever idle. -/
theorem liveAt0 : ∀ (w : Fin cfg0.W) (t : Fin cfg0.N), cfg0.idle w (grid0.coords t) = false := by decide +kernel

/-! ## The staging and scratch memrefs -/

abbrev VO0_5 : View sig .tc .vmem S1x4096x128 .f32 := (Memref.whole cc0_stg5_0 : Memref sig .tc .vmem S1x4096x128 .f32).view
abbrev ms0_0 (t : Fin cfg0.N) : Memref sig .tc .vmem S1x16x256x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16x256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096x128 .f32 := win0_5.stage (cfg0.slots t 5)
abbrev hs0_5 (t : Fin cfg0.N) : (ms0_5 t).IsWhole := hstage0_5 ((cfg0.slots t 5).cast nbuf0_5)
/-- The two scratch operands: the widened feature rows, kept between grid points, and the scaled aggregate. -/
abbrev scM0_0 : Memref sig .tc .vmem S4096x256 .f32 := Memref.whole cc0_scratch0
abbrev scM0_1 : Memref sig .tc .vmem S4096x256 .f32 := Memref.whole cc0_scratch1
abbrev VS0_0 : View sig .tc .vmem S4096x256 .f32 := scM0_0.view

/-- What the region hands the body besides the windows: the two scratch buffers at some contents and
    the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.KB.Run.lean ====
/-
  The kernel body run once, symbolically, in each of its two cases: at the first grid point, where the
  constant lanes of the widened feature rows are written before anything else, and at every later point,
  where they are found as the point before left them.  From the five input blocks held at their contents,
  the output block at anything, the feature scratch at `xs0` and the aggregate scratch at anything, the body
  runs to its end leaving the inputs as they were, the output block with the one store listed, and the
  feature scratch with its stores listed over `xs0`.
-/
import proofs.«105909_g1906965479736_cont_8to1_1380_15_alg».proof.Proof.KB.Kit

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .f32) (harg7 : arg7.IsWhole) (arg8 : Memref sig .tc .vmem S4096x256 .f32) (harg8 : arg8.IsWhole) (hc0 : cond0_0 i)
    (x0 : Vec F S1x16x256x128 .f32) (x1 : Vec F S1x16x256x256 .f32) (x2 : Vec F S256x512 .f32) (x3 : Vec F S512x128 .f32) (x4 : Vec F S1x128 .f32) :
    Σ' (L5 : List (View.Piece (Elt F) S1x4096x128 .f32)), { LS0 : List (View.Piece (Elt F) S4096x256 .f32) //
      ∀ (xs0 : Vec F S4096x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xs0 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (arg7.view.loc (c : Thread nD τ) ↦[arg7.view.set]{fullShare} arg7.view.writes (Elt F) (harg7.unread xs0) LS0)
                ∗ (∃ d, owns (c : Thread nD τ) arg8 fullShare d)) -∗ K ⟨⟩))
          ⊢ wp frame (wpE (defs₀ (F := F)) Variants.none c none) E (cc0__fused i arg1 harg1 arg2 harg2 arg3 harg3 arg4 harg4 arg5 harg5 arg6 harg6 arg7 harg7 arg8 harg8) K } := by
  refine ⟨?_, ?_, fun xs0 E K => ?run⟩
  case run =>
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs0, %hfs0, HS0⟩, ⟨%d8, %fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec_parts (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [HS0]
    · iexact HS0
    iexists _; iexists _; isplitr; swap; · iexact HS1
    ipureintro; rfl

set_option maxHeartbeats 4000000 in
noncomputable def kernelRun0_B (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .f32) (harg7 : arg7.IsWhole) (arg8 : Memref sig .tc .vmem S4096x256 .f32) (harg8 : arg8.IsWhole) (hc0 : ¬cond0_0 i)
    (x0 : Vec F S1x16x256x128 .f32) (x1 : Vec F S1x16x256x256 .f32) (x2 : Vec F S256x512 .f32) (x3 : Vec F S512x128 .f32) (x4 : Vec F S1x128 .f32) (xs0 : Vec F S4096x256 .f32) :
    Σ' (L5 : List (View.Piece (Elt F) S1x4096x128 .f32)), { LS0 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xs0 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (arg7.view.loc (c : Thread nD τ) ↦[arg7.view.set]{fullShare} arg7.view.writes (Elt F) (harg7.unread xs0) LS0)
                ∗ (∃ d, owns (c : Thread nD τ) arg8 fullShare d)) -∗ K ⟨⟩))
          ⊢ wp frame (wpE (defs₀ (F := F)) Variants.none c none) E (cc0__fused i arg1 harg1 arg2 harg2 arg3 harg3 arg4 harg4 arg5 harg5 arg6 harg6 arg7 harg7 arg8 harg8) K } := by
  refine ⟨?_, ?_, fun E K => ?run⟩
  case run =>
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs0, %hfs0, HS0⟩, ⟨%d8, %fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec_parts (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [HS0]
    · iexact HS0
    iexists _; iexists _; isplitr; swap; · iexact HS1
    ipureintro; rfl

end Cert.Kernel.Gen

end
-- ==== Proof.KB.Covers.lean ====
/-
  The stores each run of the body found cover the buffers they fill: at the first grid point the feature
  scratch is covered by the sixteen blocks of feature rows and the constant fill of the high lanes; in
  either case the one store into the output block covers it.
-/
import proofs.«105909_g1906965479736_cont_8to1_1380_15_alg».proof.Proof.KB.Run

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's stores into the feature scratch cover it. -/
theorem scover0_A (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .f32) (harg7 : arg7.IsWhole) (arg8 : Memref sig .tc .vmem S4096x256 .f32) (harg8 : arg8.IsWhole) (hc0 : cond0_0 i)
    (x0 : Vec F S1x16x256x128 .f32) (x1 : Vec F S1x16x256x256 .f32) (x2 : Vec F S256x512 .f32) (x3 : Vec F S512x128 .f32) (x4 : Vec F S1x128 .f32) (y : S4096x256.Idx) :
    ∃ pc ∈ (kernelRun0_A c i arg1 harg1 arg2 harg2 arg3 harg3 arg4 harg4 arg5 harg5 arg6 harg6 arg7 harg7 arg8 harg8 hc0 x0 x1 x2 x3 x4).2.1, y ∈ pc.1.set :=
  View.cover_of_tiledBy (kernelRun0_A c i arg1 harg1 arg2 harg2 arg3 harg3 arg4 harg4 arg5 harg5 arg6 harg6 arg7 harg7 arg8 harg8 hc0 x0 x1 x2 x3 x4).2.1 ![256, 128] (by sl_kernel_rfl) y

/-- The one store into the output block covers it, in either case. -/
theorem cover0_A (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .f32) (harg7 : arg7.IsWhole) (arg8 : Memref sig .tc .vmem S4096x256 .f32) (harg8 : arg8.IsWhole) (hc0 : cond0_0 i)
    (x0 : Vec F S1x16x256x128 .f32) (x1 : Vec F S1x16x256x256 .f32) (x2 : Vec F S256x512 .f32) (x3 : Vec F S512x128 .f32) (x4 : Vec F S1x128 .f32) (y : S1x4096x128.Idx) :
    ∃ pc ∈ (kernelRun0_A c i arg1 harg1 arg2 harg2 arg3 harg3 arg4 harg4 arg5 harg5 arg6 harg6 arg7 harg7 arg8 harg8 hc0 x0 x1 x2 x3 x4).1, y ∈ pc.1.set :=
  View.cover_of_tiledL (kernelRun0_A c i arg1 harg1 arg2 harg2 arg3 harg3 arg4 harg4 arg5 harg5 arg6 harg6 arg7 harg7 arg8 harg8 hc0 x0 x1 x2 x3 x4).1 S1x4096x128.size (by sl_kernel_rfl) y
theorem cover0_B (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .f32) (harg7 : arg7.IsWhole) (arg8 : Memref sig .tc .vmem S4096x256 .f32) (harg8 : arg8.IsWhole) (hc0 : ¬cond0_0 i)
    (x0 : Vec F S1x16x256x128 .f32) (x1 : Vec F S1x16x256x256 .f32) (x2 : Vec F S256x512 .f32) (x3 : Vec F S512x128 .f32) (x4 : Vec F S1x128 .f32) (xs0 : Vec F S4096x256 .f32) (y : S1x4096x128.Idx) :
    ∃ pc ∈ (kernelRun0_B c i arg1 harg1 arg2 harg2 arg3 harg3 arg4 harg4 arg5 harg5 arg6 harg6 arg7 harg7 arg8 harg8 hc0 x0 x1 x2 x3 x4 xs0).1, y ∈ pc.1.set :=
  View.cover_of_tiledL (kernelRun0_B c i arg1 harg1 arg2 harg2 arg3 harg3 arg4 harg4 arg5 harg5 arg6 harg6 arg7 harg7 arg8 harg8 hc0 x0 x1 x2 x3 x4 xs0).1 S1x4096x128.size (by sl_kernel_rfl) y

end Cert.Kernel.Gen

end
-- ==== Proof.KB.Data.lean ====
/-
  The proof data of the region: what every grid point leaves in each window's buffer and in the feature
  scratch the kernel keeps from one point to the next — the body's stores written over what the point
  before left (at the first point they cover the whole scratch, so what it held before does not matter).
-/
import proofs.«105909_g1906965479736_cont_8to1_1380_15_alg».proof.Proof.KB.Covers

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output block and the feature scratch hold after the body at point `n` (a pair): the case of
    the point run at its memrefs and input blocks, the scratch found as the point before left it. -/
def outsAt0 (c : Dev nD) : (n : ℕ) → n < cfg0.N → Vec F S1x4096x128 .f32 × Vec F S4096x256 .f32
  | 0, hn =>
    (VO0_5.read (Elt F) (VO0_5.writes (Elt F) VO0_5.junk (kernelRun0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩)).1),
     VS0_0.read (Elt F) (VS0_0.writes (Elt F) VS0_0.junk (kernelRun0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩)).2.1))
  | n + 1, hn =>
    (VO0_5.read (Elt F) (VO0_5.writes (Elt F) VO0_5.junk (kernelRun0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2).1),
     VS0_0.read (Elt F) (VS0_0.writes (Elt F) ((Memref.isWhole_whole cc0_scratch0).unread (outsAt0 c n (Nat.lt_of_succ_lt hn)).2) (kernelRun0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2).2.1))

/-- At the first point: the first case's contents. -/
theorem outsAt0_first (c : Dev nD) (t : Fin cfg0.N) (h0 : t.val = 0) :
    outsAt0 m c t.val t.isLt = (VO0_5.read (Elt F) (VO0_5.writes (Elt F) VO0_5.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)).1),
     VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)).2.1)) := by
  obtain ⟨n, hn⟩ := t
  cases n with
  | zero => exact rfl
  | succ n => exact absurd h0 (Nat.succ_ne_zero n)

/-- At a later point: the second case's contents, over what the point before left. -/
theorem outsAt0_later (c : Dev nD) (t : Fin cfg0.N) (h0 : ¬t.val = 0) :
    outsAt0 m c t.val t.isLt = (VO0_5.read (Elt F) (VO0_5.writes (Elt F) VO0_5.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2).1),
     VS0_0.read (Elt F) (VS0_0.writes (Elt F) ((Memref.isWhole_whole cc0_scratch0).unread (outsAt0 m c (t.val - 1) (Nat.lt_of_le_of_lt (Nat.sub_le _ _) t.isLt)).2) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2).2.1)) := by
  obtain ⟨n, hn⟩ := t
  cases n with
  | zero => exact absurd rfl h0
  | succ n => exact rfl

/-- What the region holds besides the windows before point `n`: at the start the two scratch buffers at
    anything; afterwards the feature scratch at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

end Cert.Kernel.Gen

end
-- ==== Proof.KB.Body.lean ====
/-
  The body obligation: at every grid point the body, started from the windows' buffers and the scratch as
  the proof data say, runs to its end and leaves them as the proof data say.
-/
import proofs.«105909_g1906965479736_cont_8to1_1380_15_alg».proof.Proof.KB.Data

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves0_0 (c : Dev nD) (t : Fin cfg0.N) :
    (dats m 0 c).leavesExact 0 t = owns (c : Thread nD τ) (ms0_0 t) fullShare ((dats m 0 c).after 0 t) := by
  unfold Dat.leavesExact; rw [liveAt0 0 t]
theorem leaves0_1 (c : Dev nD) (t : Fin cfg0.N) :
    (dats m 0 c).leavesExact 1 t = owns (c : Thread nD τ) (ms0_1 t) fullShare ((dats m 0 c).after 1 t) := by
  unfold Dat.leavesExact; rw [liveAt0 1 t]
theorem leaves0_2 (c : Dev nD) (t : Fin cfg0.N) :
    (dats m 0 c).leavesExact 2 t = owns (c : Thread nD τ) (ms0_2 t) fullShare ((dats m 0 c).after 2 t) := by
  unfold Dat.leavesExact; rw [liveAt0 2 t]
theorem leaves0_3 (c : Dev nD) (t : Fin cfg0.N) :
    (dats m 0 c).leavesExact 3 t = owns (c : Thread nD τ) (ms0_3 t) fullShare ((dats m 0 c).after 3 t) := by
  unfold Dat.leavesExact; rw [liveAt0 3 t]
theorem leaves0_4 (c : Dev nD) (t : Fin cfg0.N) :
    (dats m 0 c).leavesExact 4 t = owns (c : Thread nD τ) (ms0_4 t) fullShare ((dats m 0 c).after 4 t) := by
  unfold Dat.leavesExact; rw [liveAt0 4 t]
theorem leaves0_5 (c : Dev nD) (t : Fin cfg0.N) :
    (dats m 0 c).leavesExact 5 t = owns (c : Thread nD τ) (ms0_5 t) fullShare ((dats m 0 c).after 5 t) := by
  unfold Dat.leavesExact; rw [liveAt0 5 t]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5,
    after0_0, after0_1, after0_2, after0_3, after0_4, after0_5]
  by_cases h0 : t.val = 0
  · rw [outsAt0_first m c t h0]
    (try dsimp only)
    rw [PhiS_castSucc m c t, PhiS_zero m c _ _ h0, PhiA0_eq]
    iintro ⟨⟨⟨⟨%ds0, HS0⟩, HS1⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)).2.2 ds0 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%f5, H5⟩, HS0, HS1⟩
    isplitl [HS0 HS1 Hg]
    · isplitl [HS0 HS1]
      · isplitl [HS0]
        · unfold owns; iexists _; isplitr
          swap; · iexact HS0
          ipureintro; exact View.read_writes_of_cover _ _ _ _ _ (scover0_A (F := F) c _ _ _ _ _ _ _ _ _ _ _ _ _ _ _ _ _ _ _ _ _ _ _)
        iexact HS1
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact View.read_writes_of_cover _ _ _ _ _ (cover0_A (F := F) c _ _ _ _ _ _ _ _ _ _ _ _ _ _ _ _ _ _ _ _ _ _ _)
  · rw [outsAt0_later m c t h0]
    (try dsimp only)
    rw [PhiS_castSucc m c t, PhiS_pos m c _ _ h0]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%f5, H5⟩, HS0, HS1⟩
    isplitl [HS0 HS1 Hg]
    · isplitl [HS0 HS1]
      · isplitl [HS0]
        · unfold owns; iexists _; isplitr
          swap; · iexact HS0
          ipureintro; rfl
        iexact HS1
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact View.read_writes_of_cover _ _ _ _ _ (cover0_B (F := F) c _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

theorem hout (c : Dev nD) : (dats m 0 c).Φ (Fin.last cfg0.N) ⊢ Pipeline.ΦA spec0 c :=
  Phi_out m c _ (by rw [Fin.val_last]; have : cfg0.N = 8 := N_0; omega)

end Cert.Kernel.Gen

end
-- ==== Proof.KB.Frame.lean ====
/-
  The run of the whole program and its frame: every weakly fair execution ends without a fault, and the
  six argument arrays end as they began.
-/
import proofs.«105909_g1906965479736_cont_8to1_1380_15_alg».proof.Proof.KB.Body

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, with every staged array at what the
    proof data compute and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The six argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Gen

end
-- ==== Proof.KI.Kit.lean ====
/-
  The launch side of the fused sub-layer's one region: what the host lines before the region leave in
  the buffers the region stages, the region's proof obligations about the lines around it, each
  window's block at a grid point, and how the run's final memory gives back the six argument arrays.
-/
import proofs.«105909_g1906965479736_cont_8to1_1380_15_alg».proof.Proof.Gen.KernelIdeal.Launch
import proofs.«105909_g1906965479736_cont_8to1_1380_15_alg».proof.Proof.Gen.KernelIdeal.Skeleton
import proofs.«105909_g1906965479736_cont_8to1_1380_15_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers of core `c` when the region is entered: the start memory after the seven host lines
    (two reshapes, the bias row, the zero block, the widened weight matrix, the output bias row). -/
abbrev V0 (c : Dev nD) : Valuation τ sig (Elt F) := StableHlo.after (List.flatten [hostOps0]) (fun b => m (c, b))
/-- The same read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the region, the region, the one reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes its own result only, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes `main_arg0`: the region finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg1`: the region finds it as it was at the start. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg2`: the region finds it as it was at the start. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg3`: the region finds it as it was at the start. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg4`: the region finds it as it was at the start. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg5`: the region finds it as it was at the start. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg0`, and no window stages it: it ends as it was at the start. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line after the region writes `main_arg1`, and no window stages it: it ends as it was at the start. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes `main_arg2`, and no window stages it: it ends as it was at the start. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the region writes `main_arg3`, and no window stages it: it ends as it was at the start. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line after the region writes `main_arg5`, and no window stages it: it ends as it was at the start. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The six argument arrays at the end -/

/-- From a run that ends with every staged array at what the proof data computes and every other
    unscoped buffer as the reshape after the region leaves it: the six argument arrays end as they
    began (the second dense layer's weights are a staged input; the other five bypass the region). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(((h c).2 main_arg0 (Pipeline.mem_restRefs_of main_arg0 (by decide) (by decide))).trans (W_main_arg0 m dats c)), (((h c).2 main_arg1 (Pipeline.mem_restRefs_of main_arg1 (by decide) (by decide))).trans (W_main_arg1 m dats c)), (((h c).2 main_arg2 (Pipeline.mem_restRefs_of main_arg2 (by decide) (by decide))).trans (W_main_arg2 m dats c)), (((h c).2 main_arg3 (Pipeline.mem_restRefs_of main_arg3 (by decide) (by decide))).trans (W_main_arg3 m dats c)),
    ((h c).1 3).trans (((dats 0 c).arrAt_in 3 rfl _).trans ((hA c 3).trans (V_main_arg4 m c))), (((h c).2 main_arg5 (Pipeline.mem_restRefs_of main_arg5 (by decide) (by decide))).trans (W_main_arg5 m dats c))⟩) h

/-! ## The branch on the first grid point -/

/-- The body's one branch: the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- No window is ever idle. -/
theorem liveAt0 : ∀ (w : Fin cfg0.W) (t : Fin cfg0.N), cfg0.idle w (grid0.coords t) = false := by decide +kernel

/-! ## The staging and scratch memrefs -/

abbrev VO0_5 : View sig .tc .vmem S1x4096x128 .f32 := (Memref.whole cc0_stg5_0 : Memref sig .tc .vmem S1x4096x128 .f32).view
abbrev ms0_0 (t : Fin cfg0.N) : Memref sig .tc .vmem S1x16x256x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16x256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096x128 .f32 := win0_5.stage (cfg0.slots t 5)
abbrev hs0_5 (t : Fin cfg0.N) : (ms0_5 t).IsWhole := hstage0_5 ((cfg0.slots t 5).cast nbuf0_5)
/-- The two scratch operands: the widened feature rows, kept between grid points, and the scaled aggregate. -/
abbrev scM0_0 : Memref sig .tc .vmem S4096x256 .f32 := Memref.whole cc0_scratch0
abbrev scM0_1 : Memref sig .tc .vmem S4096x256 .f32 := Memref.whole cc0_scratch1
abbrev VS0_0 : View sig .tc .vmem S4096x256 .f32 := scM0_0.view

/-- What the region hands the body besides the windows: the two scratch buffers at some contents and
    the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.KI.Run.lean ====
/-
  The kernel body run once, symbolically, in each of its two cases: at the first grid point, where the
  constant lanes of the widened feature rows are written before anything else, and at every later point,
  where they are found as the point before left them.  From the five input blocks held at their contents,
  the output block at anything, the feature scratch at `xs0` and the aggregate scratch at anything, the body
  runs to its end leaving the inputs as they were, the output block with the one store listed, and the
  feature scratch with its stores listed over `xs0`.
-/
import proofs.«105909_g1906965479736_cont_8to1_1380_15_alg».proof.Proof.KI.Kit

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .f32) (harg7 : arg7.IsWhole) (arg8 : Memref sig .tc .vmem S4096x256 .f32) (harg8 : arg8.IsWhole) (hc0 : cond0_0 i)
    (x0 : Vec F S1x16x256x128 .f32) (x1 : Vec F S1x16x256x256 .f32) (x2 : Vec F S256x512 .f32) (x3 : Vec F S512x128 .f32) (x4 : Vec F S1x128 .f32) :
    Σ' (L5 : List (View.Piece (Elt F) S1x4096x128 .f32)), { LS0 : List (View.Piece (Elt F) S4096x256 .f32) //
      ∀ (xs0 : Vec F S4096x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xs0 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (arg7.view.loc (c : Thread nD τ) ↦[arg7.view.set]{fullShare} arg7.view.writes (Elt F) (harg7.unread xs0) LS0)
                ∗ (∃ d, owns (c : Thread nD τ) arg8 fullShare d)) -∗ K ⟨⟩))
          ⊢ wp frame (wpE (defs₀ (F := F)) Variants.none c none) E (cc0__fused i arg1 harg1 arg2 harg2 arg3 harg3 arg4 harg4 arg5 harg5 arg6 harg6 arg7 harg7 arg8 harg8) K } := by
  refine ⟨?_, ?_, fun xs0 E K => ?run⟩
  case run =>
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs0, %hfs0, HS0⟩, ⟨%d8, %fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec_parts (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [HS0]
    · iexact HS0
    iexists _; iexists _; isplitr; swap; · iexact HS1
    ipureintro; rfl

set_option maxHeartbeats 4000000 in
noncomputable def kernelRun0_B (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .f32) (harg7 : arg7.IsWhole) (arg8 : Memref sig .tc .vmem S4096x256 .f32) (harg8 : arg8.IsWhole) (hc0 : ¬cond0_0 i)
    (x0 : Vec F S1x16x256x128 .f32) (x1 : Vec F S1x16x256x256 .f32) (x2 : Vec F S256x512 .f32) (x3 : Vec F S512x128 .f32) (x4 : Vec F S1x128 .f32) (xs0 : Vec F S4096x256 .f32) :
    Σ' (L5 : List (View.Piece (Elt F) S1x4096x128 .f32)), { LS0 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xs0 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (arg7.view.loc (c : Thread nD τ) ↦[arg7.view.set]{fullShare} arg7.view.writes (Elt F) (harg7.unread xs0) LS0)
                ∗ (∃ d, owns (c : Thread nD τ) arg8 fullShare d)) -∗ K ⟨⟩))
          ⊢ wp frame (wpE (defs₀ (F := F)) Variants.none c none) E (cc0__fused i arg1 harg1 arg2 harg2 arg3 harg3 arg4 harg4 arg5 harg5 arg6 harg6 arg7 harg7 arg8 harg8) K } := by
  refine ⟨?_, ?_, fun E K => ?run⟩
  case run =>
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs0, %hfs0, HS0⟩, ⟨%d8, %fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec_parts (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [HS0]
    · iexact HS0
    iexists _; iexists _; isplitr; swap; · iexact HS1
    ipureintro; rfl

end Cert.KernelIdeal.Gen

end
-- ==== Proof.KI.Covers.lean ====
/-
  The stores each run of the body found cover the buffers they fill: at the first grid point the feature
  scratch is covered by the sixteen blocks of feature rows and the constant fill of the high lanes; in
  either case the one store into the output block covers it.
-/
import proofs.«105909_g1906965479736_cont_8to1_1380_15_alg».proof.Proof.KI.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's stores into the feature scratch cover it. -/
theorem scover0_A (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .f32) (harg7 : arg7.IsWhole) (arg8 : Memref sig .tc .vmem S4096x256 .f32) (harg8 : arg8.IsWhole) (hc0 : cond0_0 i)
    (x0 : Vec F S1x16x256x128 .f32) (x1 : Vec F S1x16x256x256 .f32) (x2 : Vec F S256x512 .f32) (x3 : Vec F S512x128 .f32) (x4 : Vec F S1x128 .f32) (y : S4096x256.Idx) :
    ∃ pc ∈ (kernelRun0_A c i arg1 harg1 arg2 harg2 arg3 harg3 arg4 harg4 arg5 harg5 arg6 harg6 arg7 harg7 arg8 harg8 hc0 x0 x1 x2 x3 x4).2.1, y ∈ pc.1.set :=
  View.cover_of_tiledBy (kernelRun0_A c i arg1 harg1 arg2 harg2 arg3 harg3 arg4 harg4 arg5 harg5 arg6 harg6 arg7 harg7 arg8 harg8 hc0 x0 x1 x2 x3 x4).2.1 ![256, 128] (by sl_kernel_rfl) y

/-- The one store into the output block covers it, in either case. -/
theorem cover0_A (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .f32) (harg7 : arg7.IsWhole) (arg8 : Memref sig .tc .vmem S4096x256 .f32) (harg8 : arg8.IsWhole) (hc0 : cond0_0 i)
    (x0 : Vec F S1x16x256x128 .f32) (x1 : Vec F S1x16x256x256 .f32) (x2 : Vec F S256x512 .f32) (x3 : Vec F S512x128 .f32) (x4 : Vec F S1x128 .f32) (y : S1x4096x128.Idx) :
    ∃ pc ∈ (kernelRun0_A c i arg1 harg1 arg2 harg2 arg3 harg3 arg4 harg4 arg5 harg5 arg6 harg6 arg7 harg7 arg8 harg8 hc0 x0 x1 x2 x3 x4).1, y ∈ pc.1.set :=
  View.cover_of_tiledL (kernelRun0_A c i arg1 harg1 arg2 harg2 arg3 harg3 arg4 harg4 arg5 harg5 arg6 harg6 arg7 harg7 arg8 harg8 hc0 x0 x1 x2 x3 x4).1 S1x4096x128.size (by sl_kernel_rfl) y
theorem cover0_B (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .f32) (harg7 : arg7.IsWhole) (arg8 : Memref sig .tc .vmem S4096x256 .f32) (harg8 : arg8.IsWhole) (hc0 : ¬cond0_0 i)
    (x0 : Vec F S1x16x256x128 .f32) (x1 : Vec F S1x16x256x256 .f32) (x2 : Vec F S256x512 .f32) (x3 : Vec F S512x128 .f32) (x4 : Vec F S1x128 .f32) (xs0 : Vec F S4096x256 .f32) (y : S1x4096x128.Idx) :
    ∃ pc ∈ (kernelRun0_B c i arg1 harg1 arg2 harg2 arg3 harg3 arg4 harg4 arg5 harg5 arg6 harg6 arg7 harg7 arg8 harg8 hc0 x0 x1 x2 x3 x4 xs0).1, y ∈ pc.1.set :=
  View.cover_of_tiledL (kernelRun0_B c i arg1 harg1 arg2 harg2 arg3 harg3 arg4 harg4 arg5 harg5 arg6 harg6 arg7 harg7 arg8 harg8 hc0 x0 x1 x2 x3 x4 xs0).1 S1x4096x128.size (by sl_kernel_rfl) y

end Cert.KernelIdeal.Gen

end
-- ==== Proof.KI.Data.lean ====
/-
  The proof data of the region: what every grid point leaves in each window's buffer and in the feature
  scratch the kernel keeps from one point to the next — the body's stores written over what the point
  before left (at the first point they cover the whole scratch, so what it held before does not matter).
-/
import proofs.«105909_g1906965479736_cont_8to1_1380_15_alg».proof.Proof.KI.Covers

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output block and the feature scratch hold after the body at point `n` (a pair): the case of
    the point run at its memrefs and input blocks, the scratch found as the point before left it. -/
def outsAt0 (c : Dev nD) : (n : ℕ) → n < cfg0.N → Vec F S1x4096x128 .f32 × Vec F S4096x256 .f32
  | 0, hn =>
    (VO0_5.read (Elt F) (VO0_5.writes (Elt F) VO0_5.junk (kernelRun0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩)).1),
     VS0_0.read (Elt F) (VS0_0.writes (Elt F) VS0_0.junk (kernelRun0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩)).2.1))
  | n + 1, hn =>
    (VO0_5.read (Elt F) (VO0_5.writes (Elt F) VO0_5.junk (kernelRun0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2).1),
     VS0_0.read (Elt F) (VS0_0.writes (Elt F) ((Memref.isWhole_whole cc0_scratch0).unread (outsAt0 c n (Nat.lt_of_succ_lt hn)).2) (kernelRun0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2).2.1))

/-- At the first point: the first case's contents. -/
theorem outsAt0_first (c : Dev nD) (t : Fin cfg0.N) (h0 : t.val = 0) :
    outsAt0 m c t.val t.isLt = (VO0_5.read (Elt F) (VO0_5.writes (Elt F) VO0_5.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)).1),
     VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)).2.1)) := by
  obtain ⟨n, hn⟩ := t
  cases n with
  | zero => exact rfl
  | succ n => exact absurd h0 (Nat.succ_ne_zero n)

/-- At a later point: the second case's contents, over what the point before left. -/
theorem outsAt0_later (c : Dev nD) (t : Fin cfg0.N) (h0 : ¬t.val = 0) :
    outsAt0 m c t.val t.isLt = (VO0_5.read (Elt F) (VO0_5.writes (Elt F) VO0_5.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2).1),
     VS0_0.read (Elt F) (VS0_0.writes (Elt F) ((Memref.isWhole_whole cc0_scratch0).unread (outsAt0 m c (t.val - 1) (Nat.lt_of_le_of_lt (Nat.sub_le _ _) t.isLt)).2) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2).2.1)) := by
  obtain ⟨n, hn⟩ := t
  cases n with
  | zero => exact absurd rfl h0
  | succ n => exact rfl

/-- What the region holds besides the windows before point `n`: at the start the two scratch buffers at
    anything; afterwards the feature scratch at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

end Cert.KernelIdeal.Gen

end
-- ==== Proof.KI.Body.lean ====
/-
  The body obligation: at every grid point the body, started from the windows' buffers and the scratch as
  the proof data say, runs to its end and leaves them as the proof data say.
-/
import proofs.«105909_g1906965479736_cont_8to1_1380_15_alg».proof.Proof.KI.Data

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves0_0 (c : Dev nD) (t : Fin cfg0.N) :
    (dats m 0 c).leavesExact 0 t = owns (c : Thread nD τ) (ms0_0 t) fullShare ((dats m 0 c).after 0 t) := by
  unfold Dat.leavesExact; rw [liveAt0 0 t]
theorem leaves0_1 (c : Dev nD) (t : Fin cfg0.N) :
    (dats m 0 c).leavesExact 1 t = owns (c : Thread nD τ) (ms0_1 t) fullShare ((dats m 0 c).after 1 t) := by
  unfold Dat.leavesExact; rw [liveAt0 1 t]
theorem leaves0_2 (c : Dev nD) (t : Fin cfg0.N) :
    (dats m 0 c).leavesExact 2 t = owns (c : Thread nD τ) (ms0_2 t) fullShare ((dats m 0 c).after 2 t) := by
  unfold Dat.leavesExact; rw [liveAt0 2 t]
theorem leaves0_3 (c : Dev nD) (t : Fin cfg0.N) :
    (dats m 0 c).leavesExact 3 t = owns (c : Thread nD τ) (ms0_3 t) fullShare ((dats m 0 c).after 3 t) := by
  unfold Dat.leavesExact; rw [liveAt0 3 t]
theorem leaves0_4 (c : Dev nD) (t : Fin cfg0.N) :
    (dats m 0 c).leavesExact 4 t = owns (c : Thread nD τ) (ms0_4 t) fullShare ((dats m 0 c).after 4 t) := by
  unfold Dat.leavesExact; rw [liveAt0 4 t]
theorem leaves0_5 (c : Dev nD) (t : Fin cfg0.N) :
    (dats m 0 c).leavesExact 5 t = owns (c : Thread nD τ) (ms0_5 t) fullShare ((dats m 0 c).after 5 t) := by
  unfold Dat.leavesExact; rw [liveAt0 5 t]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5,
    after0_0, after0_1, after0_2, after0_3, after0_4, after0_5]
  by_cases h0 : t.val = 0
  · rw [outsAt0_first m c t h0]
    (try dsimp only)
    rw [PhiS_castSucc m c t, PhiS_zero m c _ _ h0, PhiA0_eq]
    iintro ⟨⟨⟨⟨%ds0, HS0⟩, HS1⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)).2.2 ds0 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%f5, H5⟩, HS0, HS1⟩
    isplitl [HS0 HS1 Hg]
    · isplitl [HS0 HS1]
      · isplitl [HS0]
        · unfold owns; iexists _; isplitr
          swap; · iexact HS0
          ipureintro; exact View.read_writes_of_cover _ _ _ _ _ (scover0_A (F := F) c _ _ _ _ _ _ _ _ _ _ _ _ _ _ _ _ _ _ _ _ _ _ _)
        iexact HS1
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact View.read_writes_of_cover _ _ _ _ _ (cover0_A (F := F) c _ _ _ _ _ _ _ _ _ _ _ _ _ _ _ _ _ _ _ _ _ _ _)
  · rw [outsAt0_later m c t h0]
    (try dsimp only)
    rw [PhiS_castSucc m c t, PhiS_pos m c _ _ h0]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%f5, H5⟩, HS0, HS1⟩
    isplitl [HS0 HS1 Hg]
    · isplitl [HS0 HS1]
      · isplitl [HS0]
        · unfold owns; iexists _; isplitr
          swap; · iexact HS0
          ipureintro; rfl
        iexact HS1
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact View.read_writes_of_cover _ _ _ _ _ (cover0_B (F := F) c _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

theorem hout (c : Dev nD) : (dats m 0 c).Φ (Fin.last cfg0.N) ⊢ Pipeline.ΦA spec0 c :=
  Phi_out m c _ (by rw [Fin.val_last]; have : cfg0.N = 8 := N_0; omega)

end Cert.KernelIdeal.Gen

end
-- ==== Proof.KI.Frame.lean ====
/-
  The run of the whole program and its frame: every weakly fair execution ends without a fault, and the
  six argument arrays end as they began.
-/
import proofs.«105909_g1906965479736_cont_8to1_1380_15_alg».proof.Proof.KI.Body

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, with every staged array at what the
    proof data compute and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The six argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Gen

end
-- ==== Proof.KI.Mha.lean ====
/-
  One grid point of the fused sub-layer in closed form.  A point handles sixteen graphs of 256 nodes: row
  `r` of its 4096 rows is node `r % 256` of graph `r / 256`.  The widened feature rows hold the 128
  features, then a one, then zeros; the scaled aggregate of a row is the mask row times the widened
  feature rows of its graph, every lane divided by max(lane 128, 1); the output block is the positive
  part of the scaled aggregate times the widened weights, times the second layer's weights, plus its bias.
-/
import proofs.«105909_g1906965479736_cont_8to1_1380_15_alg».proof.Proof.Gen.KernelIdeal.Skeleton
import Idealize.ShloMosaic.Lib.ValueIdx

noncomputable section

namespace Cert.KernelIdeal.Gen

open Idealize.ShloMosaic Idealize.ShloMosaic.ValueIdx

variable {F : FTy → Type} [FloatOps F]

/-- The constant one and the constant zero, as the body spells them. -/
def one32 : F .f32 := Scalar.ofBits .f32 0x3F800000#32
def zero32 : F .f32 := Scalar.ofBits .f32 0x00000000#32

/-- Lane `l` of the widened feature row of node `j` of graph `g`. -/
def featAt (x0 : Vec F S1x16x256x128 .f32) (g : Fin 16) (j : Fin 256) (l : Fin 256) : F .f32 :=
  if h : l.val < 128 then x0 (ix4 (0 : Fin 1) g j (⟨l.val, h⟩ : Fin 128)) else if l.val = 128 then one32 else zero32

/-- The graph and the node of a row. -/
def graphOf (r : Fin 4096) : Fin 16 := ⟨r.val / 256, by have := r.isLt; omega⟩
def nodeOf (r : Fin 4096) : Fin 256 := ⟨r.val % 256, Nat.mod_lt _ (by decide)⟩

/-- All 4096 widened feature rows of the point. -/
def haug (x0 : Vec F S1x16x256x128 .f32) : Vec F S4096x256 .f32 := fun y =>
  featAt x0 (graphOf ⟨(y 0).val, idx2_lt0 y⟩) (nodeOf ⟨(y 0).val, idx2_lt0 y⟩) ⟨(y 1).val, idx2_lt1 y⟩

/-- Graph `g`'s mask block and its widened feature rows. -/
def maskBlk (x1 : Vec F S1x16x256x256 .f32) (g : Fin 16) : Vec F S1x1x256x256 .f32 := fun z =>
  x1 (ix4 (0 : Fin 1) g (⟨(z 2).val, (z 2).isLt⟩ : Fin 256) (⟨(z 3).val, (z 3).isLt⟩ : Fin 256))
def haugBlk (x0 : Vec F S1x16x256x128 .f32) (g : Fin 16) : Vec F S256x256 .f32 := fun z =>
  featAt x0 g ⟨(z 0).val, idx2_lt0 z⟩ ⟨(z 1).val, idx2_lt1 z⟩

/-- The aggregate of one graph: its mask block times its widened feature rows. -/
def mhBlk (vm : Vec F S1x1x256x256 .f32) (vh : Vec F S256x256 .f32) : FVec F S256x256 .f32 :=
  matmul dot_S256x256_S256x256_S256x256_1_0_0_1_n_n none (shapeCast S256x256 vm shapeCasts_S1x1x256x256_S256x256) vh (constant S256x256 .f32 0x00000000#32)

/-- The scaled aggregate of one graph (the scaling is the generated payload `k0_pay1`: every lane times
    one over max(lane 128, 1)). -/
def mhaBlk (vm : Vec F S1x1x256x256 .f32) (vh : Vec F S256x256 .f32) : FVec F S256x256 .f32 := k0_pay1 (mhBlk vm vh)

/-- The scaled aggregate of all 4096 rows of the point. -/
def mha (x0 : Vec F S1x16x256x128 .f32) (x1 : Vec F S1x16x256x256 .f32) : Vec F S4096x256 .f32 := fun y =>
  mhaBlk (maskBlk x1 (graphOf ⟨(y 0).val, idx2_lt0 y⟩)) (haugBlk x0 (graphOf ⟨(y 0).val, idx2_lt0 y⟩))
    (ix2 (nodeOf ⟨(y 0).val, idx2_lt0 y⟩) (⟨(y 1).val, idx2_lt1 y⟩ : Fin 256))

/-- The point's output block from its five input blocks. -/
def outBlk (x0 : Vec F S1x16x256x128 .f32) (x1 : Vec F S1x16x256x256 .f32) (x2 : Vec F S256x512 .f32)
    (x3 : Vec F S512x128 .f32) (x4 : Vec F S1x128 .f32) : Vec F S1x4096x128 .f32 :=
  k0_pay2 (mha x0 x1) x2 x3 x4

end Cert.KernelIdeal.Gen

end
-- ==== Proof.KI.AggBlocks.lean ====
/-
  The blocks of the scaled aggregate.  Block g of its 4096 rows (rows g * 256 to g * 256 + 255) is the
  scaled aggregate of graph g: its mask block times its widened feature rows, scaled.  A load of graph g's
  mask block from the whole mask array reads that block; a list of stores whose payloads are all blocks of one
  array, read back through the whole shape, gives that array; one store through the whole shape reads back
  its payload.
-/
import proofs.«105909_g1906965479736_cont_8to1_1380_15_alg».proof.Proof.KI.Mha
import Idealize.ShloMosaic.Lib.Pipeline.FrameBody
import Idealize.ShloMosaic.Lib.Pipeline.Value
import Idealize.ShloMosaic.Lib.Writes

noncomputable section

namespace Cert.KernelIdeal.Gen

open Idealize.ShloMosaic Idealize.ShloMosaic.ValueIdx

variable {F : FTy → Type} [FloatOps F]

/-- The load of graph k's mask block from the whole mask array. -/
theorem maskLoad_eq (arg2 : Memref sig .tc .vmem S1x16x256x256 .f32) (harg2 : arg2.IsWhole)
    (x1 : Vec F S1x16x256x256 .f32) (k : Nat) (hk : k < 16)
    (inb : ∀ a, (![0, k, 0, 0] : Fin 4 → Nat) a + S1x1x256x256.size a ≤ S1x16x256x256.size a) :
    View.readAt (Elt F) arg2.view (Rect.unit (s := S1x16x256x256) ![0, k, 0, 0] S1x1x256x256.size inb).toLoadRect (harg2.unread x1)
      = maskBlk x1 ⟨k, hk⟩ := by
  show View.ld (arg2.view.read (Elt F) (harg2.unread x1)) (Rect.unit (s := S1x16x256x256) ![0, k, 0, 0] S1x1x256x256.size inb) = _
  rw [harg2.read_unread]
  funext z
  show x1 ((Rect.unit (s := S1x16x256x256) ![0, k, 0, 0] S1x1x256x256.size inb).idx z) = x1 _
  refine congrArg x1 (funext fun a => Fin.ext ?_)
  have h0 : (z 0).val < 1 := (z 0).isLt
  have h1 : (z 1).val < 1 := (z 1).isLt
  match a with
  | ⟨0, _⟩ => show 0 + 1 * (z 0).val = 0; omega
  | ⟨1, _⟩ => show k + 1 * (z 1).val = k; omega
  | ⟨2, _⟩ => show 0 + 1 * (z 2).val = (z 2).val; omega
  | ⟨3, _⟩ => show 0 + 1 * (z 3).val = (z 3).val; omega

/-- Block g of the scaled aggregate of all rows is the scaled aggregate of graph g. -/
theorem mha_emb (x0 : Vec F S1x16x256x128 .f32) (x1 : Vec F S1x16x256x256 .f32) (o : Nat)
    (inb : ∀ a, (![o, 0] : Fin 2 → Nat) a + S256x256.size a ≤ S4096x256.size a) (g : Fin 16) (hg : o = g.val * 256)
    (x : S256x256.Idx) :
    mha x0 x1 ((Rect.unit (s := S4096x256) ![o, 0] S256x256.size inb).emb x) = mhaBlk (maskBlk x1 g) (haugBlk x0 g) x := by
  subst hg
  obtain ⟨p, q, rfl⟩ : ∃ (p q : Fin 256), x = ix2 p q := ⟨x 0, x 1, eq_ix2 x⟩
  have key : ∀ (G : Fin 16) (N L : Fin 256), G = g → N = p → L = q →
      mhaBlk (maskBlk x1 G) (haugBlk x0 G) (ix2 N L) = mhaBlk (maskBlk x1 g) (haugBlk x0 g) (ix2 p q) := by
    rintro _ _ _ rfl rfl rfl; rfl
  have hp := p.isLt
  have hgl := g.isLt
  refine key _ _ _ (Fin.ext ?_) (Fin.ext ?_) (Fin.ext ?_)
  · show (g.val * 256 + 1 * p.val) / 256 = g.val; omega
  · show (g.val * 256 + 1 * p.val) % 256 = p.val; omega
  · show 0 + 1 * q.val = q.val; omega

section Whole

variable {sg : RefSig} {κ : Kind} {sp : Space} {S : Shape} {e : EltTy}

/-- Stores whose payloads are all blocks of one array G and which cover the shape, read back through the
    whole shape, give G. -/
theorem readCov_whole_of_pieces (v : View sg κ sp S e) (L : List (View.Piece (Elt F) S e)) (G : S.Idx → Elt F e)
    (hL : ∀ p ∈ L, ∀ x : p.1.shape.Idx, p.2 x = G (p.1.emb x)) (hcov : ∀ y : S.Idx, ∃ p ∈ L, y ∈ p.1.set)
    {off : Fin S.rank → Nat} (h : off = fun _ => 0) (inb : ∀ a, off a + S.size a ≤ S.size a) :
    v.readCov L (Rect.unit off S.size inb).toLoadRect = G := by
  have h1 : v.read (Elt F) (v.writes (Elt F) v.junk L) = G :=
    funext fun y => View.read_writes_apply_of_pieces v v.junk G L hL y (hcov y)
  show View.ld (v.read (Elt F) (v.writes (Elt F) v.junk L)) (Rect.unit off S.size inb) = G
  rw [View.ld_unit_zero h inb, h1]

/-- One store through the whole shape reads back its payload. -/
theorem read_writes_single_whole (v : View sg κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩),
    View.canon_unit_zero h inb w]

/-- A load of a whole array through the whole shape reads the array. -/
theorem readAt_whole_unread (M : Memref sg κ sp S e) (hM : M.IsWhole) (X : S.Idx → Elt F e)
    {off : Fin S.rank → Nat} (h : off = fun _ => 0) (inb : ∀ a, off a + S.size a ≤ S.size a) :
    View.readAt (Elt F) M.view (Rect.unit off S.size inb).toLoadRect (hM.unread X) = X := by
  show View.ld (M.view.read (Elt F) (hM.unread X)) (Rect.unit off S.size inb) = X
  rw [hM.read_unread, View.ld_unit_zero h inb]

end Whole

end Cert.KernelIdeal.Gen

end
-- ==== Proof.KI.Aggregate.lean ====
/-
  What the body's run stores into the output block is the output block of the five input blocks.

  The sixteen stores into the aggregate scratch are the scaled aggregates of the sixteen graphs, each the
  block of rows of its graph, and together they tile the scratch; read back whole they are the scaled aggregate
  of all 4096 rows.  The one store into the output block goes through the whole block, and its payload is the
  second payload of that aggregate and the three whole loads of the widened weights, the second layer's weights
  and its bias.
-/
import proofs.«105909_g1906965479736_cont_8to1_1380_15_alg».proof.Proof.KI.Run
import proofs.«105909_g1906965479736_cont_8to1_1380_15_alg».proof.Proof.KI.AggBlocks

set_option maxRecDepth 16384

noncomputable section

namespace Cert.KernelIdeal.Gen

open Idealize.ShloMosaic Idealize.ShloMosaic.TcCoe Idealize.ShloMosaic.Tactic Idealize.ShloMosaic.ValueIdx

variable {F : FTy → Type} [FloatOps F]

theorem hz2 : (![0, 0] : Fin 2 → Nat) = fun _ => 0 :=
  funext fun a => match a with | ⟨0, _⟩ => rfl | ⟨1, _⟩ => rfl

theorem hz3 : (![0, 0, 0] : Fin 3 → Nat) = fun _ => 0 :=
  funext fun a => match a with | ⟨0, _⟩ => rfl | ⟨1, _⟩ => rfl | ⟨2, _⟩ => rfl

/-- The sixteen loads of the feature scratch in case A: load g reads the widened feature rows of graph g. -/
structure FeatsA (c : Dev nD) (arg1 : Memref sig .tc .vmem S1x16x256x128 .f32) (harg1 : arg1.IsWhole) (arg7 : Memref sig .tc .vmem S4096x256 .f32) (x0 : Vec F S1x16x256x128 .f32) : Prop where
  f0 : (kernelRun0_A.sl.v10 c arg1 harg1 arg7 x0) = haugBlk x0 ⟨0, by decide⟩
  f1 : (kernelRun0_A.sl.v29 c arg1 harg1 arg7 x0) = haugBlk x0 ⟨1, by decide⟩
  f2 : (kernelRun0_A.sl.v48 c arg1 harg1 arg7 x0) = haugBlk x0 ⟨2, by decide⟩
  f3 : (kernelRun0_A.sl.v67 c arg1 harg1 arg7 x0) = haugBlk x0 ⟨3, by decide⟩
  f4 : (kernelRun0_A.sl.v86 c arg1 harg1 arg7 x0) = haugBlk x0 ⟨4, by decide⟩
  f5 : (kernelRun0_A.sl.v105 c arg1 harg1 arg7 x0) = haugBlk x0 ⟨5, by decide⟩
  f6 : (kernelRun0_A.sl.v124 c arg1 harg1 arg7 x0) = haugBlk x0 ⟨6, by decide⟩
  f7 : (kernelRun0_A.sl.v143 c arg1 harg1 arg7 x0) = haugBlk x0 ⟨7, by decide⟩
  f8 : (kernelRun0_A.sl.v162 c arg1 harg1 arg7 x0) = haugBlk x0 ⟨8, by decide⟩
  f9 : (kernelRun0_A.sl.v181 c arg1 harg1 arg7 x0) = haugBlk x0 ⟨9, by decide⟩
  f10 : (kernelRun0_A.sl.v200 c arg1 harg1 arg7 x0) = haugBlk x0 ⟨10, by decide⟩
  f11 : (kernelRun0_A.sl.v219 c arg1 harg1 arg7 x0) = haugBlk x0 ⟨11, by decide⟩
  f12 : (kernelRun0_A.sl.v238 c arg1 harg1 arg7 x0) = haugBlk x0 ⟨12, by decide⟩
  f13 : (kernelRun0_A.sl.v257 c arg1 harg1 arg7 x0) = haugBlk x0 ⟨13, by decide⟩
  f14 : (kernelRun0_A.sl.v276 c arg1 harg1 arg7 x0) = haugBlk x0 ⟨14, by decide⟩
  f15 : (kernelRun0_A.sl.v295 c arg1 harg1 arg7 x0) = haugBlk x0 ⟨15, by decide⟩

theorem pieceA_0 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (x0 : Vec F S1x16x256x128 .f32) (x1 : Vec F S1x16x256x256 .f32) (hF : FeatsA c arg1 harg1 arg7 x0) :
    mhaBlk (View.readAt (Elt F) arg2.view (Rect.unit (s := S1x16x256x256) ![0, 0, 0, 0] S1x1x256x256.size inb_S1x16x256x256_S1x1x256x256_0_0_0_0).toLoadRect (harg2.unread x1)) (kernelRun0_A.sl.v10 c arg1 harg1 arg7 x0)
      = mhaBlk (maskBlk x1 ⟨0, by decide⟩) (haugBlk x0 ⟨0, by decide⟩) := by
  rw [maskLoad_eq arg2 harg2 x1 0 (by decide) _, hF.f0]

theorem pieceA_1 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (x0 : Vec F S1x16x256x128 .f32) (x1 : Vec F S1x16x256x256 .f32) (hF : FeatsA c arg1 harg1 arg7 x0) :
    mhaBlk (View.readAt (Elt F) arg2.view (Rect.unit (s := S1x16x256x256) ![0, 1, 0, 0] S1x1x256x256.size inb_S1x16x256x256_S1x1x256x256_0_1_0_0).toLoadRect (harg2.unread x1)) (kernelRun0_A.sl.v29 c arg1 harg1 arg7 x0)
      = mhaBlk (maskBlk x1 ⟨1, by decide⟩) (haugBlk x0 ⟨1, by decide⟩) := by
  rw [maskLoad_eq arg2 harg2 x1 1 (by decide) _, hF.f1]

theorem pieceA_2 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (x0 : Vec F S1x16x256x128 .f32) (x1 : Vec F S1x16x256x256 .f32) (hF : FeatsA c arg1 harg1 arg7 x0) :
    mhaBlk (View.readAt (Elt F) arg2.view (Rect.unit (s := S1x16x256x256) ![0, 2, 0, 0] S1x1x256x256.size inb_S1x16x256x256_S1x1x256x256_0_2_0_0).toLoadRect (harg2.unread x1)) (kernelRun0_A.sl.v48 c arg1 harg1 arg7 x0)
      = mhaBlk (maskBlk x1 ⟨2, by decide⟩) (haugBlk x0 ⟨2, by decide⟩) := by
  rw [maskLoad_eq arg2 harg2 x1 2 (by decide) _, hF.f2]

theorem pieceA_3 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (x0 : Vec F S1x16x256x128 .f32) (x1 : Vec F S1x16x256x256 .f32) (hF : FeatsA c arg1 harg1 arg7 x0) :
    mhaBlk (View.readAt (Elt F) arg2.view (Rect.unit (s := S1x16x256x256) ![0, 3, 0, 0] S1x1x256x256.size inb_S1x16x256x256_S1x1x256x256_0_3_0_0).toLoadRect (harg2.unread x1)) (kernelRun0_A.sl.v67 c arg1 harg1 arg7 x0)
      = mhaBlk (maskBlk x1 ⟨3, by decide⟩) (haugBlk x0 ⟨3, by decide⟩) := by
  rw [maskLoad_eq arg2 harg2 x1 3 (by decide) _, hF.f3]

theorem pieceA_4 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (x0 : Vec F S1x16x256x128 .f32) (x1 : Vec F S1x16x256x256 .f32) (hF : FeatsA c arg1 harg1 arg7 x0) :
    mhaBlk (View.readAt (Elt F) arg2.view (Rect.unit (s := S1x16x256x256) ![0, 4, 0, 0] S1x1x256x256.size inb_S1x16x256x256_S1x1x256x256_0_4_0_0).toLoadRect (harg2.unread x1)) (kernelRun0_A.sl.v86 c arg1 harg1 arg7 x0)
      = mhaBlk (maskBlk x1 ⟨4, by decide⟩) (haugBlk x0 ⟨4, by decide⟩) := by
  rw [maskLoad_eq arg2 harg2 x1 4 (by decide) _, hF.f4]

theorem pieceA_5 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (x0 : Vec F S1x16x256x128 .f32) (x1 : Vec F S1x16x256x256 .f32) (hF : FeatsA c arg1 harg1 arg7 x0) :
    mhaBlk (View.readAt (Elt F) arg2.view (Rect.unit (s := S1x16x256x256) ![0, 5, 0, 0] S1x1x256x256.size inb_S1x16x256x256_S1x1x256x256_0_5_0_0).toLoadRect (harg2.unread x1)) (kernelRun0_A.sl.v105 c arg1 harg1 arg7 x0)
      = mhaBlk (maskBlk x1 ⟨5, by decide⟩) (haugBlk x0 ⟨5, by decide⟩) := by
  rw [maskLoad_eq arg2 harg2 x1 5 (by decide) _, hF.f5]

theorem pieceA_6 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (x0 : Vec F S1x16x256x128 .f32) (x1 : Vec F S1x16x256x256 .f32) (hF : FeatsA c arg1 harg1 arg7 x0) :
    mhaBlk (View.readAt (Elt F) arg2.view (Rect.unit (s := S1x16x256x256) ![0, 6, 0, 0] S1x1x256x256.size inb_S1x16x256x256_S1x1x256x256_0_6_0_0).toLoadRect (harg2.unread x1)) (kernelRun0_A.sl.v124 c arg1 harg1 arg7 x0)
      = mhaBlk (maskBlk x1 ⟨6, by decide⟩) (haugBlk x0 ⟨6, by decide⟩) := by
  rw [maskLoad_eq arg2 harg2 x1 6 (by decide) _, hF.f6]

theorem pieceA_7 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (x0 : Vec F S1x16x256x128 .f32) (x1 : Vec F S1x16x256x256 .f32) (hF : FeatsA c arg1 harg1 arg7 x0) :
    mhaBlk (View.readAt (Elt F) arg2.view (Rect.unit (s := S1x16x256x256) ![0, 7, 0, 0] S1x1x256x256.size inb_S1x16x256x256_S1x1x256x256_0_7_0_0).toLoadRect (harg2.unread x1)) (kernelRun0_A.sl.v143 c arg1 harg1 arg7 x0)
      = mhaBlk (maskBlk x1 ⟨7, by decide⟩) (haugBlk x0 ⟨7, by decide⟩) := by
  rw [maskLoad_eq arg2 harg2 x1 7 (by decide) _, hF.f7]

theorem pieceA_8 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (x0 : Vec F S1x16x256x128 .f32) (x1 : Vec F S1x16x256x256 .f32) (hF : FeatsA c arg1 harg1 arg7 x0) :
    mhaBlk (View.readAt (Elt F) arg2.view (Rect.unit (s := S1x16x256x256) ![0, 8, 0, 0] S1x1x256x256.size inb_S1x16x256x256_S1x1x256x256_0_8_0_0).toLoadRect (harg2.unread x1)) (kernelRun0_A.sl.v162 c arg1 harg1 arg7 x0)
      = mhaBlk (maskBlk x1 ⟨8, by decide⟩) (haugBlk x0 ⟨8, by decide⟩) := by
  rw [maskLoad_eq arg2 harg2 x1 8 (by decide) _, hF.f8]

theorem pieceA_9 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (x0 : Vec F S1x16x256x128 .f32) (x1 : Vec F S1x16x256x256 .f32) (hF : FeatsA c arg1 harg1 arg7 x0) :
    mhaBlk (View.readAt (Elt F) arg2.view (Rect.unit (s := S1x16x256x256) ![0, 9, 0, 0] S1x1x256x256.size inb_S1x16x256x256_S1x1x256x256_0_9_0_0).toLoadRect (harg2.unread x1)) (kernelRun0_A.sl.v181 c arg1 harg1 arg7 x0)
      = mhaBlk (maskBlk x1 ⟨9, by decide⟩) (haugBlk x0 ⟨9, by decide⟩) := by
  rw [maskLoad_eq arg2 harg2 x1 9 (by decide) _, hF.f9]

theorem pieceA_10 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (x0 : Vec F S1x16x256x128 .f32) (x1 : Vec F S1x16x256x256 .f32) (hF : FeatsA c arg1 harg1 arg7 x0) :
    mhaBlk (View.readAt (Elt F) arg2.view (Rect.unit (s := S1x16x256x256) ![0, 10, 0, 0] S1x1x256x256.size inb_S1x16x256x256_S1x1x256x256_0_10_0_0).toLoadRect (harg2.unread x1)) (kernelRun0_A.sl.v200 c arg1 harg1 arg7 x0)
      = mhaBlk (maskBlk x1 ⟨10, by decide⟩) (haugBlk x0 ⟨10, by decide⟩) := by
  rw [maskLoad_eq arg2 harg2 x1 10 (by decide) _, hF.f10]

theorem pieceA_11 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (x0 : Vec F S1x16x256x128 .f32) (x1 : Vec F S1x16x256x256 .f32) (hF : FeatsA c arg1 harg1 arg7 x0) :
    mhaBlk (View.readAt (Elt F) arg2.view (Rect.unit (s := S1x16x256x256) ![0, 11, 0, 0] S1x1x256x256.size inb_S1x16x256x256_S1x1x256x256_0_11_0_0).toLoadRect (harg2.unread x1)) (kernelRun0_A.sl.v219 c arg1 harg1 arg7 x0)
      = mhaBlk (maskBlk x1 ⟨11, by decide⟩) (haugBlk x0 ⟨11, by decide⟩) := by
  rw [maskLoad_eq arg2 harg2 x1 11 (by decide) _, hF.f11]

theorem pieceA_12 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (x0 : Vec F S1x16x256x128 .f32) (x1 : Vec F S1x16x256x256 .f32) (hF : FeatsA c arg1 harg1 arg7 x0) :
    mhaBlk (View.readAt (Elt F) arg2.view (Rect.unit (s := S1x16x256x256) ![0, 12, 0, 0] S1x1x256x256.size inb_S1x16x256x256_S1x1x256x256_0_12_0_0).toLoadRect (harg2.unread x1)) (kernelRun0_A.sl.v238 c arg1 harg1 arg7 x0)
      = mhaBlk (maskBlk x1 ⟨12, by decide⟩) (haugBlk x0 ⟨12, by decide⟩) := by
  rw [maskLoad_eq arg2 harg2 x1 12 (by decide) _, hF.f12]

theorem pieceA_13 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (x0 : Vec F S1x16x256x128 .f32) (x1 : Vec F S1x16x256x256 .f32) (hF : FeatsA c arg1 harg1 arg7 x0) :
    mhaBlk (View.readAt (Elt F) arg2.view (Rect.unit (s := S1x16x256x256) ![0, 13, 0, 0] S1x1x256x256.size inb_S1x16x256x256_S1x1x256x256_0_13_0_0).toLoadRect (harg2.unread x1)) (kernelRun0_A.sl.v257 c arg1 harg1 arg7 x0)
      = mhaBlk (maskBlk x1 ⟨13, by decide⟩) (haugBlk x0 ⟨13, by decide⟩) := by
  rw [maskLoad_eq arg2 harg2 x1 13 (by decide) _, hF.f13]

theorem pieceA_14 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (x0 : Vec F S1x16x256x128 .f32) (x1 : Vec F S1x16x256x256 .f32) (hF : FeatsA c arg1 harg1 arg7 x0) :
    mhaBlk (View.readAt (Elt F) arg2.view (Rect.unit (s := S1x16x256x256) ![0, 14, 0, 0] S1x1x256x256.size inb_S1x16x256x256_S1x1x256x256_0_14_0_0).toLoadRect (harg2.unread x1)) (kernelRun0_A.sl.v276 c arg1 harg1 arg7 x0)
      = mhaBlk (maskBlk x1 ⟨14, by decide⟩) (haugBlk x0 ⟨14, by decide⟩) := by
  rw [maskLoad_eq arg2 harg2 x1 14 (by decide) _, hF.f14]

theorem pieceA_15 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (x0 : Vec F S1x16x256x128 .f32) (x1 : Vec F S1x16x256x256 .f32) (hF : FeatsA c arg1 harg1 arg7 x0) :
    mhaBlk (View.readAt (Elt F) arg2.view (Rect.unit (s := S1x16x256x256) ![0, 15, 0, 0] S1x1x256x256.size inb_S1x16x256x256_S1x1x256x256_0_15_0_0).toLoadRect (harg2.unread x1)) (kernelRun0_A.sl.v295 c arg1 harg1 arg7 x0)
      = mhaBlk (maskBlk x1 ⟨15, by decide⟩) (haugBlk x0 ⟨15, by decide⟩) := by
  rw [maskLoad_eq arg2 harg2 x1 15 (by decide) _, hF.f15]

theorem piecesA_HS1_1 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (x0 : Vec F S1x16x256x128 .f32) (x1 : Vec F S1x16x256x256 .f32) (hF : FeatsA c arg1 harg1 arg7 x0) :
    ∀ p ∈ kernelRun0_A.sl.HS1_1 c arg1 harg1 arg2 harg2 arg7 x0 x1, ∀ x : p.1.shape.Idx, p.2 x = mha x0 x1 (p.1.emb x) := by
  unfold kernelRun0_A.sl.HS1_1
  exact List.forall_mem_cons.2 ⟨fun x => (congrFun (pieceA_0 c arg1 harg1 arg2 harg2 arg7 x0 x1 hF) x).trans (mha_emb x0 x1 0 inb_S4096x256_S256x256_0_0 ⟨0, by decide⟩ rfl x).symm,
    fun _ hp => (List.not_mem_nil hp).elim⟩

theorem piecesA_HS1_2 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (x0 : Vec F S1x16x256x128 .f32) (x1 : Vec F S1x16x256x256 .f32) (hF : FeatsA c arg1 harg1 arg7 x0) :
    ∀ p ∈ kernelRun0_A.sl.HS1_2 c arg1 harg1 arg2 harg2 arg7 x0 x1, ∀ x : p.1.shape.Idx, p.2 x = mha x0 x1 (p.1.emb x) := by
  unfold kernelRun0_A.sl.HS1_2
  exact List.forall_mem_cons.2 ⟨fun x => (congrFun (pieceA_1 c arg1 harg1 arg2 harg2 arg7 x0 x1 hF) x).trans (mha_emb x0 x1 256 inb_S4096x256_S256x256_256_0 ⟨1, by decide⟩ rfl x).symm,
    piecesA_HS1_1 c arg1 harg1 arg2 harg2 arg7 x0 x1 hF⟩

theorem piecesA_HS1_4 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (x0 : Vec F S1x16x256x128 .f32) (x1 : Vec F S1x16x256x256 .f32) (hF : FeatsA c arg1 harg1 arg7 x0) :
    ∀ p ∈ kernelRun0_A.sl.HS1_4 c arg1 harg1 arg2 harg2 arg7 x0 x1, ∀ x : p.1.shape.Idx, p.2 x = mha x0 x1 (p.1.emb x) := by
  unfold kernelRun0_A.sl.HS1_4
  exact List.forall_mem_cons.2 ⟨fun x => (congrFun (pieceA_3 c arg1 harg1 arg2 harg2 arg7 x0 x1 hF) x).trans (mha_emb x0 x1 768 inb_S4096x256_S256x256_768_0 ⟨3, by decide⟩ rfl x).symm,
    List.forall_mem_cons.2 ⟨fun x => (congrFun (pieceA_2 c arg1 harg1 arg2 harg2 arg7 x0 x1 hF) x).trans (mha_emb x0 x1 512 inb_S4096x256_S256x256_512_0 ⟨2, by decide⟩ rfl x).symm,
    piecesA_HS1_2 c arg1 harg1 arg2 harg2 arg7 x0 x1 hF⟩⟩

theorem piecesA_HS1_6 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (x0 : Vec F S1x16x256x128 .f32) (x1 : Vec F S1x16x256x256 .f32) (hF : FeatsA c arg1 harg1 arg7 x0) :
    ∀ p ∈ kernelRun0_A.sl.HS1_6 c arg1 harg1 arg2 harg2 arg7 x0 x1, ∀ x : p.1.shape.Idx, p.2 x = mha x0 x1 (p.1.emb x) := by
  unfold kernelRun0_A.sl.HS1_6
  exact List.forall_mem_cons.2 ⟨fun x => (congrFun (pieceA_5 c arg1 harg1 arg2 harg2 arg7 x0 x1 hF) x).trans (mha_emb x0 x1 1280 inb_S4096x256_S256x256_1280_0 ⟨5, by decide⟩ rfl x).symm,
    List.forall_mem_cons.2 ⟨fun x => (congrFun (pieceA_4 c arg1 harg1 arg2 harg2 arg7 x0 x1 hF) x).trans (mha_emb x0 x1 1024 inb_S4096x256_S256x256_1024_0 ⟨4, by decide⟩ rfl x).symm,
    piecesA_HS1_4 c arg1 harg1 arg2 harg2 arg7 x0 x1 hF⟩⟩

theorem piecesA_HS1_7 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (x0 : Vec F S1x16x256x128 .f32) (x1 : Vec F S1x16x256x256 .f32) (hF : FeatsA c arg1 harg1 arg7 x0) :
    ∀ p ∈ kernelRun0_A.sl.HS1_7 c arg1 harg1 arg2 harg2 arg7 x0 x1, ∀ x : p.1.shape.Idx, p.2 x = mha x0 x1 (p.1.emb x) := by
  unfold kernelRun0_A.sl.HS1_7
  exact List.forall_mem_cons.2 ⟨fun x => (congrFun (pieceA_6 c arg1 harg1 arg2 harg2 arg7 x0 x1 hF) x).trans (mha_emb x0 x1 1536 inb_S4096x256_S256x256_1536_0 ⟨6, by decide⟩ rfl x).symm,
    piecesA_HS1_6 c arg1 harg1 arg2 harg2 arg7 x0 x1 hF⟩

theorem piecesA_HS1_9 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (x0 : Vec F S1x16x256x128 .f32) (x1 : Vec F S1x16x256x256 .f32) (hF : FeatsA c arg1 harg1 arg7 x0) :
    ∀ p ∈ kernelRun0_A.sl.HS1_9 c arg1 harg1 arg2 harg2 arg7 x0 x1, ∀ x : p.1.shape.Idx, p.2 x = mha x0 x1 (p.1.emb x) := by
  unfold kernelRun0_A.sl.HS1_9
  exact List.forall_mem_cons.2 ⟨fun x => (congrFun (pieceA_8 c arg1 harg1 arg2 harg2 arg7 x0 x1 hF) x).trans (mha_emb x0 x1 2048 inb_S4096x256_S256x256_2048_0 ⟨8, by decide⟩ rfl x).symm,
    List.forall_mem_cons.2 ⟨fun x => (congrFun (pieceA_7 c arg1 harg1 arg2 harg2 arg7 x0 x1 hF) x).trans (mha_emb x0 x1 1792 inb_S4096x256_S256x256_1792_0 ⟨7, by decide⟩ rfl x).symm,
    piecesA_HS1_7 c arg1 harg1 arg2 harg2 arg7 x0 x1 hF⟩⟩

theorem piecesA_HS1_10 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (x0 : Vec F S1x16x256x128 .f32) (x1 : Vec F S1x16x256x256 .f32) (hF : FeatsA c arg1 harg1 arg7 x0) :
    ∀ p ∈ kernelRun0_A.sl.HS1_10 c arg1 harg1 arg2 harg2 arg7 x0 x1, ∀ x : p.1.shape.Idx, p.2 x = mha x0 x1 (p.1.emb x) := by
  unfold kernelRun0_A.sl.HS1_10
  exact List.forall_mem_cons.2 ⟨fun x => (congrFun (pieceA_9 c arg1 harg1 arg2 harg2 arg7 x0 x1 hF) x).trans (mha_emb x0 x1 2304 inb_S4096x256_S256x256_2304_0 ⟨9, by decide⟩ rfl x).symm,
    piecesA_HS1_9 c arg1 harg1 arg2 harg2 arg7 x0 x1 hF⟩

theorem piecesA_HS1_12 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (x0 : Vec F S1x16x256x128 .f32) (x1 : Vec F S1x16x256x256 .f32) (hF : FeatsA c arg1 harg1 arg7 x0) :
    ∀ p ∈ kernelRun0_A.sl.HS1_12 c arg1 harg1 arg2 harg2 arg7 x0 x1, ∀ x : p.1.shape.Idx, p.2 x = mha x0 x1 (p.1.emb x) := by
  unfold kernelRun0_A.sl.HS1_12
  exact List.forall_mem_cons.2 ⟨fun x => (congrFun (pieceA_11 c arg1 harg1 arg2 harg2 arg7 x0 x1 hF) x).trans (mha_emb x0 x1 2816 inb_S4096x256_S256x256_2816_0 ⟨11, by decide⟩ rfl x).symm,
    List.forall_mem_cons.2 ⟨fun x => (congrFun (pieceA_10 c arg1 harg1 arg2 harg2 arg7 x0 x1 hF) x).trans (mha_emb x0 x1 2560 inb_S4096x256_S256x256_2560_0 ⟨10, by decide⟩ rfl x).symm,
    piecesA_HS1_10 c arg1 harg1 arg2 harg2 arg7 x0 x1 hF⟩⟩

theorem piecesA_HS1_14 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (x0 : Vec F S1x16x256x128 .f32) (x1 : Vec F S1x16x256x256 .f32) (hF : FeatsA c arg1 harg1 arg7 x0) :
    ∀ p ∈ kernelRun0_A.sl.HS1_14 c arg1 harg1 arg2 harg2 arg7 x0 x1, ∀ x : p.1.shape.Idx, p.2 x = mha x0 x1 (p.1.emb x) := by
  unfold kernelRun0_A.sl.HS1_14
  exact List.forall_mem_cons.2 ⟨fun x => (congrFun (pieceA_13 c arg1 harg1 arg2 harg2 arg7 x0 x1 hF) x).trans (mha_emb x0 x1 3328 inb_S4096x256_S256x256_3328_0 ⟨13, by decide⟩ rfl x).symm,
    List.forall_mem_cons.2 ⟨fun x => (congrFun (pieceA_12 c arg1 harg1 arg2 harg2 arg7 x0 x1 hF) x).trans (mha_emb x0 x1 3072 inb_S4096x256_S256x256_3072_0 ⟨12, by decide⟩ rfl x).symm,
    piecesA_HS1_12 c arg1 harg1 arg2 harg2 arg7 x0 x1 hF⟩⟩

theorem piecesA_HS1_16 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (x0 : Vec F S1x16x256x128 .f32) (x1 : Vec F S1x16x256x256 .f32) (hF : FeatsA c arg1 harg1 arg7 x0) :
    ∀ p ∈ kernelRun0_A.sl.HS1_16 c arg1 harg1 arg2 harg2 arg7 x0 x1, ∀ x : p.1.shape.Idx, p.2 x = mha x0 x1 (p.1.emb x) := by
  unfold kernelRun0_A.sl.HS1_16
  exact List.forall_mem_cons.2 ⟨fun x => (congrFun (pieceA_15 c arg1 harg1 arg2 harg2 arg7 x0 x1 hF) x).trans (mha_emb x0 x1 3840 inb_S4096x256_S256x256_3840_0 ⟨15, by decide⟩ rfl x).symm,
    List.forall_mem_cons.2 ⟨fun x => (congrFun (pieceA_14 c arg1 harg1 arg2 harg2 arg7 x0 x1 hF) x).trans (mha_emb x0 x1 3584 inb_S4096x256_S256x256_3584_0 ⟨14, by decide⟩ rfl x).symm,
    piecesA_HS1_14 c arg1 harg1 arg2 harg2 arg7 x0 x1 hF⟩⟩

/-- The aggregate scratch read back whole in case A is the scaled aggregate of all rows. -/
theorem v307A_eq (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .f32) (harg7 : arg7.IsWhole) (arg8 : Memref sig .tc .vmem S4096x256 .f32) (harg8 : arg8.IsWhole) (x0 : Vec F S1x16x256x128 .f32) (x1 : Vec F S1x16x256x256 .f32) (x2 : Vec F S256x512 .f32) (x3 : Vec F S512x128 .f32) (x4 : Vec F S1x128 .f32) (hF : FeatsA c arg1 harg1 arg7 x0) :
    kernelRun0_A.sl.v307 c arg1 harg1 arg2 harg2 arg7 arg8 x0 x1 = mha x0 x1 := by
  unfold kernelRun0_A.sl.v307
  exact readCov_whole_of_pieces arg8.view _ (mha x0 x1) (piecesA_HS1_16 c arg1 harg1 arg2 harg2 arg7 x0 x1 hF)
    (View.cover_of_tiledL (kernelRun0_A.sl.HS1_16 c arg1 harg1 arg2 harg2 arg7 x0 x1) ![256, 256] (by sl_kernel_rfl)) hz2 _

/-- What the body's one store leaves in the output block in case A: the output block of the five input blocks. -/
theorem outA_of_feats (v : View sig .tc .vmem S1x4096x128 .f32) (f : v.ty.Contents (Elt F)) (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .f32) (harg7 : arg7.IsWhole) (arg8 : Memref sig .tc .vmem S4096x256 .f32) (harg8 : arg8.IsWhole) (hc0 : cond0_0 i) (x0 : Vec F S1x16x256x128 .f32) (x1 : Vec F S1x16x256x256 .f32) (x2 : Vec F S256x512 .f32) (x3 : Vec F S512x128 .f32) (x4 : Vec F S1x128 .f32)
    (hF : FeatsA c arg1 harg1 arg7 x0) :
    v.read (Elt F) (v.writes (Elt F) f (kernelRun0_A c i arg1 harg1 arg2 harg2 arg3 harg3 arg4 harg4 arg5 harg5 arg6 harg6 arg7 harg7 arg8 harg8 hc0 x0 x1 x2 x3 x4).1) = outBlk x0 x1 x2 x3 x4 := by
  unfold kernelRun0_A
  refine (read_writes_single_whole v f hz3 _ _).trans ?_
  exact congr (congr (congr (congrArg k0_pay2 (v307A_eq c i arg1 harg1 arg2 harg2 arg3 harg3 arg4 harg4 arg5 harg5 arg6 harg6 arg7 harg7 arg8 harg8 x0 x1 x2 x3 x4 hF))
    (readAt_whole_unread arg3 harg3 x2 hz2 _)) (readAt_whole_unread arg4 harg4 x3 hz2 _)) (readAt_whole_unread arg5 harg5 x4 hz2 _)

/-- The sixteen loads of the feature scratch in case B: load g reads the widened feature rows of graph g. -/
structure FeatsB (c : Dev nD) (arg1 : Memref sig .tc .vmem S1x16x256x128 .f32) (harg1 : arg1.IsWhole) (arg7 : Memref sig .tc .vmem S4096x256 .f32) (harg7 : arg7.IsWhole) (x0 : Vec F S1x16x256x128 .f32) (xs0 : Vec F S4096x256 .f32) : Prop where
  f0 : (View.readAt (Elt F) arg7.view (Rect.unit (s := S4096x256) ![0, 0] S256x256.size inb_S4096x256_S256x256_0_0).toLoadRect (arg7.view.writes (Elt F) (harg7.unread xs0) (kernelRun0_B.sl.HS0_1 c arg1 harg1 x0))) = haugBlk x0 ⟨0, by decide⟩
  f1 : (View.readAt (Elt F) arg7.view (Rect.unit (s := S4096x256) ![256, 0] S256x256.size inb_S4096x256_S256x256_256_0).toLoadRect (arg7.view.writes (Elt F) (harg7.unread xs0) (kernelRun0_B.sl.HS0_2 c arg1 harg1 x0))) = haugBlk x0 ⟨1, by decide⟩
  f2 : (View.readAt (Elt F) arg7.view (Rect.unit (s := S4096x256) ![512, 0] S256x256.size inb_S4096x256_S256x256_512_0).toLoadRect (arg7.view.writes (Elt F) (harg7.unread xs0) (kernelRun0_B.sl.HS0_3 c arg1 harg1 x0))) = haugBlk x0 ⟨2, by decide⟩
  f3 : (View.readAt (Elt F) arg7.view (Rect.unit (s := S4096x256) ![768, 0] S256x256.size inb_S4096x256_S256x256_768_0).toLoadRect (arg7.view.writes (Elt F) (harg7.unread xs0) (kernelRun0_B.sl.HS0_4 c arg1 harg1 x0))) = haugBlk x0 ⟨3, by decide⟩
  f4 : (View.readAt (Elt F) arg7.view (Rect.unit (s := S4096x256) ![1024, 0] S256x256.size inb_S4096x256_S256x256_1024_0).toLoadRect (arg7.view.writes (Elt F) (harg7.unread xs0) (kernelRun0_B.sl.HS0_5 c arg1 harg1 x0))) = haugBlk x0 ⟨4, by decide⟩
  f5 : (View.readAt (Elt F) arg7.view (Rect.unit (s := S4096x256) ![1280, 0] S256x256.size inb_S4096x256_S256x256_1280_0).toLoadRect (arg7.view.writes (Elt F) (harg7.unread xs0) (kernelRun0_B.sl.HS0_6 c arg1 harg1 x0))) = haugBlk x0 ⟨5, by decide⟩
  f6 : (View.readAt (Elt F) arg7.view (Rect.unit (s := S4096x256) ![1536, 0] S256x256.size inb_S4096x256_S256x256_1536_0).toLoadRect (arg7.view.writes (Elt F) (harg7.unread xs0) (kernelRun0_B.sl.HS0_7 c arg1 harg1 x0))) = haugBlk x0 ⟨6, by decide⟩
  f7 : (View.readAt (Elt F) arg7.view (Rect.unit (s := S4096x256) ![1792, 0] S256x256.size inb_S4096x256_S256x256_1792_0).toLoadRect (arg7.view.writes (Elt F) (harg7.unread xs0) (kernelRun0_B.sl.HS0_8 c arg1 harg1 x0))) = haugBlk x0 ⟨7, by decide⟩
  f8 : (View.readAt (Elt F) arg7.view (Rect.unit (s := S4096x256) ![2048, 0] S256x256.size inb_S4096x256_S256x256_2048_0).toLoadRect (arg7.view.writes (Elt F) (harg7.unread xs0) (kernelRun0_B.sl.HS0_9 c arg1 harg1 x0))) = haugBlk x0 ⟨8, by decide⟩
  f9 : (View.readAt (Elt F) arg7.view (Rect.unit (s := S4096x256) ![2304, 0] S256x256.size inb_S4096x256_S256x256_2304_0).toLoadRect (arg7.view.writes (Elt F) (harg7.unread xs0) (kernelRun0_B.sl.HS0_10 c arg1 harg1 x0))) = haugBlk x0 ⟨9, by decide⟩
  f10 : (View.readAt (Elt F) arg7.view (Rect.unit (s := S4096x256) ![2560, 0] S256x256.size inb_S4096x256_S256x256_2560_0).toLoadRect (arg7.view.writes (Elt F) (harg7.unread xs0) (kernelRun0_B.sl.HS0_11 c arg1 harg1 x0))) = haugBlk x0 ⟨10, by decide⟩
  f11 : (View.readAt (Elt F) arg7.view (Rect.unit (s := S4096x256) ![2816, 0] S256x256.size inb_S4096x256_S256x256_2816_0).toLoadRect (arg7.view.writes (Elt F) (harg7.unread xs0) (kernelRun0_B.sl.HS0_12 c arg1 harg1 x0))) = haugBlk x0 ⟨11, by decide⟩
  f12 : (View.readAt (Elt F) arg7.view (Rect.unit (s := S4096x256) ![3072, 0] S256x256.size inb_S4096x256_S256x256_3072_0).toLoadRect (arg7.view.writes (Elt F) (harg7.unread xs0) (kernelRun0_B.sl.HS0_13 c arg1 harg1 x0))) = haugBlk x0 ⟨12, by decide⟩
  f13 : (View.readAt (Elt F) arg7.view (Rect.unit (s := S4096x256) ![3328, 0] S256x256.size inb_S4096x256_S256x256_3328_0).toLoadRect (arg7.view.writes (Elt F) (harg7.unread xs0) (kernelRun0_B.sl.HS0_14 c arg1 harg1 x0))) = haugBlk x0 ⟨13, by decide⟩
  f14 : (View.readAt (Elt F) arg7.view (Rect.unit (s := S4096x256) ![3584, 0] S256x256.size inb_S4096x256_S256x256_3584_0).toLoadRect (arg7.view.writes (Elt F) (harg7.unread xs0) (kernelRun0_B.sl.HS0_15 c arg1 harg1 x0))) = haugBlk x0 ⟨14, by decide⟩
  f15 : (View.readAt (Elt F) arg7.view (Rect.unit (s := S4096x256) ![3840, 0] S256x256.size inb_S4096x256_S256x256_3840_0).toLoadRect (arg7.view.writes (Elt F) (harg7.unread xs0) (kernelRun0_B.sl.HS0_16 c arg1 harg1 x0))) = haugBlk x0 ⟨15, by decide⟩

theorem pieceB_0 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (harg7 : arg7.IsWhole) (x0 : Vec F S1x16x256x128 .f32) (x1 : Vec F S1x16x256x256 .f32) (xs0 : Vec F S4096x256 .f32) (hF : FeatsB c arg1 harg1 arg7 harg7 x0 xs0) :
    mhaBlk (View.readAt (Elt F) arg2.view (Rect.unit (s := S1x16x256x256) ![0, 0, 0, 0] S1x1x256x256.size inb_S1x16x256x256_S1x1x256x256_0_0_0_0).toLoadRect (harg2.unread x1)) (View.readAt (Elt F) arg7.view (Rect.unit (s := S4096x256) ![0, 0] S256x256.size inb_S4096x256_S256x256_0_0).toLoadRect (arg7.view.writes (Elt F) (harg7.unread xs0) (kernelRun0_B.sl.HS0_1 c arg1 harg1 x0)))
      = mhaBlk (maskBlk x1 ⟨0, by decide⟩) (haugBlk x0 ⟨0, by decide⟩) := by
  rw [maskLoad_eq arg2 harg2 x1 0 (by decide) _, hF.f0]

theorem pieceB_1 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (harg7 : arg7.IsWhole) (x0 : Vec F S1x16x256x128 .f32) (x1 : Vec F S1x16x256x256 .f32) (xs0 : Vec F S4096x256 .f32) (hF : FeatsB c arg1 harg1 arg7 harg7 x0 xs0) :
    mhaBlk (View.readAt (Elt F) arg2.view (Rect.unit (s := S1x16x256x256) ![0, 1, 0, 0] S1x1x256x256.size inb_S1x16x256x256_S1x1x256x256_0_1_0_0).toLoadRect (harg2.unread x1)) (View.readAt (Elt F) arg7.view (Rect.unit (s := S4096x256) ![256, 0] S256x256.size inb_S4096x256_S256x256_256_0).toLoadRect (arg7.view.writes (Elt F) (harg7.unread xs0) (kernelRun0_B.sl.HS0_2 c arg1 harg1 x0)))
      = mhaBlk (maskBlk x1 ⟨1, by decide⟩) (haugBlk x0 ⟨1, by decide⟩) := by
  rw [maskLoad_eq arg2 harg2 x1 1 (by decide) _, hF.f1]

theorem pieceB_2 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (harg7 : arg7.IsWhole) (x0 : Vec F S1x16x256x128 .f32) (x1 : Vec F S1x16x256x256 .f32) (xs0 : Vec F S4096x256 .f32) (hF : FeatsB c arg1 harg1 arg7 harg7 x0 xs0) :
    mhaBlk (View.readAt (Elt F) arg2.view (Rect.unit (s := S1x16x256x256) ![0, 2, 0, 0] S1x1x256x256.size inb_S1x16x256x256_S1x1x256x256_0_2_0_0).toLoadRect (harg2.unread x1)) (View.readAt (Elt F) arg7.view (Rect.unit (s := S4096x256) ![512, 0] S256x256.size inb_S4096x256_S256x256_512_0).toLoadRect (arg7.view.writes (Elt F) (harg7.unread xs0) (kernelRun0_B.sl.HS0_3 c arg1 harg1 x0)))
      = mhaBlk (maskBlk x1 ⟨2, by decide⟩) (haugBlk x0 ⟨2, by decide⟩) := by
  rw [maskLoad_eq arg2 harg2 x1 2 (by decide) _, hF.f2]

theorem pieceB_3 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (harg7 : arg7.IsWhole) (x0 : Vec F S1x16x256x128 .f32) (x1 : Vec F S1x16x256x256 .f32) (xs0 : Vec F S4096x256 .f32) (hF : FeatsB c arg1 harg1 arg7 harg7 x0 xs0) :
    mhaBlk (View.readAt (Elt F) arg2.view (Rect.unit (s := S1x16x256x256) ![0, 3, 0, 0] S1x1x256x256.size inb_S1x16x256x256_S1x1x256x256_0_3_0_0).toLoadRect (harg2.unread x1)) (View.readAt (Elt F) arg7.view (Rect.unit (s := S4096x256) ![768, 0] S256x256.size inb_S4096x256_S256x256_768_0).toLoadRect (arg7.view.writes (Elt F) (harg7.unread xs0) (kernelRun0_B.sl.HS0_4 c arg1 harg1 x0)))
      = mhaBlk (maskBlk x1 ⟨3, by decide⟩) (haugBlk x0 ⟨3, by decide⟩) := by
  rw [maskLoad_eq arg2 harg2 x1 3 (by decide) _, hF.f3]

theorem pieceB_4 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (harg7 : arg7.IsWhole) (x0 : Vec F S1x16x256x128 .f32) (x1 : Vec F S1x16x256x256 .f32) (xs0 : Vec F S4096x256 .f32) (hF : FeatsB c arg1 harg1 arg7 harg7 x0 xs0) :
    mhaBlk (View.readAt (Elt F) arg2.view (Rect.unit (s := S1x16x256x256) ![0, 4, 0, 0] S1x1x256x256.size inb_S1x16x256x256_S1x1x256x256_0_4_0_0).toLoadRect (harg2.unread x1)) (View.readAt (Elt F) arg7.view (Rect.unit (s := S4096x256) ![1024, 0] S256x256.size inb_S4096x256_S256x256_1024_0).toLoadRect (arg7.view.writes (Elt F) (harg7.unread xs0) (kernelRun0_B.sl.HS0_5 c arg1 harg1 x0)))
      = mhaBlk (maskBlk x1 ⟨4, by decide⟩) (haugBlk x0 ⟨4, by decide⟩) := by
  rw [maskLoad_eq arg2 harg2 x1 4 (by decide) _, hF.f4]

theorem pieceB_5 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (harg7 : arg7.IsWhole) (x0 : Vec F S1x16x256x128 .f32) (x1 : Vec F S1x16x256x256 .f32) (xs0 : Vec F S4096x256 .f32) (hF : FeatsB c arg1 harg1 arg7 harg7 x0 xs0) :
    mhaBlk (View.readAt (Elt F) arg2.view (Rect.unit (s := S1x16x256x256) ![0, 5, 0, 0] S1x1x256x256.size inb_S1x16x256x256_S1x1x256x256_0_5_0_0).toLoadRect (harg2.unread x1)) (View.readAt (Elt F) arg7.view (Rect.unit (s := S4096x256) ![1280, 0] S256x256.size inb_S4096x256_S256x256_1280_0).toLoadRect (arg7.view.writes (Elt F) (harg7.unread xs0) (kernelRun0_B.sl.HS0_6 c arg1 harg1 x0)))
      = mhaBlk (maskBlk x1 ⟨5, by decide⟩) (haugBlk x0 ⟨5, by decide⟩) := by
  rw [maskLoad_eq arg2 harg2 x1 5 (by decide) _, hF.f5]

theorem pieceB_6 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (harg7 : arg7.IsWhole) (x0 : Vec F S1x16x256x128 .f32) (x1 : Vec F S1x16x256x256 .f32) (xs0 : Vec F S4096x256 .f32) (hF : FeatsB c arg1 harg1 arg7 harg7 x0 xs0) :
    mhaBlk (View.readAt (Elt F) arg2.view (Rect.unit (s := S1x16x256x256) ![0, 6, 0, 0] S1x1x256x256.size inb_S1x16x256x256_S1x1x256x256_0_6_0_0).toLoadRect (harg2.unread x1)) (View.readAt (Elt F) arg7.view (Rect.unit (s := S4096x256) ![1536, 0] S256x256.size inb_S4096x256_S256x256_1536_0).toLoadRect (arg7.view.writes (Elt F) (harg7.unread xs0) (kernelRun0_B.sl.HS0_7 c arg1 harg1 x0)))
      = mhaBlk (maskBlk x1 ⟨6, by decide⟩) (haugBlk x0 ⟨6, by decide⟩) := by
  rw [maskLoad_eq arg2 harg2 x1 6 (by decide) _, hF.f6]

theorem pieceB_7 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (harg7 : arg7.IsWhole) (x0 : Vec F S1x16x256x128 .f32) (x1 : Vec F S1x16x256x256 .f32) (xs0 : Vec F S4096x256 .f32) (hF : FeatsB c arg1 harg1 arg7 harg7 x0 xs0) :
    mhaBlk (View.readAt (Elt F) arg2.view (Rect.unit (s := S1x16x256x256) ![0, 7, 0, 0] S1x1x256x256.size inb_S1x16x256x256_S1x1x256x256_0_7_0_0).toLoadRect (harg2.unread x1)) (View.readAt (Elt F) arg7.view (Rect.unit (s := S4096x256) ![1792, 0] S256x256.size inb_S4096x256_S256x256_1792_0).toLoadRect (arg7.view.writes (Elt F) (harg7.unread xs0) (kernelRun0_B.sl.HS0_8 c arg1 harg1 x0)))
      = mhaBlk (maskBlk x1 ⟨7, by decide⟩) (haugBlk x0 ⟨7, by decide⟩) := by
  rw [maskLoad_eq arg2 harg2 x1 7 (by decide) _, hF.f7]

theorem pieceB_8 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (harg7 : arg7.IsWhole) (x0 : Vec F S1x16x256x128 .f32) (x1 : Vec F S1x16x256x256 .f32) (xs0 : Vec F S4096x256 .f32) (hF : FeatsB c arg1 harg1 arg7 harg7 x0 xs0) :
    mhaBlk (View.readAt (Elt F) arg2.view (Rect.unit (s := S1x16x256x256) ![0, 8, 0, 0] S1x1x256x256.size inb_S1x16x256x256_S1x1x256x256_0_8_0_0).toLoadRect (harg2.unread x1)) (View.readAt (Elt F) arg7.view (Rect.unit (s := S4096x256) ![2048, 0] S256x256.size inb_S4096x256_S256x256_2048_0).toLoadRect (arg7.view.writes (Elt F) (harg7.unread xs0) (kernelRun0_B.sl.HS0_9 c arg1 harg1 x0)))
      = mhaBlk (maskBlk x1 ⟨8, by decide⟩) (haugBlk x0 ⟨8, by decide⟩) := by
  rw [maskLoad_eq arg2 harg2 x1 8 (by decide) _, hF.f8]

theorem pieceB_9 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (harg7 : arg7.IsWhole) (x0 : Vec F S1x16x256x128 .f32) (x1 : Vec F S1x16x256x256 .f32) (xs0 : Vec F S4096x256 .f32) (hF : FeatsB c arg1 harg1 arg7 harg7 x0 xs0) :
    mhaBlk (View.readAt (Elt F) arg2.view (Rect.unit (s := S1x16x256x256) ![0, 9, 0, 0] S1x1x256x256.size inb_S1x16x256x256_S1x1x256x256_0_9_0_0).toLoadRect (harg2.unread x1)) (View.readAt (Elt F) arg7.view (Rect.unit (s := S4096x256) ![2304, 0] S256x256.size inb_S4096x256_S256x256_2304_0).toLoadRect (arg7.view.writes (Elt F) (harg7.unread xs0) (kernelRun0_B.sl.HS0_10 c arg1 harg1 x0)))
      = mhaBlk (maskBlk x1 ⟨9, by decide⟩) (haugBlk x0 ⟨9, by decide⟩) := by
  rw [maskLoad_eq arg2 harg2 x1 9 (by decide) _, hF.f9]

theorem pieceB_10 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (harg7 : arg7.IsWhole) (x0 : Vec F S1x16x256x128 .f32) (x1 : Vec F S1x16x256x256 .f32) (xs0 : Vec F S4096x256 .f32) (hF : FeatsB c arg1 harg1 arg7 harg7 x0 xs0) :
    mhaBlk (View.readAt (Elt F) arg2.view (Rect.unit (s := S1x16x256x256) ![0, 10, 0, 0] S1x1x256x256.size inb_S1x16x256x256_S1x1x256x256_0_10_0_0).toLoadRect (harg2.unread x1)) (View.readAt (Elt F) arg7.view (Rect.unit (s := S4096x256) ![2560, 0] S256x256.size inb_S4096x256_S256x256_2560_0).toLoadRect (arg7.view.writes (Elt F) (harg7.unread xs0) (kernelRun0_B.sl.HS0_11 c arg1 harg1 x0)))
      = mhaBlk (maskBlk x1 ⟨10, by decide⟩) (haugBlk x0 ⟨10, by decide⟩) := by
  rw [maskLoad_eq arg2 harg2 x1 10 (by decide) _, hF.f10]

theorem pieceB_11 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (harg7 : arg7.IsWhole) (x0 : Vec F S1x16x256x128 .f32) (x1 : Vec F S1x16x256x256 .f32) (xs0 : Vec F S4096x256 .f32) (hF : FeatsB c arg1 harg1 arg7 harg7 x0 xs0) :
    mhaBlk (View.readAt (Elt F) arg2.view (Rect.unit (s := S1x16x256x256) ![0, 11, 0, 0] S1x1x256x256.size inb_S1x16x256x256_S1x1x256x256_0_11_0_0).toLoadRect (harg2.unread x1)) (View.readAt (Elt F) arg7.view (Rect.unit (s := S4096x256) ![2816, 0] S256x256.size inb_S4096x256_S256x256_2816_0).toLoadRect (arg7.view.writes (Elt F) (harg7.unread xs0) (kernelRun0_B.sl.HS0_12 c arg1 harg1 x0)))
      = mhaBlk (maskBlk x1 ⟨11, by decide⟩) (haugBlk x0 ⟨11, by decide⟩) := by
  rw [maskLoad_eq arg2 harg2 x1 11 (by decide) _, hF.f11]

theorem pieceB_12 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (harg7 : arg7.IsWhole) (x0 : Vec F S1x16x256x128 .f32) (x1 : Vec F S1x16x256x256 .f32) (xs0 : Vec F S4096x256 .f32) (hF : FeatsB c arg1 harg1 arg7 harg7 x0 xs0) :
    mhaBlk (View.readAt (Elt F) arg2.view (Rect.unit (s := S1x16x256x256) ![0, 12, 0, 0] S1x1x256x256.size inb_S1x16x256x256_S1x1x256x256_0_12_0_0).toLoadRect (harg2.unread x1)) (View.readAt (Elt F) arg7.view (Rect.unit (s := S4096x256) ![3072, 0] S256x256.size inb_S4096x256_S256x256_3072_0).toLoadRect (arg7.view.writes (Elt F) (harg7.unread xs0) (kernelRun0_B.sl.HS0_13 c arg1 harg1 x0)))
      = mhaBlk (maskBlk x1 ⟨12, by decide⟩) (haugBlk x0 ⟨12, by decide⟩) := by
  rw [maskLoad_eq arg2 harg2 x1 12 (by decide) _, hF.f12]

theorem pieceB_13 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (harg7 : arg7.IsWhole) (x0 : Vec F S1x16x256x128 .f32) (x1 : Vec F S1x16x256x256 .f32) (xs0 : Vec F S4096x256 .f32) (hF : FeatsB c arg1 harg1 arg7 harg7 x0 xs0) :
    mhaBlk (View.readAt (Elt F) arg2.view (Rect.unit (s := S1x16x256x256) ![0, 13, 0, 0] S1x1x256x256.size inb_S1x16x256x256_S1x1x256x256_0_13_0_0).toLoadRect (harg2.unread x1)) (View.readAt (Elt F) arg7.view (Rect.unit (s := S4096x256) ![3328, 0] S256x256.size inb_S4096x256_S256x256_3328_0).toLoadRect (arg7.view.writes (Elt F) (harg7.unread xs0) (kernelRun0_B.sl.HS0_14 c arg1 harg1 x0)))
      = mhaBlk (maskBlk x1 ⟨13, by decide⟩) (haugBlk x0 ⟨13, by decide⟩) := by
  rw [maskLoad_eq arg2 harg2 x1 13 (by decide) _, hF.f13]

theorem pieceB_14 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (harg7 : arg7.IsWhole) (x0 : Vec F S1x16x256x128 .f32) (x1 : Vec F S1x16x256x256 .f32) (xs0 : Vec F S4096x256 .f32) (hF : FeatsB c arg1 harg1 arg7 harg7 x0 xs0) :
    mhaBlk (View.readAt (Elt F) arg2.view (Rect.unit (s := S1x16x256x256) ![0, 14, 0, 0] S1x1x256x256.size inb_S1x16x256x256_S1x1x256x256_0_14_0_0).toLoadRect (harg2.unread x1)) (View.readAt (Elt F) arg7.view (Rect.unit (s := S4096x256) ![3584, 0] S256x256.size inb_S4096x256_S256x256_3584_0).toLoadRect (arg7.view.writes (Elt F) (harg7.unread xs0) (kernelRun0_B.sl.HS0_15 c arg1 harg1 x0)))
      = mhaBlk (maskBlk x1 ⟨14, by decide⟩) (haugBlk x0 ⟨14, by decide⟩) := by
  rw [maskLoad_eq arg2 harg2 x1 14 (by decide) _, hF.f14]

theorem pieceB_15 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (harg7 : arg7.IsWhole) (x0 : Vec F S1x16x256x128 .f32) (x1 : Vec F S1x16x256x256 .f32) (xs0 : Vec F S4096x256 .f32) (hF : FeatsB c arg1 harg1 arg7 harg7 x0 xs0) :
    mhaBlk (View.readAt (Elt F) arg2.view (Rect.unit (s := S1x16x256x256) ![0, 15, 0, 0] S1x1x256x256.size inb_S1x16x256x256_S1x1x256x256_0_15_0_0).toLoadRect (harg2.unread x1)) (View.readAt (Elt F) arg7.view (Rect.unit (s := S4096x256) ![3840, 0] S256x256.size inb_S4096x256_S256x256_3840_0).toLoadRect (arg7.view.writes (Elt F) (harg7.unread xs0) (kernelRun0_B.sl.HS0_16 c arg1 harg1 x0)))
      = mhaBlk (maskBlk x1 ⟨15, by decide⟩) (haugBlk x0 ⟨15, by decide⟩) := by
  rw [maskLoad_eq arg2 harg2 x1 15 (by decide) _, hF.f15]

theorem piecesB_HS1_1 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (harg7 : arg7.IsWhole) (x0 : Vec F S1x16x256x128 .f32) (x1 : Vec F S1x16x256x256 .f32) (xs0 : Vec F S4096x256 .f32) (hF : FeatsB c arg1 harg1 arg7 harg7 x0 xs0) :
    ∀ p ∈ kernelRun0_B.sl.HS1_1 c arg1 harg1 arg2 harg2 arg7 harg7 x0 x1 xs0, ∀ x : p.1.shape.Idx, p.2 x = mha x0 x1 (p.1.emb x) := by
  unfold kernelRun0_B.sl.HS1_1
  exact List.forall_mem_cons.2 ⟨fun x => (congrFun (pieceB_0 c arg1 harg1 arg2 harg2 arg7 harg7 x0 x1 xs0 hF) x).trans (mha_emb x0 x1 0 inb_S4096x256_S256x256_0_0 ⟨0, by decide⟩ rfl x).symm,
    fun _ hp => (List.not_mem_nil hp).elim⟩

theorem piecesB_HS1_2 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (harg7 : arg7.IsWhole) (x0 : Vec F S1x16x256x128 .f32) (x1 : Vec F S1x16x256x256 .f32) (xs0 : Vec F S4096x256 .f32) (hF : FeatsB c arg1 harg1 arg7 harg7 x0 xs0) :
    ∀ p ∈ kernelRun0_B.sl.HS1_2 c arg1 harg1 arg2 harg2 arg7 harg7 x0 x1 xs0, ∀ x : p.1.shape.Idx, p.2 x = mha x0 x1 (p.1.emb x) := by
  unfold kernelRun0_B.sl.HS1_2
  exact List.forall_mem_cons.2 ⟨fun x => (congrFun (pieceB_1 c arg1 harg1 arg2 harg2 arg7 harg7 x0 x1 xs0 hF) x).trans (mha_emb x0 x1 256 inb_S4096x256_S256x256_256_0 ⟨1, by decide⟩ rfl x).symm,
    piecesB_HS1_1 c arg1 harg1 arg2 harg2 arg7 harg7 x0 x1 xs0 hF⟩

theorem piecesB_HS1_4 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (harg7 : arg7.IsWhole) (x0 : Vec F S1x16x256x128 .f32) (x1 : Vec F S1x16x256x256 .f32) (xs0 : Vec F S4096x256 .f32) (hF : FeatsB c arg1 harg1 arg7 harg7 x0 xs0) :
    ∀ p ∈ kernelRun0_B.sl.HS1_4 c arg1 harg1 arg2 harg2 arg7 harg7 x0 x1 xs0, ∀ x : p.1.shape.Idx, p.2 x = mha x0 x1 (p.1.emb x) := by
  unfold kernelRun0_B.sl.HS1_4
  exact List.forall_mem_cons.2 ⟨fun x => (congrFun (pieceB_3 c arg1 harg1 arg2 harg2 arg7 harg7 x0 x1 xs0 hF) x).trans (mha_emb x0 x1 768 inb_S4096x256_S256x256_768_0 ⟨3, by decide⟩ rfl x).symm,
    List.forall_mem_cons.2 ⟨fun x => (congrFun (pieceB_2 c arg1 harg1 arg2 harg2 arg7 harg7 x0 x1 xs0 hF) x).trans (mha_emb x0 x1 512 inb_S4096x256_S256x256_512_0 ⟨2, by decide⟩ rfl x).symm,
    piecesB_HS1_2 c arg1 harg1 arg2 harg2 arg7 harg7 x0 x1 xs0 hF⟩⟩

theorem piecesB_HS1_6 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (harg7 : arg7.IsWhole) (x0 : Vec F S1x16x256x128 .f32) (x1 : Vec F S1x16x256x256 .f32) (xs0 : Vec F S4096x256 .f32) (hF : FeatsB c arg1 harg1 arg7 harg7 x0 xs0) :
    ∀ p ∈ kernelRun0_B.sl.HS1_6 c arg1 harg1 arg2 harg2 arg7 harg7 x0 x1 xs0, ∀ x : p.1.shape.Idx, p.2 x = mha x0 x1 (p.1.emb x) := by
  unfold kernelRun0_B.sl.HS1_6
  exact List.forall_mem_cons.2 ⟨fun x => (congrFun (pieceB_5 c arg1 harg1 arg2 harg2 arg7 harg7 x0 x1 xs0 hF) x).trans (mha_emb x0 x1 1280 inb_S4096x256_S256x256_1280_0 ⟨5, by decide⟩ rfl x).symm,
    List.forall_mem_cons.2 ⟨fun x => (congrFun (pieceB_4 c arg1 harg1 arg2 harg2 arg7 harg7 x0 x1 xs0 hF) x).trans (mha_emb x0 x1 1024 inb_S4096x256_S256x256_1024_0 ⟨4, by decide⟩ rfl x).symm,
    piecesB_HS1_4 c arg1 harg1 arg2 harg2 arg7 harg7 x0 x1 xs0 hF⟩⟩

theorem piecesB_HS1_7 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (harg7 : arg7.IsWhole) (x0 : Vec F S1x16x256x128 .f32) (x1 : Vec F S1x16x256x256 .f32) (xs0 : Vec F S4096x256 .f32) (hF : FeatsB c arg1 harg1 arg7 harg7 x0 xs0) :
    ∀ p ∈ kernelRun0_B.sl.HS1_7 c arg1 harg1 arg2 harg2 arg7 harg7 x0 x1 xs0, ∀ x : p.1.shape.Idx, p.2 x = mha x0 x1 (p.1.emb x) := by
  unfold kernelRun0_B.sl.HS1_7
  exact List.forall_mem_cons.2 ⟨fun x => (congrFun (pieceB_6 c arg1 harg1 arg2 harg2 arg7 harg7 x0 x1 xs0 hF) x).trans (mha_emb x0 x1 1536 inb_S4096x256_S256x256_1536_0 ⟨6, by decide⟩ rfl x).symm,
    piecesB_HS1_6 c arg1 harg1 arg2 harg2 arg7 harg7 x0 x1 xs0 hF⟩

theorem piecesB_HS1_9 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (harg7 : arg7.IsWhole) (x0 : Vec F S1x16x256x128 .f32) (x1 : Vec F S1x16x256x256 .f32) (xs0 : Vec F S4096x256 .f32) (hF : FeatsB c arg1 harg1 arg7 harg7 x0 xs0) :
    ∀ p ∈ kernelRun0_B.sl.HS1_9 c arg1 harg1 arg2 harg2 arg7 harg7 x0 x1 xs0, ∀ x : p.1.shape.Idx, p.2 x = mha x0 x1 (p.1.emb x) := by
  unfold kernelRun0_B.sl.HS1_9
  exact List.forall_mem_cons.2 ⟨fun x => (congrFun (pieceB_8 c arg1 harg1 arg2 harg2 arg7 harg7 x0 x1 xs0 hF) x).trans (mha_emb x0 x1 2048 inb_S4096x256_S256x256_2048_0 ⟨8, by decide⟩ rfl x).symm,
    List.forall_mem_cons.2 ⟨fun x => (congrFun (pieceB_7 c arg1 harg1 arg2 harg2 arg7 harg7 x0 x1 xs0 hF) x).trans (mha_emb x0 x1 1792 inb_S4096x256_S256x256_1792_0 ⟨7, by decide⟩ rfl x).symm,
    piecesB_HS1_7 c arg1 harg1 arg2 harg2 arg7 harg7 x0 x1 xs0 hF⟩⟩

theorem piecesB_HS1_10 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (harg7 : arg7.IsWhole) (x0 : Vec F S1x16x256x128 .f32) (x1 : Vec F S1x16x256x256 .f32) (xs0 : Vec F S4096x256 .f32) (hF : FeatsB c arg1 harg1 arg7 harg7 x0 xs0) :
    ∀ p ∈ kernelRun0_B.sl.HS1_10 c arg1 harg1 arg2 harg2 arg7 harg7 x0 x1 xs0, ∀ x : p.1.shape.Idx, p.2 x = mha x0 x1 (p.1.emb x) := by
  unfold kernelRun0_B.sl.HS1_10
  exact List.forall_mem_cons.2 ⟨fun x => (congrFun (pieceB_9 c arg1 harg1 arg2 harg2 arg7 harg7 x0 x1 xs0 hF) x).trans (mha_emb x0 x1 2304 inb_S4096x256_S256x256_2304_0 ⟨9, by decide⟩ rfl x).symm,
    piecesB_HS1_9 c arg1 harg1 arg2 harg2 arg7 harg7 x0 x1 xs0 hF⟩

theorem piecesB_HS1_12 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (harg7 : arg7.IsWhole) (x0 : Vec F S1x16x256x128 .f32) (x1 : Vec F S1x16x256x256 .f32) (xs0 : Vec F S4096x256 .f32) (hF : FeatsB c arg1 harg1 arg7 harg7 x0 xs0) :
    ∀ p ∈ kernelRun0_B.sl.HS1_12 c arg1 harg1 arg2 harg2 arg7 harg7 x0 x1 xs0, ∀ x : p.1.shape.Idx, p.2 x = mha x0 x1 (p.1.emb x) := by
  unfold kernelRun0_B.sl.HS1_12
  exact List.forall_mem_cons.2 ⟨fun x => (congrFun (pieceB_11 c arg1 harg1 arg2 harg2 arg7 harg7 x0 x1 xs0 hF) x).trans (mha_emb x0 x1 2816 inb_S4096x256_S256x256_2816_0 ⟨11, by decide⟩ rfl x).symm,
    List.forall_mem_cons.2 ⟨fun x => (congrFun (pieceB_10 c arg1 harg1 arg2 harg2 arg7 harg7 x0 x1 xs0 hF) x).trans (mha_emb x0 x1 2560 inb_S4096x256_S256x256_2560_0 ⟨10, by decide⟩ rfl x).symm,
    piecesB_HS1_10 c arg1 harg1 arg2 harg2 arg7 harg7 x0 x1 xs0 hF⟩⟩

theorem piecesB_HS1_14 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (harg7 : arg7.IsWhole) (x0 : Vec F S1x16x256x128 .f32) (x1 : Vec F S1x16x256x256 .f32) (xs0 : Vec F S4096x256 .f32) (hF : FeatsB c arg1 harg1 arg7 harg7 x0 xs0) :
    ∀ p ∈ kernelRun0_B.sl.HS1_14 c arg1 harg1 arg2 harg2 arg7 harg7 x0 x1 xs0, ∀ x : p.1.shape.Idx, p.2 x = mha x0 x1 (p.1.emb x) := by
  unfold kernelRun0_B.sl.HS1_14
  exact List.forall_mem_cons.2 ⟨fun x => (congrFun (pieceB_13 c arg1 harg1 arg2 harg2 arg7 harg7 x0 x1 xs0 hF) x).trans (mha_emb x0 x1 3328 inb_S4096x256_S256x256_3328_0 ⟨13, by decide⟩ rfl x).symm,
    List.forall_mem_cons.2 ⟨fun x => (congrFun (pieceB_12 c arg1 harg1 arg2 harg2 arg7 harg7 x0 x1 xs0 hF) x).trans (mha_emb x0 x1 3072 inb_S4096x256_S256x256_3072_0 ⟨12, by decide⟩ rfl x).symm,
    piecesB_HS1_12 c arg1 harg1 arg2 harg2 arg7 harg7 x0 x1 xs0 hF⟩⟩

theorem piecesB_HS1_16 (c : Dev nD) (arg1 : Memref sig .tc .vmem S1x16x256x128 .f32) (harg1 : arg1.IsWhole) (arg2 : Memref sig .tc .vmem S1x16x256x256 .f32) (harg2 : arg2.IsWhole) (arg7 : Memref sig .tc .vmem S4096x256 .f32) (harg7 : arg7.IsWhole) (x0 : Vec F S1x16x256x128 .f32) (x1 : Vec F S1x16x256x256 .f32) (xs0 : Vec F S4096x256 .f32) (hF : FeatsB c arg1 harg1 arg7 harg7 x0 xs0) :
    ∀ p ∈ kernelRun0_B.sl.HS1_16 c arg1 harg1 arg2 harg2 arg7 harg7 x0 x1 xs0, ∀ x : p.1.shape.Idx, p.2 x = mha x0 x1 (p.1.emb x) := by
  unfold kernelRun0_B.sl.HS1_16
  exact List.forall_mem_cons.2 ⟨fun x => (congrFun (pieceB_15 c arg1 harg1 arg2 harg2 arg7 harg7 x0 x1 xs0 hF) x).trans (mha_emb x0 x1 3840 inb_S4096x256_S256x256_3840_0 ⟨15, by decide⟩ rfl x).symm,
    List.forall_mem_cons.2 ⟨fun x => (congrFun (pieceB_14 c arg1 harg1 arg2 harg2 arg7 harg7 x0 x1 xs0 hF) x).trans (mha_emb x0 x1 3584 inb_S4096x256_S256x256_3584_0 ⟨14, by decide⟩ rfl x).symm,
    piecesB_HS1_14 c arg1 harg1 arg2 harg2 arg7 harg7 x0 x1 xs0 hF⟩⟩

/-- The aggregate scratch read back whole in case B is the scaled aggregate of all rows. -/
theorem v307B_eq (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .f32) (harg7 : arg7.IsWhole) (arg8 : Memref sig .tc .vmem S4096x256 .f32) (harg8 : arg8.IsWhole) (x0 : Vec F S1x16x256x128 .f32) (x1 : Vec F S1x16x256x256 .f32) (x2 : Vec F S256x512 .f32) (x3 : Vec F S512x128 .f32) (x4 : Vec F S1x128 .f32) (xs0 : Vec F S4096x256 .f32) (hF : FeatsB c arg1 harg1 arg7 harg7 x0 xs0) :
    kernelRun0_B.sl.v307 c arg1 harg1 arg2 harg2 arg7 harg7 arg8 x0 x1 xs0 = mha x0 x1 := by
  unfold kernelRun0_B.sl.v307
  exact readCov_whole_of_pieces arg8.view _ (mha x0 x1) (piecesB_HS1_16 c arg1 harg1 arg2 harg2 arg7 harg7 x0 x1 xs0 hF)
    (View.cover_of_tiledL (kernelRun0_B.sl.HS1_16 c arg1 harg1 arg2 harg2 arg7 harg7 x0 x1 xs0) ![256, 256] (by sl_kernel_rfl)) hz2 _

/-- What the body's one store leaves in the output block in case B: the output block of the five input blocks. -/
theorem outB_of_feats (v : View sig .tc .vmem S1x4096x128 .f32) (f : v.ty.Contents (Elt F)) (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .f32) (harg7 : arg7.IsWhole) (arg8 : Memref sig .tc .vmem S4096x256 .f32) (harg8 : arg8.IsWhole) (hc0 : ¬cond0_0 i) (x0 : Vec F S1x16x256x128 .f32) (x1 : Vec F S1x16x256x256 .f32) (x2 : Vec F S256x512 .f32) (x3 : Vec F S512x128 .f32) (x4 : Vec F S1x128 .f32) (xs0 : Vec F S4096x256 .f32)
    (hF : FeatsB c arg1 harg1 arg7 harg7 x0 xs0) :
    v.read (Elt F) (v.writes (Elt F) f (kernelRun0_B c i arg1 harg1 arg2 harg2 arg3 harg3 arg4 harg4 arg5 harg5 arg6 harg6 arg7 harg7 arg8 harg8 hc0 x0 x1 x2 x3 x4 xs0).1) = outBlk x0 x1 x2 x3 x4 := by
  unfold kernelRun0_B
  refine (read_writes_single_whole v f hz3 _ _).trans ?_
  exact congr (congr (congr (congrArg k0_pay2 (v307B_eq c i arg1 harg1 arg2 harg2 arg3 harg3 arg4 harg4 arg5 harg5 arg6 harg6 arg7 harg7 arg8 harg8 x0 x1 x2 x3 x4 xs0 hF))
    (readAt_whole_unread arg3 harg3 x2 hz2 _)) (readAt_whole_unread arg4 harg4 x3 hz2 _)) (readAt_whole_unread arg5 harg5 x4 hz2 _)

end Cert.KernelIdeal.Gen

end
-- ==== Proof.KI.Inv.lean ====
/-
  What the kernel relies on from one grid point to the next: in every widened feature row, lane 128 holds
  a one and the lanes above it hold zeros.
-/
import proofs.«105909_g1906965479736_cont_8to1_1380_15_alg».proof.Proof.KI.Mha

noncomputable section

namespace Cert.KernelIdeal.Gen

open Idealize.ShloMosaic Idealize.ShloMosaic.ValueIdx

variable {F : FTy → Type} [FloatOps F]

/-- The constant lanes of the feature scratch. -/
def Inv (xs : Vec F S4096x256 .f32) : Prop :=
  ∀ y : S4096x256.Idx, 128 ≤ (y 1).val → xs y = if (y 1).val = 128 then (one32 : F .f32) else zero32

end Cert.KernelIdeal.Gen

end
-- ==== Proof.KI.ScratchLib.lean ====
/-
  The feature scratch, read back: general facts.

  The scratch holds 4096 rows of 256 lanes.  A grid point stores, for each of its sixteen graphs in order,
  the graph's 256 feature rows into lanes 0..127 of rows g*256.., and the first point before that fills lanes
  128..255 of every row with zeros and then lane 128 with ones.  Written over anything, such a list of stores
  leaves the widened feature rows (the features, a one, zeros) on a region that grows by one graph per store:
  every row at the lanes from 128 on, and the rows below the graphs stored so far at every lane.
-/
import proofs.«105909_g1906965479736_cont_8to1_1380_15_alg».proof.Proof.KI.Mha
import Idealize.ShloMosaic.Lib.Writes
import Idealize.ShloMosaic.Lib.Exec.Geometry
import Idealize.ShloMosaic.Lib.Pipeline.Frame
import Idealize.ShloMosaic.Lib.Pipeline.Value

noncomputable section

namespace Cert.KernelIdeal.Gen

open Idealize.ShloMosaic Idealize.ShloMosaic.ValueIdx Idealize.ShloMosaic.View

/-! ## One store more -/

section Step
variable {Val : EltTy → Type} {S : Shape} {e : EltTy} {sg : RefSig} {κ : Kind} {sp : Space}

/-- If the contents read `G` on a region `P`, and a further store's payload is `G` wherever it lands in a
    region `Q`, and `Q` off the store lies in `P`, then after the store the contents read `G` on `Q`. -/
theorem read_writes_cons_step (v : View sg κ sp S e) (f : v.ty.Contents Val) (G : S.Idx → Val e)
    (L : List (Piece Val S e)) (r : Rect S) (w : r.shape.Idx → Val e) (P Q : S.Idx → Prop)
    (hw : ∀ x, Q (r.emb x) → w x = G (r.emb x))
    (hL : ∀ y, P y → v.read Val (v.writes Val f L) y = G y)
    (hPQ : ∀ y, Q y → y ∉ r.set → P y) :
    ∀ y, Q y → v.read Val (v.writes Val f (⟨r, w⟩ :: L)) y = G y := by
  intro y hQ
  by_cases hy : y ∈ r.set
  · obtain ⟨x, rfl⟩ : ∃ x, r.emb x = y := r.exists_idx_of_mem hy
    rw [read_writes_cons_emb]
    exact hw x hQ
  · have h := read_writes_apply_of_forall_not_mem v (v.writes Val f L) y [⟨r, w⟩]
      (fun p hp => by rw [List.mem_singleton] at hp; subst hp; exact hy)
    exact h.trans (hL y (hPQ y hQ hy))

end Step

variable {F : FTy → Type} [FloatOps F]

/-! ## The widened feature rows at an index -/

theorem haug_apply (x0 : Vec F S1x16x256x128 .f32) (r : Fin 4096) (l : Fin 256) :
    haug x0 (ix2 r l) = featAt x0 (graphOf r) (nodeOf r) l := rfl

theorem haugBlk_apply (x0 : Vec F S1x16x256x128 .f32) (g : Fin 16) (i l : Fin 256) :
    haugBlk x0 g (ix2 i l) = featAt x0 g i l := rfl

/-- From lane 128 on the widened rows are constant: a one, then zeros. -/
theorem haug_const (x0 : Vec F S1x16x256x128 .f32) (y : S4096x256.Idx) (hy : 128 ≤ (y 1).val) :
    haug x0 y = if (y 1).val = 128 then (one32 : F .f32) else zero32 := by
  unfold haug featAt
  rw [dif_neg (by show ¬ (y 1).val < 128; omega)]

/-- The region that reads the widened feature rows once the graphs below row `n` are stored: every row at the
    lanes from 128 on, the rows below `n` at every lane. -/
def Reg (n : Nat) (y : S4096x256.Idx) : Prop := 128 ≤ (y 1).val ∨ (y 0).val < n

/-- Contents that read the widened feature rows on a region hold the constant lanes. -/
theorem consts_of_reg {xs : Vec F S4096x256 .f32} {x0 : Vec F S1x16x256x128 .f32} {n : Nat}
    (h : ∀ y, Reg n y → xs y = haug x0 y) :
    ∀ y : S4096x256.Idx, 128 ≤ (y 1).val → xs y = if (y 1).val = 128 then (one32 : F .f32) else zero32 :=
  fun y hy => (h y (Or.inl hy)).trans (haug_const x0 y hy)

/-- Contents that hold the constant lanes read the widened feature rows on the region with no graph stored. -/
theorem reg_of_consts {xs : Vec F S4096x256 .f32} (x0 : Vec F S1x16x256x128 .f32)
    (h : ∀ y : S4096x256.Idx, 128 ≤ (y 1).val → xs y = if (y 1).val = 128 then (one32 : F .f32) else zero32) :
    ∀ y, Reg 0 y → xs y = haug x0 y := by
  intro y hy
  have h128 : 128 ≤ (y 1).val := by rcases hy with h | h; exact h; exact absurd h (Nat.not_lt_zero _)
  rw [h y h128, haug_const x0 y h128]

/-! ## A graph's feature block as stored -/

/-- The payload of a feature store: the loaded block with its two unit axes dropped. -/
def featPay (v : Vec F S1x1x256x128 .f32) : FVec F S256x128 .f32 :=
  shapeCast S256x128 (shapeCast S256x128 v shapeCasts_S1x1x256x128_S256x128) shapeCasts_S256x128_S256x128

theorem featPay_apply (v : Vec F S1x1x256x128 .f32) (i : Fin 256) (l : Fin 128) :
    featPay v (ix2 i l) = v (ix4 (0 : Fin 1) (0 : Fin 1) i l) := by
  unfold featPay
  rw [shapeCast_self]
  exact shapeCast_apply v _ _ _ (by
    rw [Shape.rowMajor_val_four, Shape.rowMajor_val_two]
    show ((0 * 1 + 0) * 256 + i.val) * 128 + l.val = i.val * 128 + l.val
    omega)

/-- Graph `gi`'s block loaded from the input block, with its unit axes dropped, is the widened feature rows at
    the indices of the rectangle of rows `gi * 256 ..`, lanes `0 .. 127`. -/
theorem featPay_blk {sg : RefSig} {κ : Kind} {sp : Space} (m1 : Memref sg κ sp S1x16x256x128 .f32) (h1 : m1.IsWhole)
    (x0 : Vec F S1x16x256x128 .f32) (gi : Nat) (hg : gi < 16)
    (inb1 : ∀ a, ![0, gi, 0, 0] a + S1x1x256x128.size a ≤ S1x16x256x128.size a)
    (o : Nat) (ho : o = gi * 256) (inb7 : ∀ a, ![o, 0] a + S256x128.size a ≤ S4096x256.size a)
    (x : (Rect.unit (s := S4096x256) ![o, 0] S256x128.size inb7).shape.Idx) :
    featPay (View.readAt (Elt F) m1.view (Rect.unit (s := S1x16x256x128) ![0, gi, 0, 0] S1x1x256x128.size inb1).toLoadRect (h1.unread x0)) x
      = haug x0 ((Rect.unit (s := S4096x256) ![o, 0] S256x128.size inb7).emb x) := by
  obtain ⟨i, l, rfl⟩ : ∃ (i : Fin 256) (l : Fin 128), x = ix2 i l := ⟨x 0, x 1, eq_ix2 x⟩
  rw [featPay_apply, readAt_apply, h1.read_unread]
  have hi := i.isLt
  have hl := l.isLt
  show _ = featAt x0 (graphOf ⟨o + 1 * i.val, _⟩) (nodeOf ⟨o + 1 * i.val, _⟩) ⟨0 + 1 * l.val, _⟩
  unfold featAt
  rw [dif_pos (by show 0 + 1 * l.val < 128; omega)]
  refine congrArg x0 (funext fun a => Fin.ext ?_)
  match a with
  | ⟨0, _⟩ => show 0 + 1 * 0 = 0; rfl
  | ⟨1, _⟩ => show gi + 1 * 0 = (o + 1 * i.val) / 256; omega
  | ⟨2, _⟩ => show 0 + 1 * i.val = (o + 1 * i.val) % 256; omega
  | ⟨3, _⟩ => show 0 + 1 * l.val = 0 + 1 * l.val; rfl

/-- Storing graph `gi`'s block extends the region by its 256 rows. -/
theorem reg_step {sg sg' : RefSig} {κ κ' : Kind} {sp sp' : Space} (v : View sg' κ' sp' S4096x256 .f32)
    (f : v.ty.Contents (Elt F)) (m1 : Memref sg κ sp S1x16x256x128 .f32) (h1 : m1.IsWhole)
    (x0 : Vec F S1x16x256x128 .f32) (gi : Nat) (hg : gi < 16)
    (inb1 : ∀ a, ![0, gi, 0, 0] a + S1x1x256x128.size a ≤ S1x16x256x128.size a)
    (o : Nat) (ho : o = gi * 256) (inb7 : ∀ a, ![o, 0] a + S256x128.size a ≤ S4096x256.size a)
    (L : List (Piece (Elt F) S4096x256 .f32))
    (hL : ∀ y, Reg o y → v.read (Elt F) (v.writes (Elt F) f L) y = haug x0 y) :
    ∀ y, Reg (o + 256) y → v.read (Elt F) (v.writes (Elt F) f
      (⟨Rect.unit (s := S4096x256) ![o, 0] S256x128.size inb7,
        featPay (View.readAt (Elt F) m1.view (Rect.unit (s := S1x16x256x128) ![0, gi, 0, 0] S1x1x256x128.size inb1).toLoadRect (h1.unread x0))⟩ :: L)) y
      = haug x0 y := by
  refine read_writes_cons_step v f (haug x0) L _ _ (Reg o) (Reg (o + 256))
    (fun x _ => featPay_blk m1 h1 x0 gi hg inb1 o ho inb7 x) hL fun y hQ hy => ?_
  rw [Rect.mem_set_unit] at hy
  rcases hQ with h | h
  · exact Or.inl h
  · by_contra hn
    refine hy fun a => ?_
    have hn1 : ¬ 128 ≤ (y 1).val := fun h' => hn (Or.inl h')
    have hn0 : ¬ (y 0).val < o := fun h' => hn (Or.inr h')
    match a with
    | ⟨0, _⟩ => exact ⟨by show o ≤ (y 0).val; omega, by show (y 0).val < o + 256; omega⟩
    | ⟨1, _⟩ => exact ⟨by show 0 ≤ (y 1).val; omega, by show (y 1).val < 0 + 128; omega⟩

/-! ## The constant lanes as the first point fills them -/

/-- The zero fill of lanes 128..255 and the one fill of lane 128 over it: every row reads the widened feature
    rows at the lanes from 128 on. -/
theorem reg_consts {sg' : RefSig} {κ' : Kind} {sp' : Space} (v : View sg' κ' sp' S4096x256 .f32)
    (f : v.ty.Contents (Elt F)) (x0 : Vec F S1x16x256x128 .f32)
    (inb4 : ∀ a, ![0, 128] a + S4096x1.size a ≤ S4096x256.size a)
    (inb3 : ∀ a, ![0, 128] a + S4096x128.size a ≤ S4096x256.size a) :
    ∀ y, Reg 0 y → v.read (Elt F) (v.writes (Elt F) f
      [⟨Rect.unit (s := S4096x256) ![0, 128] S4096x1.size inb4, k0_pay4⟩, ⟨Rect.unit (s := S4096x256) ![0, 128] S4096x128.size inb3, k0_pay3⟩]) y
      = haug x0 y := by
  refine read_writes_cons_step v f (haug x0) _ _ _ (fun y => 128 < (y 1).val) (Reg 0) (fun x _ => ?_)
    (read_writes_cons_step v f (haug x0) [] _ _ (fun _ => False) (fun y => 128 < (y 1).val) (fun x hx => ?_)
      (fun y hy => hy.elim) fun y hQ hy => hy ?_)
    fun y hQ hy => ?_
  · -- the ones land in lane 128
    rw [haug_const x0 _ (by show 128 ≤ 128 + 1 * (x 1).val; omega)]
    have h1 : (x 1).val = 0 := by have := idx2_lt1 x; omega
    rw [if_pos (by show 128 + 1 * (x 1).val = 128; omega)]
    rfl
  · -- above lane 128 the zeros stay
    have hx' : 128 < 128 + 1 * (x 1).val := hx
    rw [haug_const x0 _ (by show 128 ≤ 128 + 1 * (x 1).val; omega)]
    rw [if_neg (by show ¬ 128 + 1 * (x 1).val = 128; omega)]
    rfl
  · -- every index above lane 128 is under the zero fill
    rw [Rect.mem_set_unit]
    intro a
    have h0 := idx2_lt0 y
    have h1 := idx2_lt1 y
    match a with
    | ⟨0, _⟩ => exact ⟨by show 0 ≤ (y 0).val; omega, by show (y 0).val < 0 + 4096; omega⟩
    | ⟨1, _⟩ => exact ⟨by show 128 ≤ (y 1).val; omega, by show (y 1).val < 128 + 128; omega⟩
  · -- off the one fill, a lane from 128 on is above 128
    have h128 : 128 ≤ (y 1).val := by rcases hQ with h | h; exact h; exact absurd h (Nat.not_lt_zero _)
    show 128 < (y 1).val
    by_contra hn
    refine hy (Rect.mem_set_unit.mpr fun a => ?_)
    have h0 := idx2_lt0 y
    match a with
    | ⟨0, _⟩ => exact ⟨by show 0 ≤ (y 0).val; omega, by show (y 0).val < 0 + 4096; omega⟩
    | ⟨1, _⟩ => exact ⟨by show 128 ≤ (y 1).val; omega, by show (y 1).val < 128 + 1; omega⟩

/-! ## A graph's rows read back -/

/-- The widened feature rows at the indices of the rectangle of rows `gi * 256 ..`, all lanes, are graph `gi`'s
    widened feature rows. -/
theorem haug_idx_blk (x0 : Vec F S1x16x256x128 .f32) (gi : Nat) (hg : gi < 16) (o : Nat) (ho : o = gi * 256)
    (inb : ∀ a, ![o, 0] a + S256x256.size a ≤ S4096x256.size a)
    (j : (Rect.unit (s := S4096x256) ![o, 0] S256x256.size inb).toLoadRect.shape.Idx) :
    haug x0 ((Rect.unit (s := S4096x256) ![o, 0] S256x256.size inb).toLoadRect.idx j) = haugBlk x0 ⟨gi, hg⟩ j := by
  obtain ⟨i, l, rfl⟩ : ∃ (i : Fin 256) (l : Fin 256), j = ix2 i l := ⟨j 0, j 1, eq_ix2 j⟩
  have hi := i.isLt
  have hl := l.isLt
  show featAt x0 (graphOf ⟨o + 1 * i.val, _⟩) (nodeOf ⟨o + 1 * i.val, _⟩) ⟨0 + 1 * l.val, _⟩ = featAt x0 ⟨gi, hg⟩ i l
  have e1 : ∀ h, graphOf (⟨o + 1 * i.val, h⟩ : Fin 4096) = ⟨gi, hg⟩ := fun h =>
    Fin.ext (by show (o + 1 * i.val) / 256 = gi; omega)
  have e2 : ∀ h, nodeOf (⟨o + 1 * i.val, h⟩ : Fin 4096) = i := fun h =>
    Fin.ext (by show (o + 1 * i.val) % 256 = i.val; omega)
  have e3 : ∀ h, (⟨0 + 1 * l.val, h⟩ : Fin 256) = l := fun h => Fin.ext (by show 0 + 1 * l.val = l.val; omega)
  exact congr (congr (congrArg (featAt x0) (e1 _)) (e2 _)) (e3 _)

/-- A load of graph `gi`'s rows, all lanes, from contents that read the widened feature rows on the region up to
    the end of that graph. -/
theorem readAt_blk {sg' : RefSig} {κ' : Kind} {sp' : Space} (v : View sg' κ' sp' S4096x256 .f32)
    (g : v.ty.Contents (Elt F)) (x0 : Vec F S1x16x256x128 .f32) (gi : Nat) (hg : gi < 16) (o : Nat) (ho : o = gi * 256)
    (inb : ∀ a, ![o, 0] a + S256x256.size a ≤ S4096x256.size a)
    (h : ∀ y, Reg (o + 256) y → v.read (Elt F) g y = haug x0 y) :
    View.readAt (Elt F) v (Rect.unit (s := S4096x256) ![o, 0] S256x256.size inb).toLoadRect g = haugBlk x0 ⟨gi, hg⟩ := by
  funext j
  rw [readAt_apply, h _ (Or.inr (by
    show o + 1 * (j 0).val < o + 256
    have := idx2_lt0 j; omega))]
  exact haug_idx_blk x0 gi hg o ho inb j

end Cert.KernelIdeal.Gen

end
-- ==== Proof.KI.ScratchA.lean ====
/-
  The feature scratch at the first grid point.  The point fills the constant lanes (zeros in lanes 128..255, then
  ones in lane 128) and then stores the sixteen graphs' feature blocks one after another, loading each graph's
  rows, all lanes, right after its store.  After the store of graph g the scratch reads the widened feature rows
  on every row at the lanes from 128 on and on the rows of the graphs 0..g at every lane, whatever it held
  before; so each load is that graph's widened feature rows, and at the end the constant lanes hold.
-/
import proofs.«105909_g1906965479736_cont_8to1_1380_15_alg».proof.Proof.KI.Run
import proofs.«105909_g1906965479736_cont_8to1_1380_15_alg».proof.Proof.KI.Inv
import proofs.«105909_g1906965479736_cont_8to1_1380_15_alg».proof.Proof.KI.ScratchLib

noncomputable section

namespace Cert.KernelIdeal.Gen

open Idealize.ShloMosaic Idealize.ShloMosaic.ValueIdx Idealize.ShloMosaic.View

variable {F : FTy → Type} [FloatOps F]
variable (c : Dev nD) (arg1 : Memref sig .tc .vmem S1x16x256x128 .f32) (harg1 : arg1.IsWhole)
  (arg7 : Memref sig .tc .vmem S4096x256 .f32) (x0 : Vec F S1x16x256x128 .f32)

/-! ## The region after each store -/

/-- After the two fills and graph 0's store. -/
theorem regA_3 (f : arg7.view.ty.Contents (Elt F)) : ∀ y, Reg 256 y →
    arg7.view.read (Elt F) (arg7.view.writes (Elt F) f (kernelRun0_A.sl.HS0_3 c arg1 harg1 x0)) y = haug x0 y :=
  reg_step arg7.view f arg1 harg1 x0 0 (by decide) _ 0 rfl _ _ (reg_consts arg7.view f x0 _ _)

theorem regA_4 (f : arg7.view.ty.Contents (Elt F)) : ∀ y, Reg 512 y →
    arg7.view.read (Elt F) (arg7.view.writes (Elt F) f (kernelRun0_A.sl.HS0_4 c arg1 harg1 x0)) y = haug x0 y :=
  reg_step arg7.view f arg1 harg1 x0 1 (by decide) _ 256 rfl _ _ (regA_3 c arg1 harg1 arg7 x0 f)

theorem regA_5 (f : arg7.view.ty.Contents (Elt F)) : ∀ y, Reg 768 y →
    arg7.view.read (Elt F) (arg7.view.writes (Elt F) f (kernelRun0_A.sl.HS0_5 c arg1 harg1 x0)) y = haug x0 y :=
  reg_step arg7.view f arg1 harg1 x0 2 (by decide) _ 512 rfl _ _ (regA_4 c arg1 harg1 arg7 x0 f)

theorem regA_6 (f : arg7.view.ty.Contents (Elt F)) : ∀ y, Reg 1024 y →
    arg7.view.read (Elt F) (arg7.view.writes (Elt F) f (kernelRun0_A.sl.HS0_6 c arg1 harg1 x0)) y = haug x0 y :=
  reg_step arg7.view f arg1 harg1 x0 3 (by decide) _ 768 rfl _ _ (regA_5 c arg1 harg1 arg7 x0 f)

theorem regA_7 (f : arg7.view.ty.Contents (Elt F)) : ∀ y, Reg 1280 y →
    arg7.view.read (Elt F) (arg7.view.writes (Elt F) f (kernelRun0_A.sl.HS0_7 c arg1 harg1 x0)) y = haug x0 y :=
  reg_step arg7.view f arg1 harg1 x0 4 (by decide) _ 1024 rfl _ _ (regA_6 c arg1 harg1 arg7 x0 f)

theorem regA_8 (f : arg7.view.ty.Contents (Elt F)) : ∀ y, Reg 1536 y →
    arg7.view.read (Elt F) (arg7.view.writes (Elt F) f (kernelRun0_A.sl.HS0_8 c arg1 harg1 x0)) y = haug x0 y :=
  reg_step arg7.view f arg1 harg1 x0 5 (by decide) _ 1280 rfl _ _ (regA_7 c arg1 harg1 arg7 x0 f)

theorem regA_9 (f : arg7.view.ty.Contents (Elt F)) : ∀ y, Reg 1792 y →
    arg7.view.read (Elt F) (arg7.view.writes (Elt F) f (kernelRun0_A.sl.HS0_9 c arg1 harg1 x0)) y = haug x0 y :=
  reg_step arg7.view f arg1 harg1 x0 6 (by decide) _ 1536 rfl _ _ (regA_8 c arg1 harg1 arg7 x0 f)

theorem regA_10 (f : arg7.view.ty.Contents (Elt F)) : ∀ y, Reg 2048 y →
    arg7.view.read (Elt F) (arg7.view.writes (Elt F) f (kernelRun0_A.sl.HS0_10 c arg1 harg1 x0)) y = haug x0 y :=
  reg_step arg7.view f arg1 harg1 x0 7 (by decide) _ 1792 rfl _ _ (regA_9 c arg1 harg1 arg7 x0 f)

theorem regA_11 (f : arg7.view.ty.Contents (Elt F)) : ∀ y, Reg 2304 y →
    arg7.view.read (Elt F) (arg7.view.writes (Elt F) f (kernelRun0_A.sl.HS0_11 c arg1 harg1 x0)) y = haug x0 y :=
  reg_step arg7.view f arg1 harg1 x0 8 (by decide) _ 2048 rfl _ _ (regA_10 c arg1 harg1 arg7 x0 f)

theorem regA_12 (f : arg7.view.ty.Contents (Elt F)) : ∀ y, Reg 2560 y →
    arg7.view.read (Elt F) (arg7.view.writes (Elt F) f (kernelRun0_A.sl.HS0_12 c arg1 harg1 x0)) y = haug x0 y :=
  reg_step arg7.view f arg1 harg1 x0 9 (by decide) _ 2304 rfl _ _ (regA_11 c arg1 harg1 arg7 x0 f)

theorem regA_13 (f : arg7.view.ty.Contents (Elt F)) : ∀ y, Reg 2816 y →
    arg7.view.read (Elt F) (arg7.view.writes (Elt F) f (kernelRun0_A.sl.HS0_13 c arg1 harg1 x0)) y = haug x0 y :=
  reg_step arg7.view f arg1 harg1 x0 10 (by decide) _ 2560 rfl _ _ (regA_12 c arg1 harg1 arg7 x0 f)

theorem regA_14 (f : arg7.view.ty.Contents (Elt F)) : ∀ y, Reg 3072 y →
    arg7.view.read (Elt F) (arg7.view.writes (Elt F) f (kernelRun0_A.sl.HS0_14 c arg1 harg1 x0)) y = haug x0 y :=
  reg_step arg7.view f arg1 harg1 x0 11 (by decide) _ 2816 rfl _ _ (regA_13 c arg1 harg1 arg7 x0 f)

theorem regA_15 (f : arg7.view.ty.Contents (Elt F)) : ∀ y, Reg 3328 y →
    arg7.view.read (Elt F) (arg7.view.writes (Elt F) f (kernelRun0_A.sl.HS0_15 c arg1 harg1 x0)) y = haug x0 y :=
  reg_step arg7.view f arg1 harg1 x0 12 (by decide) _ 3072 rfl _ _ (regA_14 c arg1 harg1 arg7 x0 f)

theorem regA_16 (f : arg7.view.ty.Contents (Elt F)) : ∀ y, Reg 3584 y →
    arg7.view.read (Elt F) (arg7.view.writes (Elt F) f (kernelRun0_A.sl.HS0_16 c arg1 harg1 x0)) y = haug x0 y :=
  reg_step arg7.view f arg1 harg1 x0 13 (by decide) _ 3328 rfl _ _ (regA_15 c arg1 harg1 arg7 x0 f)

theorem regA_17 (f : arg7.view.ty.Contents (Elt F)) : ∀ y, Reg 3840 y →
    arg7.view.read (Elt F) (arg7.view.writes (Elt F) f (kernelRun0_A.sl.HS0_17 c arg1 harg1 x0)) y = haug x0 y :=
  reg_step arg7.view f arg1 harg1 x0 14 (by decide) _ 3584 rfl _ _ (regA_16 c arg1 harg1 arg7 x0 f)

theorem regA_18 (f : arg7.view.ty.Contents (Elt F)) : ∀ y, Reg 4096 y →
    arg7.view.read (Elt F) (arg7.view.writes (Elt F) f (kernelRun0_A.sl.HS0_18 c arg1 harg1 x0)) y = haug x0 y :=
  reg_step arg7.view f arg1 harg1 x0 15 (by decide) _ 3840 rfl _ _ (regA_17 c arg1 harg1 arg7 x0 f)

/-! ## The sixteen loads -/

/-- The load after graph 0's store reads graph 0's widened feature rows. -/
theorem scratchA_0 : kernelRun0_A.sl.v10 c arg1 harg1 arg7 x0 = haugBlk x0 ⟨0, by decide⟩ :=
  readAt_blk arg7.view _ x0 0 (by decide) 0 rfl _ (regA_3 c arg1 harg1 arg7 x0 _)

/-- The load after graph 1's store reads graph 1's widened feature rows. -/
theorem scratchA_1 : kernelRun0_A.sl.v29 c arg1 harg1 arg7 x0 = haugBlk x0 ⟨1, by decide⟩ :=
  readAt_blk arg7.view _ x0 1 (by decide) 256 rfl _ (regA_4 c arg1 harg1 arg7 x0 _)

/-- The load after graph 2's store reads graph 2's widened feature rows. -/
theorem scratchA_2 : kernelRun0_A.sl.v48 c arg1 harg1 arg7 x0 = haugBlk x0 ⟨2, by decide⟩ :=
  readAt_blk arg7.view _ x0 2 (by decide) 512 rfl _ (regA_5 c arg1 harg1 arg7 x0 _)

/-- The load after graph 3's store reads graph 3's widened feature rows. -/
theorem scratchA_3 : kernelRun0_A.sl.v67 c arg1 harg1 arg7 x0 = haugBlk x0 ⟨3, by decide⟩ :=
  readAt_blk arg7.view _ x0 3 (by decide) 768 rfl _ (regA_6 c arg1 harg1 arg7 x0 _)

/-- The load after graph 4's store reads graph 4's widened feature rows. -/
theorem scratchA_4 : kernelRun0_A.sl.v86 c arg1 harg1 arg7 x0 = haugBlk x0 ⟨4, by decide⟩ :=
  readAt_blk arg7.view _ x0 4 (by decide) 1024 rfl _ (regA_7 c arg1 harg1 arg7 x0 _)

/-- The load after graph 5's store reads graph 5's widened feature rows. -/
theorem scratchA_5 : kernelRun0_A.sl.v105 c arg1 harg1 arg7 x0 = haugBlk x0 ⟨5, by decide⟩ :=
  readAt_blk arg7.view _ x0 5 (by decide) 1280 rfl _ (regA_8 c arg1 harg1 arg7 x0 _)

/-- The load after graph 6's store reads graph 6's widened feature rows. -/
theorem scratchA_6 : kernelRun0_A.sl.v124 c arg1 harg1 arg7 x0 = haugBlk x0 ⟨6, by decide⟩ :=
  readAt_blk arg7.view _ x0 6 (by decide) 1536 rfl _ (regA_9 c arg1 harg1 arg7 x0 _)

/-- The load after graph 7's store reads graph 7's widened feature rows. -/
theorem scratchA_7 : kernelRun0_A.sl.v143 c arg1 harg1 arg7 x0 = haugBlk x0 ⟨7, by decide⟩ :=
  readAt_blk arg7.view _ x0 7 (by decide) 1792 rfl _ (regA_10 c arg1 harg1 arg7 x0 _)

/-- The load after graph 8's store reads graph 8's widened feature rows. -/
theorem scratchA_8 : kernelRun0_A.sl.v162 c arg1 harg1 arg7 x0 = haugBlk x0 ⟨8, by decide⟩ :=
  readAt_blk arg7.view _ x0 8 (by decide) 2048 rfl _ (regA_11 c arg1 harg1 arg7 x0 _)

/-- The load after graph 9's store reads graph 9's widened feature rows. -/
theorem scratchA_9 : kernelRun0_A.sl.v181 c arg1 harg1 arg7 x0 = haugBlk x0 ⟨9, by decide⟩ :=
  readAt_blk arg7.view _ x0 9 (by decide) 2304 rfl _ (regA_12 c arg1 harg1 arg7 x0 _)

/-- The load after graph 10's store reads graph 10's widened feature rows. -/
theorem scratchA_10 : kernelRun0_A.sl.v200 c arg1 harg1 arg7 x0 = haugBlk x0 ⟨10, by decide⟩ :=
  readAt_blk arg7.view _ x0 10 (by decide) 2560 rfl _ (regA_13 c arg1 harg1 arg7 x0 _)

/-- The load after graph 11's store reads graph 11's widened feature rows. -/
theorem scratchA_11 : kernelRun0_A.sl.v219 c arg1 harg1 arg7 x0 = haugBlk x0 ⟨11, by decide⟩ :=
  readAt_blk arg7.view _ x0 11 (by decide) 2816 rfl _ (regA_14 c arg1 harg1 arg7 x0 _)

/-- The load after graph 12's store reads graph 12's widened feature rows. -/
theorem scratchA_12 : kernelRun0_A.sl.v238 c arg1 harg1 arg7 x0 = haugBlk x0 ⟨12, by decide⟩ :=
  readAt_blk arg7.view _ x0 12 (by decide) 3072 rfl _ (regA_15 c arg1 harg1 arg7 x0 _)

/-- The load after graph 13's store reads graph 13's widened feature rows. -/
theorem scratchA_13 : kernelRun0_A.sl.v257 c arg1 harg1 arg7 x0 = haugBlk x0 ⟨13, by decide⟩ :=
  readAt_blk arg7.view _ x0 13 (by decide) 3328 rfl _ (regA_16 c arg1 harg1 arg7 x0 _)

/-- The load after graph 14's store reads graph 14's widened feature rows. -/
theorem scratchA_14 : kernelRun0_A.sl.v276 c arg1 harg1 arg7 x0 = haugBlk x0 ⟨14, by decide⟩ :=
  readAt_blk arg7.view _ x0 14 (by decide) 3584 rfl _ (regA_17 c arg1 harg1 arg7 x0 _)

/-- The load after graph 15's store reads graph 15's widened feature rows. -/
theorem scratchA_15 : kernelRun0_A.sl.v295 c arg1 harg1 arg7 x0 = haugBlk x0 ⟨15, by decide⟩ :=
  readAt_blk arg7.view _ x0 15 (by decide) 3840 rfl _ (regA_18 c arg1 harg1 arg7 x0 _)

/-! ## The constant lanes at the end of the point -/

/-- Whatever the scratch held, after the first point's stores lane 128 holds ones and the lanes above it zeros. -/
theorem invA (f : arg7.view.ty.Contents (Elt F)) :
    Inv (arg7.view.read (Elt F) (arg7.view.writes (Elt F) f (kernelRun0_A.sl.HS0_18 c arg1 harg1 x0))) :=
  consts_of_reg (regA_18 c arg1 harg1 arg7 x0 f)

end Cert.KernelIdeal.Gen

end
-- ==== Proof.KI.ScratchB.lean ====
/-
  The feature scratch at a later grid point.  The point finds the constant lanes as the point before left them
  (a one in lane 128, zeros above it) and stores the sixteen graphs' feature blocks one after another, loading
  each graph's rows, all lanes, right after its store.  After the store of graph g the scratch reads the widened
  feature rows on every row at the lanes from 128 on and on the rows of the graphs 0..g at every lane; so each
  load is that graph's widened feature rows, and at the end the constant lanes still hold.
-/
import proofs.«105909_g1906965479736_cont_8to1_1380_15_alg».proof.Proof.KI.Run
import proofs.«105909_g1906965479736_cont_8to1_1380_15_alg».proof.Proof.KI.Inv
import proofs.«105909_g1906965479736_cont_8to1_1380_15_alg».proof.Proof.KI.ScratchLib

noncomputable section

namespace Cert.KernelIdeal.Gen

open Idealize.ShloMosaic Idealize.ShloMosaic.ValueIdx Idealize.ShloMosaic.View

variable {F : FTy → Type} [FloatOps F]
variable (c : Dev nD) (arg1 : Memref sig .tc .vmem S1x16x256x128 .f32) (harg1 : arg1.IsWhole)
  (arg7 : Memref sig .tc .vmem S4096x256 .f32) (x0 : Vec F S1x16x256x128 .f32)
variable (harg7 : arg7.IsWhole) (xs0 : Vec F S4096x256 .f32)

/-! ## The region after each store -/

/-- Before any store: the constant lanes as found. -/
theorem regB_0 (hxs : Inv xs0) : ∀ y, Reg 0 y →
    arg7.view.read (Elt F) (arg7.view.writes (Elt F) (harg7.unread xs0) []) y = haug x0 y :=
  fun y hy => (congrFun (harg7.read_unread xs0) y).trans (reg_of_consts x0 hxs y hy)

theorem regB_1 (hxs : Inv xs0) : ∀ y, Reg 256 y →
    arg7.view.read (Elt F) (arg7.view.writes (Elt F) (harg7.unread xs0) (kernelRun0_B.sl.HS0_1 c arg1 harg1 x0)) y = haug x0 y :=
  reg_step arg7.view (harg7.unread xs0) arg1 harg1 x0 0 (by decide) _ 0 rfl _ _ (regB_0 arg7 x0 harg7 xs0 hxs)

theorem regB_2 (hxs : Inv xs0) : ∀ y, Reg 512 y →
    arg7.view.read (Elt F) (arg7.view.writes (Elt F) (harg7.unread xs0) (kernelRun0_B.sl.HS0_2 c arg1 harg1 x0)) y = haug x0 y :=
  reg_step arg7.view (harg7.unread xs0) arg1 harg1 x0 1 (by decide) _ 256 rfl _ _ (regB_1 c arg1 harg1 arg7 x0 harg7 xs0 hxs)

theorem regB_3 (hxs : Inv xs0) : ∀ y, Reg 768 y →
    arg7.view.read (Elt F) (arg7.view.writes (Elt F) (harg7.unread xs0) (kernelRun0_B.sl.HS0_3 c arg1 harg1 x0)) y = haug x0 y :=
  reg_step arg7.view (harg7.unread xs0) arg1 harg1 x0 2 (by decide) _ 512 rfl _ _ (regB_2 c arg1 harg1 arg7 x0 harg7 xs0 hxs)

theorem regB_4 (hxs : Inv xs0) : ∀ y, Reg 1024 y →
    arg7.view.read (Elt F) (arg7.view.writes (Elt F) (harg7.unread xs0) (kernelRun0_B.sl.HS0_4 c arg1 harg1 x0)) y = haug x0 y :=
  reg_step arg7.view (harg7.unread xs0) arg1 harg1 x0 3 (by decide) _ 768 rfl _ _ (regB_3 c arg1 harg1 arg7 x0 harg7 xs0 hxs)

theorem regB_5 (hxs : Inv xs0) : ∀ y, Reg 1280 y →
    arg7.view.read (Elt F) (arg7.view.writes (Elt F) (harg7.unread xs0) (kernelRun0_B.sl.HS0_5 c arg1 harg1 x0)) y = haug x0 y :=
  reg_step arg7.view (harg7.unread xs0) arg1 harg1 x0 4 (by decide) _ 1024 rfl _ _ (regB_4 c arg1 harg1 arg7 x0 harg7 xs0 hxs)

theorem regB_6 (hxs : Inv xs0) : ∀ y, Reg 1536 y →
    arg7.view.read (Elt F) (arg7.view.writes (Elt F) (harg7.unread xs0) (kernelRun0_B.sl.HS0_6 c arg1 harg1 x0)) y = haug x0 y :=
  reg_step arg7.view (harg7.unread xs0) arg1 harg1 x0 5 (by decide) _ 1280 rfl _ _ (regB_5 c arg1 harg1 arg7 x0 harg7 xs0 hxs)

theorem regB_7 (hxs : Inv xs0) : ∀ y, Reg 1792 y →
    arg7.view.read (Elt F) (arg7.view.writes (Elt F) (harg7.unread xs0) (kernelRun0_B.sl.HS0_7 c arg1 harg1 x0)) y = haug x0 y :=
  reg_step arg7.view (harg7.unread xs0) arg1 harg1 x0 6 (by decide) _ 1536 rfl _ _ (regB_6 c arg1 harg1 arg7 x0 harg7 xs0 hxs)

theorem regB_8 (hxs : Inv xs0) : ∀ y, Reg 2048 y →
    arg7.view.read (Elt F) (arg7.view.writes (Elt F) (harg7.unread xs0) (kernelRun0_B.sl.HS0_8 c arg1 harg1 x0)) y = haug x0 y :=
  reg_step arg7.view (harg7.unread xs0) arg1 harg1 x0 7 (by decide) _ 1792 rfl _ _ (regB_7 c arg1 harg1 arg7 x0 harg7 xs0 hxs)

theorem regB_9 (hxs : Inv xs0) : ∀ y, Reg 2304 y →
    arg7.view.read (Elt F) (arg7.view.writes (Elt F) (harg7.unread xs0) (kernelRun0_B.sl.HS0_9 c arg1 harg1 x0)) y = haug x0 y :=
  reg_step arg7.view (harg7.unread xs0) arg1 harg1 x0 8 (by decide) _ 2048 rfl _ _ (regB_8 c arg1 harg1 arg7 x0 harg7 xs0 hxs)

theorem regB_10 (hxs : Inv xs0) : ∀ y, Reg 2560 y →
    arg7.view.read (Elt F) (arg7.view.writes (Elt F) (harg7.unread xs0) (kernelRun0_B.sl.HS0_10 c arg1 harg1 x0)) y = haug x0 y :=
  reg_step arg7.view (harg7.unread xs0) arg1 harg1 x0 9 (by decide) _ 2304 rfl _ _ (regB_9 c arg1 harg1 arg7 x0 harg7 xs0 hxs)

theorem regB_11 (hxs : Inv xs0) : ∀ y, Reg 2816 y →
    arg7.view.read (Elt F) (arg7.view.writes (Elt F) (harg7.unread xs0) (kernelRun0_B.sl.HS0_11 c arg1 harg1 x0)) y = haug x0 y :=
  reg_step arg7.view (harg7.unread xs0) arg1 harg1 x0 10 (by decide) _ 2560 rfl _ _ (regB_10 c arg1 harg1 arg7 x0 harg7 xs0 hxs)

theorem regB_12 (hxs : Inv xs0) : ∀ y, Reg 3072 y →
    arg7.view.read (Elt F) (arg7.view.writes (Elt F) (harg7.unread xs0) (kernelRun0_B.sl.HS0_12 c arg1 harg1 x0)) y = haug x0 y :=
  reg_step arg7.view (harg7.unread xs0) arg1 harg1 x0 11 (by decide) _ 2816 rfl _ _ (regB_11 c arg1 harg1 arg7 x0 harg7 xs0 hxs)

theorem regB_13 (hxs : Inv xs0) : ∀ y, Reg 3328 y →
    arg7.view.read (Elt F) (arg7.view.writes (Elt F) (harg7.unread xs0) (kernelRun0_B.sl.HS0_13 c arg1 harg1 x0)) y = haug x0 y :=
  reg_step arg7.view (harg7.unread xs0) arg1 harg1 x0 12 (by decide) _ 3072 rfl _ _ (regB_12 c arg1 harg1 arg7 x0 harg7 xs0 hxs)

theorem regB_14 (hxs : Inv xs0) : ∀ y, Reg 3584 y →
    arg7.view.read (Elt F) (arg7.view.writes (Elt F) (harg7.unread xs0) (kernelRun0_B.sl.HS0_14 c arg1 harg1 x0)) y = haug x0 y :=
  reg_step arg7.view (harg7.unread xs0) arg1 harg1 x0 13 (by decide) _ 3328 rfl _ _ (regB_13 c arg1 harg1 arg7 x0 harg7 xs0 hxs)

theorem regB_15 (hxs : Inv xs0) : ∀ y, Reg 3840 y →
    arg7.view.read (Elt F) (arg7.view.writes (Elt F) (harg7.unread xs0) (kernelRun0_B.sl.HS0_15 c arg1 harg1 x0)) y = haug x0 y :=
  reg_step arg7.view (harg7.unread xs0) arg1 harg1 x0 14 (by decide) _ 3584 rfl _ _ (regB_14 c arg1 harg1 arg7 x0 harg7 xs0 hxs)

theorem regB_16 (hxs : Inv xs0) : ∀ y, Reg 4096 y →
    arg7.view.read (Elt F) (arg7.view.writes (Elt F) (harg7.unread xs0) (kernelRun0_B.sl.HS0_16 c arg1 harg1 x0)) y = haug x0 y :=
  reg_step arg7.view (harg7.unread xs0) arg1 harg1 x0 15 (by decide) _ 3840 rfl _ _ (regB_15 c arg1 harg1 arg7 x0 harg7 xs0 hxs)

/-! ## The sixteen loads -/

/-- The load after graph 0's store reads graph 0's widened feature rows. -/
theorem scratchB_0 (hxs : Inv xs0) :
    View.readAt (Elt F) arg7.view (Rect.unit (s := S4096x256) ![0, 0] S256x256.size inb_S4096x256_S256x256_0_0).toLoadRect
      (arg7.view.writes (Elt F) (harg7.unread xs0) (kernelRun0_B.sl.HS0_1 c arg1 harg1 x0)) = haugBlk x0 ⟨0, by decide⟩ :=
  readAt_blk arg7.view _ x0 0 (by decide) 0 rfl _ (regB_1 c arg1 harg1 arg7 x0 harg7 xs0 hxs)

/-- The load after graph 1's store reads graph 1's widened feature rows. -/
theorem scratchB_1 (hxs : Inv xs0) :
    View.readAt (Elt F) arg7.view (Rect.unit (s := S4096x256) ![256, 0] S256x256.size inb_S4096x256_S256x256_256_0).toLoadRect
      (arg7.view.writes (Elt F) (harg7.unread xs0) (kernelRun0_B.sl.HS0_2 c arg1 harg1 x0)) = haugBlk x0 ⟨1, by decide⟩ :=
  readAt_blk arg7.view _ x0 1 (by decide) 256 rfl _ (regB_2 c arg1 harg1 arg7 x0 harg7 xs0 hxs)

/-- The load after graph 2's store reads graph 2's widened feature rows. -/
theorem scratchB_2 (hxs : Inv xs0) :
    View.readAt (Elt F) arg7.view (Rect.unit (s := S4096x256) ![512, 0] S256x256.size inb_S4096x256_S256x256_512_0).toLoadRect
      (arg7.view.writes (Elt F) (harg7.unread xs0) (kernelRun0_B.sl.HS0_3 c arg1 harg1 x0)) = haugBlk x0 ⟨2, by decide⟩ :=
  readAt_blk arg7.view _ x0 2 (by decide) 512 rfl _ (regB_3 c arg1 harg1 arg7 x0 harg7 xs0 hxs)

/-- The load after graph 3's store reads graph 3's widened feature rows. -/
theorem scratchB_3 (hxs : Inv xs0) :
    View.readAt (Elt F) arg7.view (Rect.unit (s := S4096x256) ![768, 0] S256x256.size inb_S4096x256_S256x256_768_0).toLoadRect
      (arg7.view.writes (Elt F) (harg7.unread xs0) (kernelRun0_B.sl.HS0_4 c arg1 harg1 x0)) = haugBlk x0 ⟨3, by decide⟩ :=
  readAt_blk arg7.view _ x0 3 (by decide) 768 rfl _ (regB_4 c arg1 harg1 arg7 x0 harg7 xs0 hxs)

/-- The load after graph 4's store reads graph 4's widened feature rows. -/
theorem scratchB_4 (hxs : Inv xs0) :
    View.readAt (Elt F) arg7.view (Rect.unit (s := S4096x256) ![1024, 0] S256x256.size inb_S4096x256_S256x256_1024_0).toLoadRect
      (arg7.view.writes (Elt F) (harg7.unread xs0) (kernelRun0_B.sl.HS0_5 c arg1 harg1 x0)) = haugBlk x0 ⟨4, by decide⟩ :=
  readAt_blk arg7.view _ x0 4 (by decide) 1024 rfl _ (regB_5 c arg1 harg1 arg7 x0 harg7 xs0 hxs)

/-- The load after graph 5's store reads graph 5's widened feature rows. -/
theorem scratchB_5 (hxs : Inv xs0) :
    View.readAt (Elt F) arg7.view (Rect.unit (s := S4096x256) ![1280, 0] S256x256.size inb_S4096x256_S256x256_1280_0).toLoadRect
      (arg7.view.writes (Elt F) (harg7.unread xs0) (kernelRun0_B.sl.HS0_6 c arg1 harg1 x0)) = haugBlk x0 ⟨5, by decide⟩ :=
  readAt_blk arg7.view _ x0 5 (by decide) 1280 rfl _ (regB_6 c arg1 harg1 arg7 x0 harg7 xs0 hxs)

/-- The load after graph 6's store reads graph 6's widened feature rows. -/
theorem scratchB_6 (hxs : Inv xs0) :
    View.readAt (Elt F) arg7.view (Rect.unit (s := S4096x256) ![1536, 0] S256x256.size inb_S4096x256_S256x256_1536_0).toLoadRect
      (arg7.view.writes (Elt F) (harg7.unread xs0) (kernelRun0_B.sl.HS0_7 c arg1 harg1 x0)) = haugBlk x0 ⟨6, by decide⟩ :=
  readAt_blk arg7.view _ x0 6 (by decide) 1536 rfl _ (regB_7 c arg1 harg1 arg7 x0 harg7 xs0 hxs)

/-- The load after graph 7's store reads graph 7's widened feature rows. -/
theorem scratchB_7 (hxs : Inv xs0) :
    View.readAt (Elt F) arg7.view (Rect.unit (s := S4096x256) ![1792, 0] S256x256.size inb_S4096x256_S256x256_1792_0).toLoadRect
      (arg7.view.writes (Elt F) (harg7.unread xs0) (kernelRun0_B.sl.HS0_8 c arg1 harg1 x0)) = haugBlk x0 ⟨7, by decide⟩ :=
  readAt_blk arg7.view _ x0 7 (by decide) 1792 rfl _ (regB_8 c arg1 harg1 arg7 x0 harg7 xs0 hxs)

/-- The load after graph 8's store reads graph 8's widened feature rows. -/
theorem scratchB_8 (hxs : Inv xs0) :
    View.readAt (Elt F) arg7.view (Rect.unit (s := S4096x256) ![2048, 0] S256x256.size inb_S4096x256_S256x256_2048_0).toLoadRect
      (arg7.view.writes (Elt F) (harg7.unread xs0) (kernelRun0_B.sl.HS0_9 c arg1 harg1 x0)) = haugBlk x0 ⟨8, by decide⟩ :=
  readAt_blk arg7.view _ x0 8 (by decide) 2048 rfl _ (regB_9 c arg1 harg1 arg7 x0 harg7 xs0 hxs)

/-- The load after graph 9's store reads graph 9's widened feature rows. -/
theorem scratchB_9 (hxs : Inv xs0) :
    View.readAt (Elt F) arg7.view (Rect.unit (s := S4096x256) ![2304, 0] S256x256.size inb_S4096x256_S256x256_2304_0).toLoadRect
      (arg7.view.writes (Elt F) (harg7.unread xs0) (kernelRun0_B.sl.HS0_10 c arg1 harg1 x0)) = haugBlk x0 ⟨9, by decide⟩ :=
  readAt_blk arg7.view _ x0 9 (by decide) 2304 rfl _ (regB_10 c arg1 harg1 arg7 x0 harg7 xs0 hxs)

/-- The load after graph 10's store reads graph 10's widened feature rows. -/
theorem scratchB_10 (hxs : Inv xs0) :
    View.readAt (Elt F) arg7.view (Rect.unit (s := S4096x256) ![2560, 0] S256x256.size inb_S4096x256_S256x256_2560_0).toLoadRect
      (arg7.view.writes (Elt F) (harg7.unread xs0) (kernelRun0_B.sl.HS0_11 c arg1 harg1 x0)) = haugBlk x0 ⟨10, by decide⟩ :=
  readAt_blk arg7.view _ x0 10 (by decide) 2560 rfl _ (regB_11 c arg1 harg1 arg7 x0 harg7 xs0 hxs)

/-- The load after graph 11's store reads graph 11's widened feature rows. -/
theorem scratchB_11 (hxs : Inv xs0) :
    View.readAt (Elt F) arg7.view (Rect.unit (s := S4096x256) ![2816, 0] S256x256.size inb_S4096x256_S256x256_2816_0).toLoadRect
      (arg7.view.writes (Elt F) (harg7.unread xs0) (kernelRun0_B.sl.HS0_12 c arg1 harg1 x0)) = haugBlk x0 ⟨11, by decide⟩ :=
  readAt_blk arg7.view _ x0 11 (by decide) 2816 rfl _ (regB_12 c arg1 harg1 arg7 x0 harg7 xs0 hxs)

/-- The load after graph 12's store reads graph 12's widened feature rows. -/
theorem scratchB_12 (hxs : Inv xs0) :
    View.readAt (Elt F) arg7.view (Rect.unit (s := S4096x256) ![3072, 0] S256x256.size inb_S4096x256_S256x256_3072_0).toLoadRect
      (arg7.view.writes (Elt F) (harg7.unread xs0) (kernelRun0_B.sl.HS0_13 c arg1 harg1 x0)) = haugBlk x0 ⟨12, by decide⟩ :=
  readAt_blk arg7.view _ x0 12 (by decide) 3072 rfl _ (regB_13 c arg1 harg1 arg7 x0 harg7 xs0 hxs)

/-- The load after graph 13's store reads graph 13's widened feature rows. -/
theorem scratchB_13 (hxs : Inv xs0) :
    View.readAt (Elt F) arg7.view (Rect.unit (s := S4096x256) ![3328, 0] S256x256.size inb_S4096x256_S256x256_3328_0).toLoadRect
      (arg7.view.writes (Elt F) (harg7.unread xs0) (kernelRun0_B.sl.HS0_14 c arg1 harg1 x0)) = haugBlk x0 ⟨13, by decide⟩ :=
  readAt_blk arg7.view _ x0 13 (by decide) 3328 rfl _ (regB_14 c arg1 harg1 arg7 x0 harg7 xs0 hxs)

/-- The load after graph 14's store reads graph 14's widened feature rows. -/
theorem scratchB_14 (hxs : Inv xs0) :
    View.readAt (Elt F) arg7.view (Rect.unit (s := S4096x256) ![3584, 0] S256x256.size inb_S4096x256_S256x256_3584_0).toLoadRect
      (arg7.view.writes (Elt F) (harg7.unread xs0) (kernelRun0_B.sl.HS0_15 c arg1 harg1 x0)) = haugBlk x0 ⟨14, by decide⟩ :=
  readAt_blk arg7.view _ x0 14 (by decide) 3584 rfl _ (regB_15 c arg1 harg1 arg7 x0 harg7 xs0 hxs)

/-- The load after graph 15's store reads graph 15's widened feature rows. -/
theorem scratchB_15 (hxs : Inv xs0) :
    View.readAt (Elt F) arg7.view (Rect.unit (s := S4096x256) ![3840, 0] S256x256.size inb_S4096x256_S256x256_3840_0).toLoadRect
      (arg7.view.writes (Elt F) (harg7.unread xs0) (kernelRun0_B.sl.HS0_16 c arg1 harg1 x0)) = haugBlk x0 ⟨15, by decide⟩ :=
  readAt_blk arg7.view _ x0 15 (by decide) 3840 rfl _ (regB_16 c arg1 harg1 arg7 x0 harg7 xs0 hxs)

/-! ## The constant lanes at the end of the point -/

/-- The constant lanes found at the start of the point hold at its end. -/
theorem invB (hxs : Inv xs0) :
    Inv (arg7.view.read (Elt F) (arg7.view.writes (Elt F) (harg7.unread xs0) (kernelRun0_B.sl.HS0_16 c arg1 harg1 x0))) :=
  consts_of_reg (regB_16 c arg1 harg1 arg7 x0 harg7 xs0 hxs)

end Cert.KernelIdeal.Gen

end
-- ==== Proof.KI.OutBlock.lean ====
/-
  What the body's run stores into the output block is the output block of the five input blocks: at the
  first grid point whatever the feature scratch held, at a later point when the constant lanes of the feature
  scratch hold as the point before left them.
-/
import proofs.«105909_g1906965479736_cont_8to1_1380_15_alg».proof.Proof.KI.Aggregate
import proofs.«105909_g1906965479736_cont_8to1_1380_15_alg».proof.Proof.KI.ScratchA
import proofs.«105909_g1906965479736_cont_8to1_1380_15_alg».proof.Proof.KI.ScratchB

set_option maxRecDepth 16384

noncomputable section

namespace Cert.KernelIdeal.Gen

open Idealize.ShloMosaic Idealize.ShloMosaic.TcCoe Idealize.ShloMosaic.ValueIdx

variable {F : FTy → Type} [FloatOps F]

/-- At the first point each load of the feature scratch reads its graph's widened feature rows. -/
theorem featsA (c : Dev nD) (arg1 : Memref sig .tc .vmem S1x16x256x128 .f32) (harg1 : arg1.IsWhole)
    (arg7 : Memref sig .tc .vmem S4096x256 .f32) (x0 : Vec F S1x16x256x128 .f32) : FeatsA c arg1 harg1 arg7 x0 :=
  ⟨scratchA_0 c arg1 harg1 arg7 x0,
   scratchA_1 c arg1 harg1 arg7 x0,
   scratchA_2 c arg1 harg1 arg7 x0,
   scratchA_3 c arg1 harg1 arg7 x0,
   scratchA_4 c arg1 harg1 arg7 x0,
   scratchA_5 c arg1 harg1 arg7 x0,
   scratchA_6 c arg1 harg1 arg7 x0,
   scratchA_7 c arg1 harg1 arg7 x0,
   scratchA_8 c arg1 harg1 arg7 x0,
   scratchA_9 c arg1 harg1 arg7 x0,
   scratchA_10 c arg1 harg1 arg7 x0,
   scratchA_11 c arg1 harg1 arg7 x0,
   scratchA_12 c arg1 harg1 arg7 x0,
   scratchA_13 c arg1 harg1 arg7 x0,
   scratchA_14 c arg1 harg1 arg7 x0,
   scratchA_15 c arg1 harg1 arg7 x0⟩

/-- At a later point, the constant lanes holding, each load of the feature scratch reads its graph's widened
    feature rows. -/
theorem featsB (c : Dev nD) (arg1 : Memref sig .tc .vmem S1x16x256x128 .f32) (harg1 : arg1.IsWhole)
    (arg7 : Memref sig .tc .vmem S4096x256 .f32) (harg7 : arg7.IsWhole) (x0 : Vec F S1x16x256x128 .f32)
    (xs0 : Vec F S4096x256 .f32) (hxs : Inv xs0) : FeatsB c arg1 harg1 arg7 harg7 x0 xs0 :=
  ⟨scratchB_0 c arg1 harg1 arg7 x0 harg7 xs0 hxs,
   scratchB_1 c arg1 harg1 arg7 x0 harg7 xs0 hxs,
   scratchB_2 c arg1 harg1 arg7 x0 harg7 xs0 hxs,
   scratchB_3 c arg1 harg1 arg7 x0 harg7 xs0 hxs,
   scratchB_4 c arg1 harg1 arg7 x0 harg7 xs0 hxs,
   scratchB_5 c arg1 harg1 arg7 x0 harg7 xs0 hxs,
   scratchB_6 c arg1 harg1 arg7 x0 harg7 xs0 hxs,
   scratchB_7 c arg1 harg1 arg7 x0 harg7 xs0 hxs,
   scratchB_8 c arg1 harg1 arg7 x0 harg7 xs0 hxs,
   scratchB_9 c arg1 harg1 arg7 x0 harg7 xs0 hxs,
   scratchB_10 c arg1 harg1 arg7 x0 harg7 xs0 hxs,
   scratchB_11 c arg1 harg1 arg7 x0 harg7 xs0 hxs,
   scratchB_12 c arg1 harg1 arg7 x0 harg7 xs0 hxs,
   scratchB_13 c arg1 harg1 arg7 x0 harg7 xs0 hxs,
   scratchB_14 c arg1 harg1 arg7 x0 harg7 xs0 hxs,
   scratchB_15 c arg1 harg1 arg7 x0 harg7 xs0 hxs⟩

/-- The output block the first point's run leaves. -/
theorem outA (v : View sig .tc .vmem S1x4096x128 .f32) (f : v.ty.Contents (Elt F)) (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .f32) (harg7 : arg7.IsWhole) (arg8 : Memref sig .tc .vmem S4096x256 .f32) (harg8 : arg8.IsWhole) (hc0 : cond0_0 i) (x0 : Vec F S1x16x256x128 .f32) (x1 : Vec F S1x16x256x256 .f32) (x2 : Vec F S256x512 .f32) (x3 : Vec F S512x128 .f32) (x4 : Vec F S1x128 .f32) :
    v.read (Elt F) (v.writes (Elt F) f (kernelRun0_A c i arg1 harg1 arg2 harg2 arg3 harg3 arg4 harg4 arg5 harg5 arg6 harg6 arg7 harg7 arg8 harg8 hc0 x0 x1 x2 x3 x4).1) = outBlk x0 x1 x2 x3 x4 :=
  outA_of_feats v f c i arg1 harg1 arg2 harg2 arg3 harg3 arg4 harg4 arg5 harg5 arg6 harg6 arg7 harg7 arg8 harg8 hc0 x0 x1 x2 x3 x4 (featsA c arg1 harg1 arg7 x0)

/-- The output block a later point's run leaves, the constant lanes of the feature scratch holding. -/
theorem outB (v : View sig .tc .vmem S1x4096x128 .f32) (f : v.ty.Contents (Elt F)) (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .f32) (harg7 : arg7.IsWhole) (arg8 : Memref sig .tc .vmem S4096x256 .f32) (harg8 : arg8.IsWhole) (hc0 : ¬cond0_0 i) (x0 : Vec F S1x16x256x128 .f32) (x1 : Vec F S1x16x256x256 .f32) (x2 : Vec F S256x512 .f32) (x3 : Vec F S512x128 .f32) (x4 : Vec F S1x128 .f32) (xs0 : Vec F S4096x256 .f32)
    (hxs : Inv xs0) :
    v.read (Elt F) (v.writes (Elt F) f (kernelRun0_B c i arg1 harg1 arg2 harg2 arg3 harg3 arg4 harg4 arg5 harg5 arg6 harg6 arg7 harg7 arg8 harg8 hc0 x0 x1 x2 x3 x4 xs0).1) = outBlk x0 x1 x2 x3 x4 :=
  outB_of_feats v f c i arg1 harg1 arg2 harg2 arg3 harg3 arg4 harg4 arg5 harg5 arg6 harg6 arg7 harg7 arg8 harg8 hc0 x0 x1 x2 x3 x4 xs0 (featsB c arg1 harg1 arg7 harg7 x0 xs0 hxs)

end Cert.KernelIdeal.Gen

end
-- ==== Proof.KI.Lists.lean ====
/-
  The feature-scratch stores each run of the body found, by name: the list the first case's run returns is
  its eighteen stores (sixteen blocks of feature rows over the two constant fills), the list the second
  case's run returns its sixteen blocks.
-/
import proofs.«105909_g1906965479736_cont_8to1_1380_15_alg».proof.Proof.KI.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem scrA_eq (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .f32) (harg7 : arg7.IsWhole) (arg8 : Memref sig .tc .vmem S4096x256 .f32) (harg8 : arg8.IsWhole) (hc0 : cond0_0 i)
    (x0 : Vec F S1x16x256x128 .f32) (x1 : Vec F S1x16x256x256 .f32) (x2 : Vec F S256x512 .f32) (x3 : Vec F S512x128 .f32) (x4 : Vec F S1x128 .f32) :
    (kernelRun0_A c i arg1 harg1 arg2 harg2 arg3 harg3 arg4 harg4 arg5 harg5 arg6 harg6 arg7 harg7 arg8 harg8 hc0 x0 x1 x2 x3 x4).2.1 = kernelRun0_A.sl.HS0_18 c arg1 harg1 x0 := rfl

set_option maxHeartbeats 4000000 in
theorem scrB_eq (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .f32) (harg7 : arg7.IsWhole) (arg8 : Memref sig .tc .vmem S4096x256 .f32) (harg8 : arg8.IsWhole) (hc0 : ¬cond0_0 i)
    (x0 : Vec F S1x16x256x128 .f32) (x1 : Vec F S1x16x256x256 .f32) (x2 : Vec F S256x512 .f32) (x3 : Vec F S512x128 .f32) (x4 : Vec F S1x128 .f32) (xs0 : Vec F S4096x256 .f32) :
    (kernelRun0_B c i arg1 harg1 arg2 harg2 arg3 harg3 arg4 harg4 arg5 harg5 arg6 harg6 arg7 harg7 arg8 harg8 hc0 x0 x1 x2 x3 x4 xs0).2.1 = kernelRun0_B.sl.HS0_16 c arg1 harg1 x0 := rfl

end Cert.KernelIdeal.Gen

end
-- ==== Proof.KI.PointOk.lean ====
/-
  One grid point, over arbitrary buffers and contents: after the first case's run the feature scratch has its
  constant lanes and the output block is the closed form of the five input blocks; after the second case's
  run the same, provided the scratch had its constant lanes before.
-/
import proofs.«105909_g1906965479736_cont_8to1_1380_15_alg».proof.Proof.KI.OutBlock
import proofs.«105909_g1906965479736_cont_8to1_1380_15_alg».proof.Proof.KI.Lists

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem first_ok (v : View sig .tc .vmem S1x4096x128 .f32) (g : v.ty.Contents (Elt F)) (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .f32) (harg7 : arg7.IsWhole) (arg8 : Memref sig .tc .vmem S4096x256 .f32) (harg8 : arg8.IsWhole) (hc0 : cond0_0 i)
    (f : arg7.view.ty.Contents (Elt F))
    (x0 : Vec F S1x16x256x128 .f32) (x1 : Vec F S1x16x256x256 .f32) (x2 : Vec F S256x512 .f32) (x3 : Vec F S512x128 .f32) (x4 : Vec F S1x128 .f32) :
    Inv (arg7.view.read (Elt F) (arg7.view.writes (Elt F) f (kernelRun0_A c i arg1 harg1 arg2 harg2 arg3 harg3 arg4 harg4 arg5 harg5 arg6 harg6 arg7 harg7 arg8 harg8 hc0 x0 x1 x2 x3 x4).2.1))
    ∧ v.read (Elt F) (v.writes (Elt F) g (kernelRun0_A c i arg1 harg1 arg2 harg2 arg3 harg3 arg4 harg4 arg5 harg5 arg6 harg6 arg7 harg7 arg8 harg8 hc0 x0 x1 x2 x3 x4).1) = outBlk x0 x1 x2 x3 x4 := by
  refine ⟨?_, outA v g c i arg1 harg1 arg2 harg2 arg3 harg3 arg4 harg4 arg5 harg5 arg6 harg6 arg7 harg7 arg8 harg8 hc0 x0 x1 x2 x3 x4⟩
  rw [scrA_eq]
  exact invA c arg1 harg1 arg7 x0 f

theorem later_ok (v : View sig .tc .vmem S1x4096x128 .f32) (g : v.ty.Contents (Elt F)) (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .f32) (harg7 : arg7.IsWhole) (arg8 : Memref sig .tc .vmem S4096x256 .f32) (harg8 : arg8.IsWhole) (hc0 : ¬cond0_0 i)
    (x0 : Vec F S1x16x256x128 .f32) (x1 : Vec F S1x16x256x256 .f32) (x2 : Vec F S256x512 .f32) (x3 : Vec F S512x128 .f32) (x4 : Vec F S1x128 .f32)
    (xs0 : Vec F S4096x256 .f32) (hxs : Inv xs0) :
    Inv (arg7.view.read (Elt F) (arg7.view.writes (Elt F) (harg7.unread xs0) (kernelRun0_B c i arg1 harg1 arg2 harg2 arg3 harg3 arg4 harg4 arg5 harg5 arg6 harg6 arg7 harg7 arg8 harg8 hc0 x0 x1 x2 x3 x4 xs0).2.1))
    ∧ v.read (Elt F) (v.writes (Elt F) g (kernelRun0_B c i arg1 harg1 arg2 harg2 arg3 harg3 arg4 harg4 arg5 harg5 arg6 harg6 arg7 harg7 arg8 harg8 hc0 x0 x1 x2 x3 x4 xs0).1) = outBlk x0 x1 x2 x3 x4 := by
  refine ⟨?_, outB v g c i arg1 harg1 arg2 harg2 arg3 harg3 arg4 harg4 arg5 harg5 arg6 harg6 arg7 harg7 arg8 harg8 hc0 x0 x1 x2 x3 x4 xs0 hxs⟩
  rw [scrB_eq]
  exact invB c arg1 harg1 arg7 x0 harg7 xs0 hxs

end Cert.KernelIdeal.Gen

end
-- ==== Proof.KI.ValueAt.lean ====
/-
  At every grid point the feature scratch ends with its constant lanes and the output block with the closed
  form of the point's input blocks: by induction on the point, the constant lanes carried along.
-/
import proofs.«105909_g1906965479736_cont_8to1_1380_15_alg».proof.Proof.KI.Frame
import proofs.«105909_g1906965479736_cont_8to1_1380_15_alg».proof.Proof.KI.PointOk

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 400000 in
theorem value_aux (c : Dev nD) : ∀ (n : ℕ) (t : Fin cfg0.N), t.val = n →
    Inv (outsAt0 m c t.val t.isLt).2 ∧ (outsAt0 m c t.val t.isLt).1 = outBlk (iblk m c 0 t) (iblk m c 1 t) (iblk m c 2 t) (iblk m c 3 t) (iblk m c 4 t) := by
  intro n
  induction n with
  | zero =>
    intro t ht
    rw [outsAt0_first m c t ht]
    dsimp only
    exact first_ok VO0_5 VO0_5.junk c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr ht) VS0_0.junk (iblk m c 0 t) (iblk m c 1 t) (iblk m c 2 t) (iblk m c 3 t) (iblk m c 4 t)
  | succ n ih =>
    intro t ht
    have h0 : ¬t.val = 0 := by omega
    have ihp := ih ⟨t.val - 1, Nat.lt_of_le_of_lt (Nat.sub_le _ _) t.isLt⟩ (by show t.val - 1 = n; omega)
    rw [outsAt0_later m c t h0]
    dsimp only
    exact later_ok VO0_5 VO0_5.junk c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2 ihp.1

theorem value_at (c : Dev nD) (t : Fin cfg0.N) :
    Inv (outsAt0 m c t.val t.isLt).2 ∧ (outsAt0 m c t.val t.isLt).1 = outBlk (iblk m c 0 t) (iblk m c 1 t) (iblk m c 2 t) (iblk m c 3 t) (iblk m c 4 t) :=
  value_aux m c t.val t rfl

end Cert.KernelIdeal.Gen

end
-- ==== Proof.Spec.lean ====
/-
  The sub-layer as one function of the six argument arrays, index by index, and the two row forms
  that the two programs compute.

  For one node `n` of one graph `b` write `M j` for the mask row, `H j e` for the features of node `j`,
  and for one hidden unit `k` write `W e` for the column of the convolution weights and `c` for its
  bias.  The reference computes the normalised aggregate

      rowR = (∑ j, M j * ((∑ e, H j e * W e) + c)) / max 1 (0 + ∑ j, M j),

  the kernel the same number through features and weights widened by one constant lane,

      rowK = ∑ l < 256, ((∑ j, M j * aug H j l) * (1 / max (∑ j, M j * aug H j 128) 1)) * wcol W c l,

  where `aug H j` is the feature row followed by a one and zeros and `wcol W c` the weight column
  followed by the bias and zeros.  After it both apply the positive part and the second dense layer.
-/
import Idealize.ShloMosaic.PureOps.Ideal
import Idealize.ShloMosaic.Lib.ValueIdx

noncomputable section

namespace Cert.Spec

open Idealize.ShloMosaic

/-- A feature row widened to 256 lanes: the 128 features, a one in lane 128, zeros after it. -/
def aug (H : Fin 256 → Fin 128 → EReal) (j l : Fin 256) : EReal :=
  if h : l.val < 128 then H j ⟨l.val, h⟩ else if l.val = 128 then 1 else 0

/-- A weight column widened to 256 rows: the 128 weights, the bias in row 128, zeros after it. -/
def wcol (W : Fin 128 → EReal) (c : EReal) (l : Fin 256) : EReal :=
  if h : l.val < 128 then W ⟨l.val, h⟩ else if l.val = 128 then c else 0

/-- Lane 128. -/
def lane128 : Fin 256 := ⟨128, by decide⟩

/-- The kernel's hidden pre-activation of one node and one hidden unit. -/
def rowK (M : Fin 256 → EReal) (H : Fin 256 → Fin 128 → EReal) (W : Fin 128 → EReal) (c : EReal) : EReal :=
  ∑ l : Fin 256, ((∑ j : Fin 256, M j * aug H j l) * Ideal.div 1 (max (∑ j : Fin 256, M j * aug H j lane128) 1)) * wcol W c l

/-- The reference's hidden pre-activation of one node and one hidden unit. -/
def rowR (M : Fin 256 → EReal) (H : Fin 256 → Fin 128 → EReal) (W : Fin 128 → EReal) (c : EReal) : EReal :=
  Ideal.div (∑ j : Fin 256, M j * ((∑ e : Fin 128, H j e * W e) + c)) (max 1 (0 + ∑ j : Fin 256, M j))

/-- Positive part, then the second dense layer, for one output feature. -/
def outOf (s : Fin 512 → EReal) (Wf : Fin 512 → EReal) (bf : EReal) : EReal :=
  (∑ k : Fin 512, max (s k) 0 * Wf k) + bf

end Cert.Spec

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibTileLayout.lean ====
import Idealize.ShloMosaic.Lib.ValueLayout
import Idealize.ShloMosaic.PureOps.Ideal.Laws

/-!
# Columns, one-entry blocks and sums along one axis, read at an index

A tile's loss is first summed along each row, the row sums are stood up as a column, and the column is summed into
one number, which is then spread over a small block. Each of these steps moves numbers without changing them, or adds
them up along one axis. Here each step is read at an index written by its coordinates:

* a column `[a, 1]` spread over `[a, b]` has, at `(p, c)`, the column's entry `p`;
* a one-entry block `[1, 1]` spread over `[a, b]` has that entry everywhere;
* a vector `[a]` stood up as a column `[a, 1]` has, at `(i, 0)`, the vector's entry `i`;
* the sum of an `[a, b]` array along axis 1, started from zero, is at `p` the sum over `q < b` of the entry `(p, q)`,
  and along axis 0 it is at `c` the sum over `p < a` of the entry `(p, c)`.
-/

namespace Cert.TileLayout

open Idealize.ShloMosaic Idealize.ShloMosaic.ValueIdx
open scoped BigOperators

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry block `[1, 1]` broadcast to `[a, b]` reads that one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A vector `[a]` cast to a column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array along axis 1, started from zero, is at `p` the sum over the row `p`. -/
theorem sum_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ q : Fin b, src (ix2 p q) := by
  refine (Ideal.multiReduction_add_single src acc h hφ hacc (ix1 p)).trans ?_
  show ∑ q : Fin b, src (h.lift (ix1 p) q) = _
  refine Finset.sum_congr rfl fun q _ => congrArg src ?_
  funext c
  refine Fin.ext ?_
  match c with
  | ⟨0, _⟩ => rfl
  | ⟨1, _⟩ => rfl

/-- The sum of an `[a, b]` array along axis 0, started from zero, is at `c` the sum over the column `c`. -/
theorem sum_axis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ p : Fin a, src (ix2 p c) := by
  refine (Ideal.multiReduction_add_single src acc h hφ hacc (ix1 c)).trans ?_
  show ∑ p : Fin a, src (h.lift (ix1 c) p) = _
  refine Finset.sum_congr rfl fun p _ => congrArg src ?_
  funext d
  refine Fin.ext ?_
  match d with
  | ⟨0, _⟩ => rfl
  | ⟨1, _⟩ => rfl

end Cert.TileLayout
-- ==== Proof.KI.BlockValue.lean ====
/-
  The output block of one grid point, read at an index over the extended reals.

  Row r of the point is node r % 256 of graph r / 256.  Lane l of the scaled aggregate of row r is the mask
  row of that node times lane l of the widened feature rows of its graph, times one over
  max(lane 128, 1).  Entry (r, d) of the output block is the positive part of the scaled aggregate times
  the widened weights, times the second layer's weights, plus its bias.  When the widened weights are the
  weights followed by the bias and zeros, the inner number is the kernel's row form.
-/
import proofs.«105909_g1906965479736_cont_8to1_1380_15_alg».proof.Proof.KI.Mha
import proofs.«105909_g1906965479736_cont_8to1_1380_15_alg».proof.Proof.Spec
import proofs.«105909_g1906965479736_cont_8to1_1380_15_alg».proof.Proof.LibPlainDot
import proofs.«105909_g1906965479736_cont_8to1_1380_15_alg».proof.Proof.LibTileLayout
import Idealize.ShloMosaic.Lib.IdealHost
import Idealize.ShloMosaic.Lib.ValueLayout
import Idealize.ShloMosaic.Lib.Pipeline.Value

noncomputable section

namespace Cert.KernelIdeal.BlockValue

open Idealize.ShloMosaic Idealize.ShloMosaic.ValueIdx Cert.KernelIdeal Cert.KernelIdeal.Gen

theorem one32_eq : (one32 : Ideal .f32) = 1 := Ideal.ofBits_one_f32

theorem zero32_eq : (zero32 : Ideal .f32) = 0 := Ideal.ofBits_zero_f32

/-- The widened feature row of the point is the widened feature row of the specification. -/
theorem featAt_eq (x0 : Vec Ideal S1x16x256x128 .f32) (g : Fin 16) (j l : Fin 256) :
    featAt x0 g j l = Cert.Spec.aug (fun j e => x0 (ix4 (0 : Fin 1) g j e)) j l := by
  unfold featAt Cert.Spec.aug
  split_ifs
  · rfl
  · exact one32_eq
  · exact zero32_eq

/-- A [1, 1, a, b] array cast to [a, b] reads, at (i, j), the operand at (0, 0, i, j). -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    rw [Nat.zero_mul, Nat.zero_add])

/-- The aggregate of one graph at an index. -/
theorem mhBlk_apply (vm : Vec Ideal S1x1x256x256 .f32) (vh : Vec Ideal S256x256 .f32) (p q : Fin 256) :
    mhBlk vm vh (ix2 p q) = ∑ k : Fin 256, vm (ix4 (0 : Fin 1) (0 : Fin 1) p k) * vh (ix2 k q) := by
  unfold mhBlk
  refine (Cert.LibPlainDot.matmul_zero_apply _ ⟨rfl, rfl, rfl, rfl, rfl, rfl⟩ none _ vh p q).trans ?_
  refine Finset.sum_congr rfl fun k _ => ?_
  exact congrArg (· * vh (ix2 k q)) (shapeCast_11ab_ab_apply vm _ p k)

/-- The scaling: every lane times one over max(lane 128, 1). -/
theorem k0_pay1_apply (v : FVec Ideal S256x256 .f32) (p q : Fin 256) :
    k0_pay1 v (ix2 p q) = v (ix2 p q) * Ideal.div 1 (max (v (ix2 p Cert.Spec.lane128)) 1) := by
  unfold k0_pay1
  rw [shapeCast_self]
  show v (ix2 p q) * broadcastTo S256x256 _ broadcasts_S256x1_S256x256 (ix2 p q) = _
  rw [Cert.TileLayout.broadcastTo_a1_ab_apply]
  show v (ix2 p q) * Ideal.div (one32 : Ideal .f32)
      (max (extractStridedSlice S256x1 ![0, 128] v slices_S256x256_o0_128_S256x1 (ix2 p (0 : Fin 1))) (one32 : Ideal .f32)) = _
  rw [slice2_axis1_apply 128 v slices_S256x256_o0_128_S256x1 p (0 : Fin 1) Cert.Spec.lane128 rfl, one32_eq]

/-- Lane l of the scaled aggregate of row r. -/
theorem mha_apply (x0 : Vec Ideal S1x16x256x128 .f32) (x1 : Vec Ideal S1x16x256x256 .f32) (r : Fin 4096) (l : Fin 256) :
    mha x0 x1 (ix2 r l)
      = (∑ j : Fin 256, x1 (ix4 (0 : Fin 1) (graphOf r) (nodeOf r) j) * featAt x0 (graphOf r) j l)
        * Ideal.div 1 (max (∑ j : Fin 256, x1 (ix4 (0 : Fin 1) (graphOf r) (nodeOf r) j)
            * featAt x0 (graphOf r) j Cert.Spec.lane128) 1) := by
  show mhaBlk (maskBlk x1 (graphOf r)) (haugBlk x0 (graphOf r)) (ix2 (nodeOf r) l) = _
  unfold mhaBlk
  rw [k0_pay1_apply, mhBlk_apply, mhBlk_apply]
  rfl

/-- The second payload at an index: positive part of the product with the widened weights, times the second
    layer's weights, plus the bias. -/
theorem k0_pay2_apply (v : Vec Ideal S4096x256 .f32) (x2 : Vec Ideal S256x512 .f32) (x3 : Vec Ideal S512x128 .f32)
    (x4 : Vec Ideal S1x128 .f32) (r : Fin 4096) (d : Fin 128) :
    k0_pay2 v x2 x3 x4 (ix3 (0 : Fin 1) r d)
      = (∑ k : Fin 512, max (∑ l : Fin 256, v (ix2 r l) * x2 (ix2 l k)) 0 * x3 (ix2 k d)) + x4 (ix2 (0 : Fin 1) d) := by
  unfold k0_pay2
  rw [shapeCast_ab_1ab_apply, shapeCast_self, shapeCast_self]
  refine congrArg₂ (· + ·) ?_ (broadcastTo_1b_ab_apply x4 _ r d)
  refine (Cert.LibPlainDot.matmul_zero_apply _ ⟨rfl, rfl, rfl, rfl, rfl, rfl⟩ none _ x3 r d).trans ?_
  refine Finset.sum_congr rfl fun k _ => ?_
  refine congrArg (· * x3 (ix2 k d)) ?_
  refine (maximumf_apply _ _ _).trans ?_
  exact congrArg₂ max (Cert.LibPlainDot.matmul_zero_apply _ ⟨rfl, rfl, rfl, rfl, rfl, rfl⟩ none v x2 r k) zero32_eq

/-- Entry (r, d) of the output block. -/
theorem outBlk_apply (x0 : Vec Ideal S1x16x256x128 .f32) (x1 : Vec Ideal S1x16x256x256 .f32) (x2 : Vec Ideal S256x512 .f32)
    (x3 : Vec Ideal S512x128 .f32) (x4 : Vec Ideal S1x128 .f32) (r : Fin 4096) (d : Fin 128) :
    outBlk x0 x1 x2 x3 x4 (ix3 (0 : Fin 1) r d)
      = Cert.Spec.outOf (fun k : Fin 512 => ∑ l : Fin 256, mha x0 x1 (ix2 r l) * x2 (ix2 l k))
          (fun k => x3 (ix2 k d)) (x4 (ix2 (0 : Fin 1) d)) := by
  unfold outBlk
  rw [k0_pay2_apply]
  rfl

/-- Entry (r, d) of the output block when the widened weights are the weights, the bias, then zeros: the
    inner number is the kernel's row form. -/
theorem outBlk_rowK (x0 : Vec Ideal S1x16x256x128 .f32) (x1 : Vec Ideal S1x16x256x256 .f32) (x2 : Vec Ideal S256x512 .f32)
    (x3 : Vec Ideal S512x128 .f32) (x4 : Vec Ideal S1x128 .f32) (W : Fin 128 → Fin 512 → EReal) (c : Fin 512 → EReal)
    (hx2 : ∀ (l : Fin 256) (k : Fin 512), x2 (ix2 l k) = Cert.Spec.wcol (fun e => W e k) (c k) l)
    (r : Fin 4096) (d : Fin 128) :
    outBlk x0 x1 x2 x3 x4 (ix3 (0 : Fin 1) r d)
      = Cert.Spec.outOf (fun k => Cert.Spec.rowK (fun j => x1 (ix4 (0 : Fin 1) (graphOf r) (nodeOf r) j))
            (fun j e => x0 (ix4 (0 : Fin 1) (graphOf r) j e)) (fun e => W e k) (c k))
          (fun k => x3 (ix2 k d)) (x4 (ix2 (0 : Fin 1) d)) := by
  rw [outBlk_apply]
  refine congrArg (fun s => Cert.Spec.outOf s (fun k => x3 (ix2 k d)) (x4 (ix2 (0 : Fin 1) d))) (funext fun k => ?_)
  unfold Cert.Spec.rowK
  refine Finset.sum_congr rfl fun l _ => ?_
  rw [mha_apply, hx2]
  simp only [featAt_eq]

end Cert.KernelIdeal.BlockValue

end
-- ==== Proof.LibNary.lean ====
import Idealize.ShloMosaic.Lib.StableHlo.Run

/-!
# A concatenate of two or of three operands, its result at its own buffer

A host operation over a LITERAL family of two or three buffers (a concatenate of two or three operands) leaves in
its result buffer its function applied to the operands' contents, each operand's contents written AT ITS OWN
BUFFER — so that a rewriting that follows each buffer back to the operation that wrote it can go on through the
operands.  (The family's value at a variable position is no literal buffer; its values at the literal positions
0, 1, 2 are.)  Stated twice: as an equation at the result buffer, and with the result buffer left free.  Following every buffer back to
the operation that wrote it then goes through the two- and three-operand forms.
-/

noncomputable section

namespace Cert.LibNary

open Idealize.ShloMosaic Idealize.ShloMosaic.StableHlo Idealize.SL.Sem

variable {τ : Topo} {sig : RefSig} {Val : EltTy → Type}
variable {x a b y : Ref sig .tc}

/-- Three operands. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- Two operands. -/
theorem nary2_result
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) := by
  rw [nary_result]; congr 1; funext k; fin_cases k <;> rfl

theorem nary2_result'
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) :=
  nary2_result f hxs hy F

end Cert.LibNary

/-- One pass that follows every buffer of a fold of host operations back to the operation that wrote it, through the
    two- and three-operand forms above. -/
macro "after_results_cat" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.LibNary.nary3_result', Cert.LibNary.nary2_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

end
-- ==== Proof.KI.Layout.lean ====
/-
  The layout around the fused sub-layer's one region, at the extended reals.

  Before the region the host reshapes the features [128,256,128] and the mask [128,256,256] to eight groups of
  sixteen graphs, widens the convolution weights [128,512] to [256,512] by the bias row and 127 rows of zeros,
  and reshapes the output bias [128] to one row; after it, it reshapes the result [8,4096,128] back to
  [128,256,128].  Each is read here at an index given by its coordinates: graph `g * 16 + b` is graph `b` of
  group `g`, column `k` of the widened weights is `wcol`, and node `n` of graph `b` sits in row
  `(b % 16) * 256 + n` of group `b / 16`.  Then each input window's block at grid point `t`: windows 0 and 1
  are group `t`, windows 2, 3, 4 are their whole arrays.
-/
import proofs.«105909_g1906965479736_cont_8to1_1380_15_alg».proof.Proof.KI.Kit
import proofs.«105909_g1906965479736_cont_8to1_1380_15_alg».proof.Proof.Spec
import proofs.«105909_g1906965479736_cont_8to1_1380_15_alg».proof.Proof.LibNary
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Layout

open Cert.KernelIdeal Cert.KernelIdeal.Gen Idealize.ShloMosaic Idealize.ShloMosaic.TcCoe Idealize.SL.Sem Idealize.ShloMosaic.ValueIdx Idealize.ShloMosaic.StableHlo

/-! ## The reshapes, over any contents -/

theorem cast_h (x : S128x256x128.Idx → EReal) (g : Fin 8) (b : Fin 16) (j : Fin 256) (e : Fin 128) :
    shapeCast S8x16x256x128 x shapeCasts_S128x256x128_S8x16x256x128 (ix4 g b j e)
      = x (ix3 (⟨g.val * 16 + b.val, by omega⟩ : Fin 128) j e) :=
  shapeCast_apply x _ _ _ (by
    rw [Shape.rowMajor_val_three, Shape.rowMajor_val_four]
    show ((g.val * 16 + b.val) * 256 + j.val) * 128 + e.val = ((g.val * 16 + b.val) * 256 + j.val) * 128 + e.val
    rfl)

theorem cast_mask (x : S128x256x256.Idx → EReal) (g : Fin 8) (b : Fin 16) (n : Fin 256) (j : Fin 256) :
    shapeCast S8x16x256x256 x shapeCasts_S128x256x256_S8x16x256x256 (ix4 g b n j)
      = x (ix3 (⟨g.val * 16 + b.val, by omega⟩ : Fin 128) n j) :=
  shapeCast_apply x _ _ _ (by
    rw [Shape.rowMajor_val_three, Shape.rowMajor_val_four]
    show ((g.val * 16 + b.val) * 256 + n.val) * 256 + j.val = ((g.val * 16 + b.val) * 256 + n.val) * 256 + j.val
    rfl)

/-- (b) the reshape after the region -/
theorem cast_out (y : S8x4096x128.Idx → EReal) (b : Fin 128) (n : Fin 256) (d : Fin 128) :
    shapeCast S128x256x128 y shapeCasts_S8x4096x128_S128x256x128 (ix3 b n d)
      = y (ix3 (⟨b.val / 16, by omega⟩ : Fin 8) (⟨(b.val % 16) * 256 + n.val, by omega⟩ : Fin 4096) d) :=
  shapeCast_apply y _ _ _ (by
    rw [Shape.rowMajor_val_three, Shape.rowMajor_val_three]
    show (b.val / 16 * 4096 + ((b.val % 16) * 256 + n.val)) * 128 + d.val = (b.val * 256 + n.val) * 128 + d.val
    omega)

/-! ## The concatenate, over any three pieces -/

theorem cat_lo (W : S128x512.Idx → EReal) (r : S1x512.Idx → EReal) (z : S127x512.Idx → EReal) (l : Fin 256) (k : Fin 512)
    (h : l.val < 128) :
    concatenate S256x512 0 [⟨S128x512, W⟩, ⟨S1x512, r⟩, ⟨S127x512, z⟩] concatenates_S128x512_S1x512_S127x512_S256x512_d0 (ix2 l k)
      = W (ix2 (⟨l.val, h⟩ : Fin 128) k) :=
  concatenate_apply_piece (t := S256x512) 0 _ _ (ix2 l k) 0 (by show 0 < 3; omega) S128x512 W rfl rfl 0 rfl (ix2 (⟨l.val, h⟩ : Fin 128) k)
    (fun b hb => match b, hb with | ⟨0, _⟩, hb => absurd rfl hb | ⟨1, _⟩, _ => rfl)
    (by show 0 + l.val = l.val; omega)

theorem cat_mid (W : S128x512.Idx → EReal) (r : S1x512.Idx → EReal) (z : S127x512.Idx → EReal) (l : Fin 256) (k : Fin 512)
    (h : l.val = 128) :
    concatenate S256x512 0 [⟨S128x512, W⟩, ⟨S1x512, r⟩, ⟨S127x512, z⟩] concatenates_S128x512_S1x512_S127x512_S256x512_d0 (ix2 l k)
      = r (ix2 (0 : Fin 1) k) :=
  concatenate_apply_piece (t := S256x512) 0 _ _ (ix2 l k) 1 (by show 1 < 3; omega) S1x512 r rfl rfl 128 rfl (ix2 (0 : Fin 1) k)
    (fun b hb => match b, hb with | ⟨0, _⟩, hb => absurd rfl hb | ⟨1, _⟩, _ => rfl)
    (by show 128 + 0 = l.val; omega)

theorem cat_hi (W : S128x512.Idx → EReal) (r : S1x512.Idx → EReal) (z : S127x512.Idx → EReal) (l : Fin 256) (k : Fin 512)
    (h : 129 ≤ l.val) :
    concatenate S256x512 0 [⟨S128x512, W⟩, ⟨S1x512, r⟩, ⟨S127x512, z⟩] concatenates_S128x512_S1x512_S127x512_S256x512_d0 (ix2 l k)
      = z (ix2 (⟨l.val - 129, by omega⟩ : Fin 127) k) :=
  concatenate_apply_piece (t := S256x512) 0 _ _ (ix2 l k) 2 (by show 2 < 3; omega) S127x512 z rfl rfl 129 rfl (ix2 (⟨l.val - 129, by omega⟩ : Fin 127) k)
    (fun b hb => match b, hb with | ⟨0, _⟩, hb => absurd rfl hb | ⟨1, _⟩, _ => rfl)
    (by show 129 + (l.val - 129) = l.val; omega)

/-- The bias as one row. -/
theorem bias_row (x : S512.Idx → EReal) (u : Fin 1) (k : Fin 512) :
    broadcastInDim S1x512 ![1] bcast_S512_S1x512_1 x (ix2 u k) = x (ix1 k) :=
  broadcastInDim_apply _ bcast_S512_S1x512_1 x (ix2 u k) (ix1 k) (fun a => match a with
    | ⟨0, _⟩ => by show k.val = if (512 : Nat) = 1 then 0 else k.val; rw [if_neg (by decide)])

/-- The rows of zeros. -/
theorem zero_rows (p : Fin 127) (k : Fin 512) :
    broadcastInDim S127x512 ![] bcast_S_S127x512 (constant (F := Ideal) S_ .f32 0x00000000#32) (ix2 p k) = (0 : EReal) := by
  rw [broadcastInDim_apply _ bcast_S_S127x512 _ (ix2 p k) (fun a => a.elim0) (fun a => a.elim0)]
  show FloatOps.ofBits (F := Ideal) .f32 0x00000000#32 = 0
  rw [Ideal.ofBits_def]; exact Ideal.ofBits_zero_f32

variable (m : (ℓ : Loc nD τ sig) → Buf (Elt Ideal) ℓ) (c : Dev nD)

/-! ## The buffers as the region finds them -/

theorem V_v0_eq : (V m c main_v0 : S8x16x256x128.Idx → EReal)
    = shapeCast S8x16x256x128 (m ((c : Thread nD τ).loc main_arg0) : S128x256x128.Idx → EReal) shapeCasts_S128x256x128_S8x16x256x128 := by
  dsimp only [V, V0]
  simp only [hostOps0, List.flatten_cons, List.flatten_nil, List.append_nil, List.cons_append, List.nil_append]
  after_results
  rfl
theorem V_v1_eq : (V m c main_v1 : S8x16x256x256.Idx → EReal)
    = shapeCast S8x16x256x256 (m ((c : Thread nD τ).loc main_arg1) : S128x256x256.Idx → EReal) shapeCasts_S128x256x256_S8x16x256x256 := by
  dsimp only [V, V0]
  simp only [hostOps0, List.flatten_cons, List.flatten_nil, List.append_nil, List.cons_append, List.nil_append]
  after_results
  rfl
theorem V_v5_eq : (V m c main_v5 : S1x128.Idx → EReal)
    = shapeCast S1x128 (m ((c : Thread nD τ).loc main_arg5) : S128.Idx → EReal) shapeCasts_S128_S1x128 := by
  dsimp only [V, V0]
  simp only [hostOps0, List.flatten_cons, List.flatten_nil, List.append_nil, List.cons_append, List.nil_append]
  after_results
  rfl

theorem v0_at (g : Fin 8) (b : Fin 16) (j : Fin 256) (e : Fin 128) :
    V m c main_v0 (ix4 g b j e) = m ((c : Thread nD τ).loc main_arg0) (ix3 (⟨g.val * 16 + b.val, by omega⟩ : Fin 128) j e) := by
  rw [V_v0_eq]; exact cast_h _ g b j e
theorem v1_at (g : Fin 8) (b : Fin 16) (n : Fin 256) (j : Fin 256) :
    V m c main_v1 (ix4 g b n j) = m ((c : Thread nD τ).loc main_arg1) (ix3 (⟨g.val * 16 + b.val, by omega⟩ : Fin 128) n j) := by
  rw [V_v1_eq]; exact cast_mask _ g b n j
theorem v5_at (d : Fin 128) : V m c main_v5 (ix2 (0 : Fin 1) d) = m ((c : Thread nD τ).loc main_arg5) (ix1 d) := by
  rw [V_v5_eq]; exact shapeCast_a_1a_apply _ _ _ _

theorem V_v4_eq : (V m c main_v4 : S256x512.Idx → EReal)
    = concatenate S256x512 0 [⟨S128x512, (m ((c : Thread nD τ).loc main_arg2) : S128x512.Idx → EReal)⟩,
        ⟨S1x512, broadcastInDim S1x512 ![1] bcast_S512_S1x512_1 (m ((c : Thread nD τ).loc main_arg3) : S512.Idx → EReal)⟩,
        ⟨S127x512, broadcastInDim S127x512 ![] bcast_S_S127x512 (constant (F := Ideal) S_ .f32 0x00000000#32)⟩]
        concatenates_S128x512_S1x512_S127x512_S256x512_d0 := by
  dsimp only [V, V0]
  simp only [hostOps0, List.flatten_cons, List.flatten_nil, List.append_nil, List.cons_append, List.nil_append]
  after_results_cat
  rfl

/-- The widened weight matrix: column `k` is the weight column, then the bias, then zeros. -/
theorem v4_at (l : Fin 256) (k : Fin 512) :
    V m c main_v4 (ix2 l k) = Cert.Spec.wcol (fun e : Fin 128 => m ((c : Thread nD τ).loc main_arg2) (ix2 e k))
      (m ((c : Thread nD τ).loc main_arg3) (ix1 k)) l := by
  rw [V_v4_eq]
  unfold Cert.Spec.wcol
  by_cases h : l.val < 128
  · rw [dif_pos h]; exact cat_lo _ _ _ l k h
  · rw [dif_neg h]
    by_cases h2 : l.val = 128
    · rw [if_pos h2, cat_mid _ _ _ l k h2]; exact bias_row _ _ k
    · rw [if_neg h2, cat_hi _ _ _ l k (by omega)]; exact zero_rows _ k

/-! ## The windows' blocks -/

/-- A grid point is below eight. -/
theorem t_lt (t : Fin cfg0.N) : t.val < 8 := Nat.lt_of_lt_of_eq t.isLt N_0

/-- The index maps over the grid: windows 0 and 1 step along the leading axis with the point, windows 2, 3, 4 stay. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

/-- Window 0's block at point `t` is group `t` of the reshaped features. -/
theorem blk0_at (t : Fin cfg0.N) (b : Fin 16) (j : Fin 256) (e : Fin 128) :
    iblk m c 0 t (ix4 (0 : Fin 1) b j e) = V m c main_v0 (ix4 (⟨t.val, t_lt t⟩ : Fin 8) b j e) := by
  obtain ⟨⟨e0, e1, e2, e3⟩, -⟩ := idx_facts t
  show V m c main_v0 (((cfg0.win 0).blk t).view.emb (ix4 (0 : Fin 1) b j e)) = _
  have h : ((cfg0.win 0).blk t).view.emb (ix4 (0 : Fin 1) b j e) = ix4 (⟨t.val, t_lt t⟩ : Fin 8) b j e := by
    funext a; apply Fin.ext
    match a with
    | ⟨0, _⟩ => show win0_0.index t (0 : Fin 4) * 1 + 1 * 0 = t.val; omega
    | ⟨1, _⟩ => show win0_0.index t (1 : Fin 4) * 16 + 1 * b.val = b.val; omega
    | ⟨2, _⟩ => show win0_0.index t (2 : Fin 4) * 256 + 1 * j.val = j.val; omega
    | ⟨3, _⟩ => show win0_0.index t (3 : Fin 4) * 128 + 1 * e.val = e.val; omega
  rw [h]

/-- Window 1's block at point `t` is group `t` of the reshaped mask. -/
theorem blk1_at (t : Fin cfg0.N) (b : Fin 16) (n : Fin 256) (j : Fin 256) :
    iblk m c 1 t (ix4 (0 : Fin 1) b n j) = V m c main_v1 (ix4 (⟨t.val, t_lt t⟩ : Fin 8) b n j) := by
  obtain ⟨-, ⟨e0, e1, e2, e3⟩, -⟩ := idx_facts t
  show V m c main_v1 (((cfg0.win 1).blk t).view.emb (ix4 (0 : Fin 1) b n j)) = _
  have h : ((cfg0.win 1).blk t).view.emb (ix4 (0 : Fin 1) b n j) = ix4 (⟨t.val, t_lt t⟩ : Fin 8) b n j := by
    funext a; apply Fin.ext
    match a with
    | ⟨0, _⟩ => show win0_1.index t (0 : Fin 4) * 1 + 1 * 0 = t.val; omega
    | ⟨1, _⟩ => show win0_1.index t (1 : Fin 4) * 16 + 1 * b.val = b.val; omega
    | ⟨2, _⟩ => show win0_1.index t (2 : Fin 4) * 256 + 1 * n.val = n.val; omega
    | ⟨3, _⟩ => show win0_1.index t (3 : Fin 4) * 256 + 1 * j.val = j.val; omega
  rw [h]

/-- Window 2's block at every point is the whole widened weight matrix. -/
theorem blk2_at (t : Fin cfg0.N) (l : Fin 256) (k : Fin 512) : iblk m c 2 t (ix2 l k) = V m c main_v4 (ix2 l k) := by
  obtain ⟨-, -, ⟨e0, e1⟩, -⟩ := idx_facts t
  show V m c main_v4 (((cfg0.win 2).blk t).view.emb (ix2 l k)) = _
  have h : ((cfg0.win 2).blk t).view.emb (ix2 l k) = ix2 l k := by
    funext a; apply Fin.ext
    match a with
    | ⟨0, _⟩ => show win0_2.index t (0 : Fin 2) * 256 + 1 * l.val = l.val; omega
    | ⟨1, _⟩ => show win0_2.index t (1 : Fin 2) * 512 + 1 * k.val = k.val; omega
  rw [h]

/-- Window 3's block at every point is the whole second weight matrix. -/
theorem blk3_at (t : Fin cfg0.N) (k : Fin 512) (d : Fin 128) : iblk m c 3 t (ix2 k d) = V m c main_arg4 (ix2 k d) := by
  obtain ⟨-, -, -, ⟨e0, e1⟩, -⟩ := idx_facts t
  show V m c main_arg4 (((cfg0.win 3).blk t).view.emb (ix2 k d)) = _
  have h : ((cfg0.win 3).blk t).view.emb (ix2 k d) = ix2 k d := by
    funext a; apply Fin.ext
    match a with
    | ⟨0, _⟩ => show win0_3.index t (0 : Fin 2) * 512 + 1 * k.val = k.val; omega
    | ⟨1, _⟩ => show win0_3.index t (1 : Fin 2) * 128 + 1 * d.val = d.val; omega
  rw [h]

/-- Window 4's block at every point is the whole output bias row. -/
theorem blk4_at (t : Fin cfg0.N) (u : Fin 1) (d : Fin 128) : iblk m c 4 t (ix2 u d) = V m c main_v5 (ix2 u d) := by
  obtain ⟨-, -, -, -, ⟨e0, e1⟩⟩ := idx_facts t
  show V m c main_v5 (((cfg0.win 4).blk t).view.emb (ix2 u d)) = _
  have h : ((cfg0.win 4).blk t).view.emb (ix2 u d) = ix2 u d := by
    funext a; apply Fin.ext
    match a with
    | ⟨0, _⟩ => show win0_4.index t (0 : Fin 2) * 1 + 1 * u.val = u.val; omega
    | ⟨1, _⟩ => show win0_4.index t (1 : Fin 2) * 128 + 1 * d.val = d.val; omega
  rw [h]

/-- The whole-array windows as functions. -/
theorem blk2 (t : Fin cfg0.N) : (iblk m c 2 t : S256x512.Idx → EReal) = V m c main_v4 := funext fun y => by
  obtain ⟨l, k, rfl⟩ : ∃ (l : Fin 256) (k : Fin 512), y = ix2 l k := ⟨y 0, y 1, eq_ix2 y⟩
  exact blk2_at m c t l k
theorem blk3 (t : Fin cfg0.N) : (iblk m c 3 t : S512x128.Idx → EReal) = V m c main_arg4 := funext fun y => by
  obtain ⟨k, d, rfl⟩ : ∃ (k : Fin 512) (d : Fin 128), y = ix2 k d := ⟨y 0, y 1, eq_ix2 y⟩
  exact blk3_at m c t k d
theorem blk4 (t : Fin cfg0.N) : (iblk m c 4 t : S1x128.Idx → EReal) = V m c main_v5 := funext fun y => by
  obtain ⟨u, d, rfl⟩ : ∃ (u : Fin 1) (d : Fin 128), y = ix2 u d := ⟨y 0, y 1, eq_ix2 y⟩
  exact blk4_at m c t u d

/-! ## The blocks in terms of the argument arrays -/

/-- Graph `b` of the block at point `t` is graph `t * 16 + b`: the features. -/
theorem blk0_arg (t : Fin cfg0.N) (b : Fin 16) (j : Fin 256) (e : Fin 128) :
    iblk m c 0 t (ix4 (0 : Fin 1) b j e) = m ((c : Thread nD τ).loc main_arg0) (ix3 (⟨t.val * 16 + b.val, by have := t_lt t; omega⟩ : Fin 128) j e) :=
  (blk0_at m c t b j e).trans (v0_at m c ⟨t.val, t_lt t⟩ b j e)
/-- The mask. -/
theorem blk1_arg (t : Fin cfg0.N) (b : Fin 16) (n : Fin 256) (j : Fin 256) :
    iblk m c 1 t (ix4 (0 : Fin 1) b n j) = m ((c : Thread nD τ).loc main_arg1) (ix3 (⟨t.val * 16 + b.val, by have := t_lt t; omega⟩ : Fin 128) n j) :=
  (blk1_at m c t b n j).trans (v1_at m c ⟨t.val, t_lt t⟩ b n j)
/-- The widened weight matrix. -/
theorem blk2_arg (t : Fin cfg0.N) (l : Fin 256) (k : Fin 512) :
    iblk m c 2 t (ix2 l k) = Cert.Spec.wcol (fun e : Fin 128 => m ((c : Thread nD τ).loc main_arg2) (ix2 e k)) (m ((c : Thread nD τ).loc main_arg3) (ix1 k)) l :=
  (blk2_at m c t l k).trans (v4_at m c l k)
/-- The second weight matrix. -/
theorem blk3_arg (t : Fin cfg0.N) (k : Fin 512) (d : Fin 128) : iblk m c 3 t (ix2 k d) = m ((c : Thread nD τ).loc main_arg4) (ix2 k d) :=
  (blk3_at m c t k d).trans (congrFun (V_main_arg4 m c) (ix2 k d))
/-- The output bias. -/
theorem blk4_arg (t : Fin cfg0.N) (d : Fin 128) : iblk m c 4 t (ix2 (0 : Fin 1) d) = m ((c : Thread nD τ).loc main_arg5) (ix1 d) :=
  (blk4_at m c t 0 d).trans (v5_at m c d)

end Cert.KernelIdeal.Layout

end
-- ==== Proof.Finite.lean ====
/-
  Finiteness read back from the precondition.

  The precondition states, for each of the six argument arrays x, that the conjunction over all
  indices of |x i| < +∞ is true, and that the conjunction of the six is true.  An extended real whose
  absolute value max x (-x) lies strictly below ⊤ is neither ⊤ nor ⊥, hence the coercion of a real.
  So every entry of every argument array is a real.
-/
import proofs.«105909_g1906965479736_cont_8to1_1380_15_alg».proof.Defs
import proofs.«105909_g1906965479736_cont_8to1_1380_15_alg».proof.Proof.Gen.Pre_finite_inputs
import Idealize.ShloMosaic.Lib.ReduceAll
import Idealize.ShloMosaic.Lib.ValueIdx

noncomputable section

namespace Cert.Finite

open Idealize.ShloMosaic Idealize.SL.Sem

instance : Subsingleton Cert.Pre_finite_inputs.S_.Idx := ⟨fun a b => funext fun d => d.elim0⟩

/-- An extended real whose absolute value lies below the positive infinity is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- When the conjunction over all indices of |x i| < +∞ is true, every entry of the array is a real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf (F := Ideal) x)
            (broadcastInDim s ![] hb (constant (F := Ideal) Cert.Pre_finite_inputs.S_ .f32 0x7F800000#32)))
          (constantI Cert.Pre_finite_inputs.S_ 1 1#1) hr hu j = 1#1) :
    ∀ i, ∃ r : ℝ, x i = (r : EReal) := by
  intro i
  have h := Host.reduce_andi_all _ _ hr hu j e i
  exact real_of_abs_lt (x i) h

theorem real_args (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, (m ((c.tc : Thread Cert.KernelIdeal.nD Cert.KernelIdeal.τ).loc Cert.KernelIdeal.main_arg0) : FVec Ideal Cert.Pre_finite_inputs.S128x256x128 .f32) i = (r : EReal))
    ∧ (∀ i, ∃ r : ℝ, (m ((c.tc : Thread Cert.KernelIdeal.nD Cert.KernelIdeal.τ).loc Cert.KernelIdeal.main_arg1) : FVec Ideal Cert.Pre_finite_inputs.S128x256x256 .f32) i = (r : EReal))
    ∧ (∀ i, ∃ r : ℝ, (m ((c.tc : Thread Cert.KernelIdeal.nD Cert.KernelIdeal.τ).loc Cert.KernelIdeal.main_arg2) : FVec Ideal Cert.Pre_finite_inputs.S128x512 .f32) i = (r : EReal))
    ∧ (∀ i, ∃ r : ℝ, (m ((c.tc : Thread Cert.KernelIdeal.nD Cert.KernelIdeal.τ).loc Cert.KernelIdeal.main_arg3) : FVec Ideal Cert.Pre_finite_inputs.S512 .f32) i = (r : EReal)) := by
  have h0 := congrFun (h c) ValueIdx.ix0
  dsimp only [Cert.Pre_finite_inputs.fn, Cert.Pre_finite_inputs.fn_part1] at h0
  obtain ⟨h4, _⟩ := IntOp.andi_eq_one.1 h0
  obtain ⟨h3, _⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨real_of_all _ _ _ _ _ e0, real_of_all _ _ _ _ _ e1, real_of_all _ _ _ _ _ e2, real_of_all _ _ _ _ _ e3⟩

theorem real_args45 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, (m ((c.tc : Thread Cert.KernelIdeal.nD Cert.KernelIdeal.τ).loc Cert.KernelIdeal.main_arg4) : FVec Ideal Cert.Pre_finite_inputs.S512x128 .f32) i = (r : EReal))
    ∧ (∀ i, ∃ r : ℝ, (m ((c.tc : Thread Cert.KernelIdeal.nD Cert.KernelIdeal.τ).loc Cert.KernelIdeal.main_arg5) : FVec Ideal Cert.Pre_finite_inputs.S128 .f32) i = (r : EReal)) := by
  have h0 := congrFun (h c) ValueIdx.ix0
  dsimp only [Cert.Pre_finite_inputs.fn, Cert.Pre_finite_inputs.fn_part1] at h0
  obtain ⟨h4, e5⟩ := IntOp.andi_eq_one.1 h0
  obtain ⟨_, e4⟩ := IntOp.andi_eq_one.1 h4
  exact ⟨real_of_all _ _ _ _ _ e4, real_of_all _ _ _ _ _ e5⟩

end Cert.Finite

end
-- ==== Proof.RowLaw.lean ====
/-
  The row law: for real-valued masks, features, weights and bias the two row forms of the
  sub-layer denote the same extended real.

  With m = ∑ j, M j, lane l < 128 of the widened aggregate is ∑ j, M j * H j l, lane 128 is m, and
  the lanes above vanish; hence

      rowK = (∑ l < 128, (∑ j, M j * H j l) * W l + m * c) / max m 1
           = (∑ j, M j * (∑ e, H j e * W e + c)) / max 1 m = rowR

  by distributivity and an exchange of the two sums; max m 1 ≥ 1 > 0, so the quotient is a real one.
-/
import proofs.«105909_g1906965479736_cont_8to1_1380_15_alg».proof.Proof.Spec
import Mathlib.Algebra.BigOperators.Fin
import Mathlib.Data.EReal.Operations
import Mathlib.Tactic.Ring
import Mathlib.Tactic.Linarith

noncomputable section

namespace Cert.Spec

open Idealize.ShloMosaic

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with the maximum. -/
theorem coe_max (a b : ℝ) : ((max a b : ℝ) : EReal) = max (a : EReal) (b : EReal) :=
  EReal.coe_strictMono.monotone.map_max

/-- The widened feature row over the reals. -/
def augR (h : Fin 256 → Fin 128 → ℝ) (j l : Fin 256) : ℝ :=
  if hl : l.val < 128 then h j ⟨l.val, hl⟩ else if l.val = 128 then 1 else 0

/-- The widened weight column over the reals. -/
def wcolR (w : Fin 128 → ℝ) (c : ℝ) (l : Fin 256) : ℝ :=
  if hl : l.val < 128 then w ⟨l.val, hl⟩ else if l.val = 128 then c else 0

theorem aug_coe (h : Fin 256 → Fin 128 → ℝ) (j l : Fin 256) :
    aug (fun j e => (h j e : EReal)) j l = (augR h j l : EReal) := by
  unfold aug augR
  split_ifs <;> simp

theorem wcol_coe (w : Fin 128 → ℝ) (c : ℝ) (l : Fin 256) :
    wcol (fun e => (w e : EReal)) (c : EReal) l = (wcolR w c l : EReal) := by
  unfold wcol wcolR
  split_ifs <;> simp

theorem augR_lane128 (h : Fin 256 → Fin 128 → ℝ) (j : Fin 256) : augR h j lane128 = 1 := by
  simp [augR, lane128]

/-- The widened row against the widened column: the dot product of the 128 lanes plus the bias. -/
theorem augR_dot (h : Fin 256 → Fin 128 → ℝ) (w : Fin 128 → ℝ) (c : ℝ) (j : Fin 256) :
    ∑ l : Fin 256, augR h j l * wcolR w c l = (∑ e : Fin 128, h j e * w e) + c := by
  have hsplit : ∑ l : Fin 256, augR h j l * wcolR w c l
      = ∑ i : Fin 128, augR h j (Fin.castAdd 128 i) * wcolR w c (Fin.castAdd 128 i)
        + ∑ i : Fin 128, augR h j (Fin.natAdd 128 i) * wcolR w c (Fin.natAdd 128 i) :=
    Fin.sum_univ_add (M := ℝ) (a := 128) (b := 128) (fun l => augR h j l * wcolR w c l)
  have hlow : ∑ i : Fin 128, augR h j (Fin.castAdd 128 i) * wcolR w c (Fin.castAdd 128 i)
      = ∑ e : Fin 128, h j e * w e := by
    refine Finset.sum_congr rfl (fun i _ => ?_)
    simp [augR, wcolR]
  have hhigh : ∑ i : Fin 128, augR h j (Fin.natAdd 128 i) * wcolR w c (Fin.natAdd 128 i) = c := by
    have hsucc : ∑ i : Fin 128, augR h j (Fin.natAdd 128 i) * wcolR w c (Fin.natAdd 128 i)
        = augR h j (Fin.natAdd 128 (0 : Fin 128)) * wcolR w c (Fin.natAdd 128 (0 : Fin 128))
          + ∑ i : Fin 127, augR h j (Fin.natAdd 128 i.succ) * wcolR w c (Fin.natAdd 128 i.succ) :=
      Fin.sum_univ_succ (M := ℝ) (n := 127) (fun i => augR h j (Fin.natAdd 128 i) * wcolR w c (Fin.natAdd 128 i))
    rw [hsucc]
    have hz : ∑ i : Fin 127, augR h j (Fin.natAdd 128 i.succ) * wcolR w c (Fin.natAdd 128 i.succ) = 0 := by
      refine Finset.sum_eq_zero (fun i _ => ?_)
      have h1 : ¬ ((Fin.natAdd 128 i.succ).val < 128) := by simp
      have h2 : ¬ ((Fin.natAdd 128 i.succ).val = 128) := by simp
      simp [augR, dif_neg h1, if_neg h2]
    rw [hz, add_zero]
    simp [augR, wcolR]
  rw [hsplit, hlow, hhigh]

/-- The row law over the reals. -/
theorem rowLaw_real (m : Fin 256 → ℝ) (h : Fin 256 → Fin 128 → ℝ) (w : Fin 128 → ℝ) (c : ℝ) :
    ∑ l : Fin 256, ((∑ j : Fin 256, m j * augR h j l) * (1 * (1 / max (∑ j : Fin 256, m j * augR h j lane128) 1))) * wcolR w c l
      = (∑ j : Fin 256, m j * ((∑ e : Fin 128, h j e * w e) + c)) * (1 / max 1 (0 + ∑ j : Fin 256, m j)) := by
  have h128 : ∑ j : Fin 256, m j * augR h j lane128 = ∑ j : Fin 256, m j := by
    refine Finset.sum_congr rfl (fun j _ => ?_)
    rw [augR_lane128, mul_one]
  rw [h128, zero_add, max_comm (∑ j : Fin 256, m j) 1, one_mul]
  set r : ℝ := 1 / max 1 (∑ j : Fin 256, m j) with hr
  calc ∑ l : Fin 256, ((∑ j : Fin 256, m j * augR h j l) * r) * wcolR w c l
      = ∑ l : Fin 256, ∑ j : Fin 256, (m j * (augR h j l * wcolR w c l)) * r := by
        refine Finset.sum_congr rfl (fun l _ => ?_)
        rw [Finset.sum_mul, Finset.sum_mul]
        refine Finset.sum_congr rfl (fun j _ => ?_)
        ring
    _ = ∑ j : Fin 256, ∑ l : Fin 256, (m j * (augR h j l * wcolR w c l)) * r := Finset.sum_comm
    _ = ∑ j : Fin 256, (m j * ((∑ e : Fin 128, h j e * w e) + c)) * r := by
        refine Finset.sum_congr rfl (fun j _ => ?_)
        rw [← Finset.sum_mul, ← Finset.mul_sum, augR_dot]
    _ = (∑ j : Fin 256, m j * ((∑ e : Fin 128, h j e * w e) + c)) * r := by
        rw [Finset.sum_mul]

theorem max_one_ne_zero (x : ℝ) : max 1 x ≠ 0 := by
  have : (1 : ℝ) ≤ max 1 x := le_max_left 1 x
  intro h0
  rw [h0] at this
  linarith

/-- The row law for real-valued arguments given as coercions. -/
theorem rowK_eq_rowR_coe (m : Fin 256 → ℝ) (h : Fin 256 → Fin 128 → ℝ) (w : Fin 128 → ℝ) (c : ℝ) :
    rowK (fun j => (m j : EReal)) (fun j e => (h j e : EReal)) (fun e => (w e : EReal)) (c : EReal)
      = rowR (fun j => (m j : EReal)) (fun j e => (h j e : EReal)) (fun e => (w e : EReal)) (c : EReal) := by
  have hK : rowK (fun j => (m j : EReal)) (fun j e => (h j e : EReal)) (fun e => (w e : EReal)) (c : EReal)
      = ((∑ l : Fin 256, ((∑ j : Fin 256, m j * augR h j l)
            * (1 * (1 / max (∑ j : Fin 256, m j * augR h j lane128) 1))) * wcolR w c l : ℝ) : EReal) := by
    unfold rowK
    have hden : (max (∑ j : Fin 256, ((m j : EReal)) * aug (fun j e => (h j e : EReal)) j lane128) 1 : EReal)
        = ((max (∑ j : Fin 256, m j * augR h j lane128) 1 : ℝ) : EReal) := by
      rw [coe_max, coe_sum, EReal.coe_one]
      have hs : ∑ j : Fin 256, ((m j : EReal)) * aug (fun j e => (h j e : EReal)) j lane128
          = ∑ j : Fin 256, ((m j * augR h j lane128 : ℝ) : EReal) := by
        refine Finset.sum_congr rfl (fun j _ => ?_)
        rw [aug_coe, EReal.coe_mul]
      rw [hs]
    have hne : max (∑ j : Fin 256, m j * augR h j lane128) 1 ≠ 0 := by
      rw [max_comm]; exact max_one_ne_zero _
    rw [hden, Ideal.div_coe hne, coe_sum]
    refine Finset.sum_congr rfl (fun l _ => ?_)
    have hs : ∑ j : Fin 256, ((m j : EReal)) * aug (fun j e => (h j e : EReal)) j l
        = ∑ j : Fin 256, ((m j * augR h j l : ℝ) : EReal) := by
      refine Finset.sum_congr rfl (fun j _ => ?_)
      rw [aug_coe, EReal.coe_mul]
    rw [EReal.coe_mul, EReal.coe_mul, EReal.coe_mul, EReal.coe_one, coe_sum, wcol_coe, hs]
  have hR : rowR (fun j => (m j : EReal)) (fun j e => (h j e : EReal)) (fun e => (w e : EReal)) (c : EReal)
      = (((∑ j : Fin 256, m j * ((∑ e : Fin 128, h j e * w e) + c))
            * (1 / max 1 (0 + ∑ j : Fin 256, m j)) : ℝ) : EReal) := by
    unfold rowR
    have hden : (max 1 (0 + ∑ j : Fin 256, (m j : EReal)) : EReal)
        = ((max 1 (0 + ∑ j : Fin 256, m j) : ℝ) : EReal) := by
      rw [coe_max, EReal.coe_add, coe_sum, EReal.coe_one, EReal.coe_zero]
    have hne : max 1 (0 + ∑ j : Fin 256, m j) ≠ 0 := max_one_ne_zero _
    have hs : ∑ j : Fin 256, (m j : EReal) * ((∑ e : Fin 128, (h j e : EReal) * (w e : EReal)) + (c : EReal))
        = ∑ j : Fin 256, ((m j * ((∑ e : Fin 128, h j e * w e) + c) : ℝ) : EReal) := by
      refine Finset.sum_congr rfl (fun j _ => ?_)
      have he : ∑ e : Fin 128, (h j e : EReal) * (w e : EReal) = ∑ e : Fin 128, ((h j e * w e : ℝ) : EReal) := by
        refine Finset.sum_congr rfl (fun e _ => ?_)
        rw [EReal.coe_mul]
      rw [EReal.coe_mul, EReal.coe_add, coe_sum, he]
    rw [hden, Ideal.div_coe hne, EReal.coe_mul, coe_sum, hs]
  rw [hK, hR, rowLaw_real]

/-- The row law: on real-valued masks, features, weights and bias the two row forms agree. -/
theorem rowK_eq_rowR (M : Fin 256 → EReal) (H : Fin 256 → Fin 128 → EReal) (W : Fin 128 → EReal) (c : EReal)
    (hM : ∀ j, ∃ r : ℝ, M j = (r : EReal)) (hH : ∀ j e, ∃ r : ℝ, H j e = (r : EReal))
    (hW : ∀ e, ∃ r : ℝ, W e = (r : EReal)) (hc : ∃ r : ℝ, c = (r : EReal)) :
    rowK M H W c = rowR M H W c := by
  choose m hm using hM
  choose h hh using hH
  choose w hw using hW
  obtain ⟨c', rfl⟩ := hc
  obtain rfl : M = fun j => (m j : EReal) := funext hm
  obtain rfl : H = fun j e => (h j e : EReal) := funext (fun j => funext (hh j))
  obtain rfl : W = fun e => (w e : EReal) := funext hw
  exact rowK_eq_rowR_coe m h w c'

end Cert.Spec

end
-- ==== Proof.RefValue.lean ====
/-
  The reference program's result, index by index, is the sub-layer `G`: for graph `b`, node `n` and output
  feature `f`,

      G b n f = (∑ k, max (rowR k) 0 * Wf k f) + bf f,
      rowR k  = (∑ j, mask b n j * ((∑ e, h b j e * Wc e k) + bc k)) / max 1 (0 + ∑ j, mask b n j).

  Each operation of the reference is read at an index; the composed index maps are the coordinate
  constructors; the two float literals are the extended reals one and zero.
-/
import proofs.«105909_g1906965479736_cont_8to1_1380_15_alg».proof.Proof.Gen.ReferenceIdeal.Read
import proofs.«105909_g1906965479736_cont_8to1_1380_15_alg».proof.Proof.Spec
import Idealize.ShloMosaic.Lib.IdealHost

noncomputable section

namespace Cert.RefValue

open Cert.ReferenceIdeal Cert.ReferenceIdeal.Gen Cert.ReferenceIdeal.Read Idealize.ShloMosaic Idealize.ShloMosaic.ValueIdx

/-- The whole sub-layer in the reference's form, index by index. -/
def G (h : S128x256x128.Idx → EReal) (mask : S128x256x256.Idx → EReal) (Wc : S128x512.Idx → EReal)
    (bc : S512.Idx → EReal) (Wf : S512x128.Idx → EReal) (bf : S128.Idx → EReal) : S128x256x128.Idx → EReal :=
  fun i => Cert.Spec.outOf
    (fun k : Fin 512 => Cert.Spec.rowR (fun j : Fin 256 => mask (ix3 (n0 := 128) (n1 := 256) (n2 := 256) (i 0) (i 1) j))
      (fun (j : Fin 256) (e : Fin 128) => h (ix3 (n0 := 128) (n1 := 256) (n2 := 128) (i 0) j e))
      (fun e : Fin 128 => Wc (ix2 e k)) (bc (ix1 k)))
    (fun k : Fin 512 => Wf (ix2 (n0 := 512) (n1 := 128) k (i 2))) (bf (ix1 (n := 128) (i 2)))

/-- `G` at an index given by its coordinates. -/
theorem G_at (h : S128x256x128.Idx → EReal) (mask : S128x256x256.Idx → EReal) (Wc : S128x512.Idx → EReal)
    (bc : S512.Idx → EReal) (Wf : S512x128.Idx → EReal) (bf : S128.Idx → EReal) (a : Fin 128) (b : Fin 256) (c : Fin 128) :
    G h mask Wc bc Wf bf (ix3 a b c) = Cert.Spec.outOf
      (fun k : Fin 512 => Cert.Spec.rowR (fun j : Fin 256 => mask (ix3 a b j)) (fun (j : Fin 256) (e : Fin 128) => h (ix3 a j e))
        (fun e : Fin 128 => Wc (ix2 e k)) (bc (ix1 k)))
      (fun k : Fin 512 => Wf (ix2 k c)) (bf (ix1 c)) := rfl

/-! ## The composed index maps are the coordinate constructors -/

theorem lidx11 (a : Fin 128) (b : Fin 256) (c : Fin 128) (k : Fin 512) : lidx_main_v11 (ix3 a b c) k = ix3 a b k :=
  funext fun a => by match a with | ⟨0, _⟩ => rfl | ⟨1, _⟩ => rfl | ⟨2, _⟩ => rfl
theorem ridx11 (a : Fin 128) (b : Fin 256) (c : Fin 128) (k : Fin 512) : ridx_main_v11 (ix3 a b c) k = ix2 k c :=
  funext fun a => by match a with | ⟨0, _⟩ => rfl | ⟨1, _⟩ => rfl
theorem idx13 (a : Fin 128) (b : Fin 256) (c : Fin 128) : idx_main_v12 (idx_main_v13 (ix3 a b c)) = ix1 c :=
  funext fun a => by match a with | ⟨0, _⟩ => rfl
theorem lidx4 (a : Fin 128) (b : Fin 256) (c : Fin 512) (j : Fin 256) : lidx_main_v4 (ix3 a b c) j = ix3 a b j :=
  funext fun d => by match d with | ⟨0, _⟩ => rfl | ⟨1, _⟩ => rfl | ⟨2, _⟩ => rfl
theorem ridx4 (a : Fin 128) (b : Fin 256) (c : Fin 512) (j : Fin 256) : ridx_main_v4 (ix3 a b c) j = ix3 a j c :=
  funext fun d => by match d with | ⟨0, _⟩ => rfl | ⟨1, _⟩ => rfl | ⟨2, _⟩ => rfl
theorem lidx0 (a : Fin 128) (b : Fin 256) (c : Fin 512) (e : Fin 128) : lidx_main_v0 (ix3 a b c) e = ix3 a b e :=
  funext fun d => by match d with | ⟨0, _⟩ => rfl | ⟨1, _⟩ => rfl | ⟨2, _⟩ => rfl
theorem ridx0 (a : Fin 128) (b : Fin 256) (c : Fin 512) (e : Fin 128) : ridx_main_v0 (ix3 a b c) e = ix2 e c :=
  funext fun d => by match d with | ⟨0, _⟩ => rfl | ⟨1, _⟩ => rfl
theorem idx2 (a : Fin 128) (b : Fin 256) (c : Fin 512) : idx_main_v1 (idx_main_v2 (ix3 a b c)) = ix1 c :=
  funext fun d => by match d with | ⟨0, _⟩ => rfl
theorem idx5 (a : Fin 128) (b : Fin 256) (c : Fin 512) (j : Fin 256) :
    idx_main_v5 (idx_main_v6 (idx_main_v8 (ix3 a b c))) j = ix3 a b j :=
  funext fun d => by match d with | ⟨0, _⟩ => rfl | ⟨1, _⟩ => rfl | ⟨2, _⟩ => rfl

/-! ## The stages at an index -/

/-- The first dense layer with its bias, at node `j` of graph `a` and hidden unit `k`. -/
theorem v3_at (x0 : S128x256x128.Idx → EReal) (x2 : S128x512.Idx → EReal) (x3 : S512.Idx → EReal)
    (a : Fin 128) (j : Fin 256) (k : Fin 512) :
    val_main_v3 (F := Ideal) x0 x2 x3 (ix3 a j k) = (∑ e : Fin 128, x0 (ix3 a j e) * x2 (ix2 e k)) + x3 (ix1 k) := by
  rw [val_main_v3_apply, val_main_v0_apply, val_main_v2_apply, val_main_v1_apply, idx2]
  simp only [lidx0, ridx0, Ideal.addf_def]

/-- The clipped degree of node `b` of graph `a`. -/
theorem v8_at (x1 : S128x256x256.Idx → EReal) (a : Fin 128) (b : Fin 256) (k : Fin 512) :
    val_main_v8 (F := Ideal) x1 (ix3 a b k) = max 1 (0 + ∑ j : Fin 256, x1 (ix3 a b j)) := by
  rw [val_main_v8_apply, val_main_v7_apply, val_main_call0_v1_apply, val_main_call0_v0_apply, val_main_cst_0_apply,
    val_main_v6_apply, val_main_v5_apply, val_main_cst_apply]
  simp only [idx5, Ideal.maximumf_def, Ideal.ofBits_def, Ideal.ofBits_one_f32, Ideal.ofBits_zero_f32]

/-- The normalised aggregate of node `b` of graph `a` at hidden unit `k`. -/
theorem v9_at (x0 : S128x256x128.Idx → EReal) (x1 : S128x256x256.Idx → EReal) (x2 : S128x512.Idx → EReal) (x3 : S512.Idx → EReal)
    (a : Fin 128) (b : Fin 256) (k : Fin 512) :
    val_main_v9 (F := Ideal) x0 x1 x2 x3 (ix3 a b k)
      = Cert.Spec.rowR (fun j : Fin 256 => x1 (ix3 a b j)) (fun (j : Fin 256) (e : Fin 128) => x0 (ix3 a j e))
          (fun e : Fin 128 => x2 (ix2 e k)) (x3 (ix1 k)) := by
  rw [val_main_v9_apply, val_main_v4_apply, v8_at]
  simp only [lidx4, ridx4, v3_at, Ideal.hostDivf_def, Cert.Spec.rowR]

/-- The positive part of the normalised aggregate. -/
theorem v10_at (x0 : S128x256x128.Idx → EReal) (x1 : S128x256x256.Idx → EReal) (x2 : S128x512.Idx → EReal) (x3 : S512.Idx → EReal)
    (a : Fin 128) (b : Fin 256) (k : Fin 512) :
    val_main_v10 (F := Ideal) x0 x1 x2 x3 (ix3 a b k)
      = max (Cert.Spec.rowR (fun j : Fin 256 => x1 (ix3 a b j)) (fun (j : Fin 256) (e : Fin 128) => x0 (ix3 a j e))
          (fun e : Fin 128 => x2 (ix2 e k)) (x3 (ix1 k))) 0 := by
  rw [val_main_v10_apply, v9_at, val_main_call1_v0_apply, val_main_call1_cst_apply]
  simp only [Ideal.maximumf_def, Ideal.ofBits_def, Ideal.ofBits_zero_f32]

/-- The reference's result is `G` of its six arguments. -/
theorem ref_eq_G (x0 : S128x256x128.Idx → EReal) (x1 : S128x256x256.Idx → EReal) (x2 : S128x512.Idx → EReal)
    (x3 : S512.Idx → EReal) (x4 : S512x128.Idx → EReal) (x5 : S128.Idx → EReal) :
    val_main_v14 (F := Ideal) x0 x1 x2 x3 x4 x5 = G x0 x1 x2 x3 x4 x5 := by
  funext i
  obtain ⟨a, b, c, rfl⟩ : ∃ (a : Fin 128) (b : Fin 256) (c : Fin 128), i = ix3 a b c := ⟨i 0, i 1, i 2, eq_ix3 i⟩
  rw [G_at, val_main_v14_apply, val_main_v11_apply, val_main_v13_apply, val_main_v12_apply, idx13]
  simp only [lidx11, ridx11, v10_at, Ideal.addf_def, Cert.Spec.outOf]

end Cert.RefValue

end
-- ==== Proof.Bridge.lean ====
/-
  The bridge between the two row forms inside the whole sub-layer: with real features, mask, convolution
  weights and bias, the sub-layer written with the kernel's row form at every hidden unit is the sub-layer
  in the reference's form.
-/
import proofs.«105909_g1906965479736_cont_8to1_1380_15_alg».proof.Proof.RowLaw
import proofs.«105909_g1906965479736_cont_8to1_1380_15_alg».proof.Proof.RefValue
import proofs.«105909_g1906965479736_cont_8to1_1380_15_alg».proof.Proof.Spec

noncomputable section

namespace Cert.Bridge

open Cert.ReferenceIdeal Idealize.ShloMosaic Idealize.ShloMosaic.ValueIdx

/-- Graph b, node n, output feature d: the positive part of the kernel's row form times the second layer's
    weights plus its bias is the reference's sub-layer at (b, n, d). -/
theorem outOf_rowK_eq_G (A0 : S128x256x128.Idx → EReal) (A1 : S128x256x256.Idx → EReal) (A2 : S128x512.Idx → EReal)
    (A3 : S512.Idx → EReal) (A4 : S512x128.Idx → EReal) (A5 : S128.Idx → EReal)
    (h0 : ∀ i, ∃ r : ℝ, A0 i = (r : EReal)) (h1 : ∀ i, ∃ r : ℝ, A1 i = (r : EReal))
    (h2 : ∀ i, ∃ r : ℝ, A2 i = (r : EReal)) (h3 : ∀ i, ∃ r : ℝ, A3 i = (r : EReal))
    (b : Fin 128) (n : Fin 256) (d : Fin 128) :
    Cert.Spec.outOf
        (fun k : Fin 512 => Cert.Spec.rowK (fun j : Fin 256 => A1 (ix3 b n j)) (fun (j : Fin 256) (e : Fin 128) => A0 (ix3 b j e))
          (fun e : Fin 128 => A2 (ix2 e k)) (A3 (ix1 k)))
        (fun k : Fin 512 => A4 (ix2 k d)) (A5 (ix1 d))
      = Cert.RefValue.G A0 A1 A2 A3 A4 A5 (ix3 b n d) := by
  rw [Cert.RefValue.G_at]
  refine congrArg (fun s => Cert.Spec.outOf s (fun k : Fin 512 => A4 (ix2 k d)) (A5 (ix1 d))) (funext fun k => ?_)
  exact Cert.Spec.rowK_eq_rowR _ _ _ _ (fun j => h1 _) (fun j e => h0 _) (fun e => h2 _) (h3 _)

end Cert.Bridge

end
-- ==== Proof.KI.BlockBridge.lean ====
/-
  Every entry of the output block of a grid point is the reference's sub-layer at the entry's place in the
  whole array: row r of point t is node r % 256 of graph t * 16 + r / 256.  The point's five input blocks are
  group t of the features and of the mask, the widened weights (weights, bias, zeros), the second layer's
  weights and its bias; the arguments are real by the precondition, so the kernel's row form is the
  reference's.
-/
import proofs.«105909_g1906965479736_cont_8to1_1380_15_alg».proof.Proof.KI.BlockValue
import proofs.«105909_g1906965479736_cont_8to1_1380_15_alg».proof.Proof.KI.Layout
import proofs.«105909_g1906965479736_cont_8to1_1380_15_alg».proof.Proof.Finite
import proofs.«105909_g1906965479736_cont_8to1_1380_15_alg».proof.Proof.Bridge

set_option maxRecDepth 16384

noncomputable section

namespace Cert.KernelIdeal.BlockBridge

open Cert.KernelIdeal Cert.KernelIdeal.Gen Idealize.ShloMosaic Idealize.ShloMosaic.TcCoe Idealize.SL.Sem Idealize.ShloMosaic.ValueIdx

/-- Entry (r, d) of the output block of point t is the sub-layer at graph t * 16 + r / 256, node r % 256,
    output feature d. -/
theorem outBlk_eq_G (m : (ℓ : Loc nD τ sig) → Buf (Elt Ideal) ℓ)
    (hpre : Cert.Pre_KernelIdeal (hPre_finite_inputs := Cert.Pre_finite_inputs.Gen.facts) m) (c : Dev nD)
    (t : Fin cfg0.N) (r : Fin 4096) (d : Fin 128) :
    outBlk (iblk m c 0 t) (iblk m c 1 t) (iblk m c 2 t) (iblk m c 3 t) (iblk m c 4 t) (ix3 (0 : Fin 1) r d)
      = Cert.RefValue.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (ix3 (⟨t.val * 16 + (graphOf r).val, by have := Layout.t_lt t; have := (graphOf r).isLt; omega⟩ : Fin 128) (nodeOf r) d) := by
  obtain ⟨h0, h1, h2, h3⟩ := Cert.Finite.real_args m hpre c
  refine (BlockValue.outBlk_rowK (iblk m c 0 t) (iblk m c 1 t) (iblk m c 2 t) (iblk m c 3 t) (iblk m c 4 t)
    (fun e k => (m ((c : Thread nD τ).loc main_arg2)) (ix2 e k)) (fun k => (m ((c : Thread nD τ).loc main_arg3)) (ix1 k))
    (fun l k => Layout.blk2_arg m c t l k) r d).trans ?_
  simp only [Layout.blk0_arg, Layout.blk1_arg, Layout.blk3_arg, Layout.blk4_arg]
  exact Cert.Bridge.outOf_rowK_eq_G _ _ _ _ _ _ h0 h1 h2 h3 _ (nodeOf r) d

end Cert.KernelIdeal.BlockBridge

end
-- ==== Proof.KI.Value.lean ====
/-
  The value of the fused sub-layer's program at the extended reals.  By induction over the grid points the
  feature scratch keeps its constant lanes (a one in lane 128, zeros above), so at every point the output
  block is the closed form `outBlk` of the point's five input blocks; element by element that is the
  reference's sub-layer at graph `16 t + g`, node `n` (the two row forms agree on finite inputs).  The
  eight blocks tile the output array, and the reshape after the region re-lays rows `(g, n)` of group `t`
  as graph `16 t + g`: the program's result is the reference's function of the six argument arrays.
-/
import proofs.«105909_g1906965479736_cont_8to1_1380_15_alg».proof.Proof.KI.ValueAt
import proofs.«105909_g1906965479736_cont_8to1_1380_15_alg».proof.Proof.KI.BlockBridge
import Idealize.ShloMosaic.Lib.Pipeline.Value
import Idealize.ShloMosaic.Lib.StableHlo.Run

set_option maxRecDepth 16384
set_option maxHeartbeats 400000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- The output array in closed form: entry `(t, r, d)` is the closed form of point `t`'s blocks at row `r`. -/
def outArr (c : Dev nD) : S8x4096x128.Idx → EReal := fun i =>
  outBlk (iblk m c 0 ⟨(i 0).val, lt_of_lt_of_eq (i 0).isLt N_0.symm⟩) (iblk m c 1 ⟨(i 0).val, lt_of_lt_of_eq (i 0).isLt N_0.symm⟩)
    (iblk m c 2 ⟨(i 0).val, lt_of_lt_of_eq (i 0).isLt N_0.symm⟩) (iblk m c 3 ⟨(i 0).val, lt_of_lt_of_eq (i 0).isLt N_0.symm⟩)
    (iblk m c 4 ⟨(i 0).val, lt_of_lt_of_eq (i 0).isLt N_0.symm⟩) (ix3 (0 : Fin 1) ⟨(i 1).val, (i 1).isLt⟩ ⟨(i 2).val, (i 2).isLt⟩)

/-- Point `t` writes back block `t` of that array: its index map is `(t, 0, 0)`. -/
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)

theorem flushed5_eq (c : Dev nD) (t : Fin cfg0.N) :
    (dats m 0 c).flushed 5 t = ((cfg0.win 5).blk t).view.read (Elt Ideal) (outArr m c) := by
  show (cfg0.win 5).cut (grid0.coords t) ((dats m 0 c).after 5 t) = _
  rw [after0_5, (value_at m c t).2]
  obtain ⟨e0, e1, e2⟩ := idx5 t
  funext j
  show outBlk (iblk m c 0 t) (iblk m c 1 t) (iblk m c 2 t) (iblk m c 3 t) (iblk m c 4 t) j = outArr m c (((cfg0.win 5).blk t).view.emb j)
  have h0 : ((((cfg0.win 5).blk t).view.emb j) 0).val = t.val := by
    show win0_5.index t (0 : Fin 3) * 1 + 1 * (j 0).val = t.val
    have hj : (j 0).val < 1 := (j 0).isLt
    omega
  have h1 : ((((cfg0.win 5).blk t).view.emb j) 1).val = (j 1).val := by
    show win0_5.index t (1 : Fin 3) * 4096 + 1 * (j 1).val = (j 1).val
    omega
  have h2 : ((((cfg0.win 5).blk t).view.emb j) 2).val = (j 2).val := by
    show win0_5.index t (2 : Fin 3) * 128 + 1 * (j 2).val = (j 2).val
    omega
  unfold outArr
  have ht : (⟨((((cfg0.win 5).blk t).view.emb j) 0).val, lt_of_lt_of_eq ((((cfg0.win 5).blk t).view.emb j) 0).isLt N_0.symm⟩ : Fin cfg0.N) = t := Fin.ext h0
  rw [ht]
  congr 1
  funext a
  match a with
  | ⟨0, _⟩ => exact Fin.ext (by have hj : (j 0).val < 1 := (j 0).isLt; show (j 0).val = 0; omega)
  | ⟨1, _⟩ => exact Fin.ext h1.symm
  | ⟨2, _⟩ => exact Fin.ext h2.symm

theorem mem_blk5 (t : Fin cfg0.N) (i : S8x4096x128.Idx) :
    i ∈ ((cfg0.win 5).blk t).view.set ↔ ∀ a : Fin 3, win0_5.index t a * S1x4096x128.size a ≤ (i a).val ∧ (i a).val < win0_5.index t a * S1x4096x128.size a + S1x4096x128.size a := by
  show i ∈ ((View.whole main_v6).slice (win0_5.rect t)).set ↔ _
  rw [View.set_slice_whole, Rect.mem_set_unit]
  exact Iff.rfl

/-- The eight blocks tile the output array. -/
theorem cover5 (i : S8x4096x128.Idx) : ∃ t : Fin cfg0.N, (cfg0.win 5).flush t = true ∧ i ∈ ((cfg0.win 5).blk t).view.set := by
  have hi0 : (i 0).val < 8 := (i 0).isLt
  have hi1 : (i 1).val < 4096 := (i 1).isLt
  have hi2 : (i 2).val < 128 := (i 2).isLt
  refine ⟨⟨(i 0).val, lt_of_lt_of_eq hi0 N_0.symm⟩, flush0_5 _, ?_⟩
  rw [mem_blk5]
  obtain ⟨e0, e1, e2⟩ := idx5 ⟨(i 0).val, lt_of_lt_of_eq hi0 N_0.symm⟩
  intro a
  match a with
  | ⟨0, _⟩ => show win0_5.index _ (0 : Fin 3) * 1 ≤ (i 0).val ∧ (i 0).val < win0_5.index _ (0 : Fin 3) * 1 + 1; rw [e0]; dsimp only; omega
  | ⟨1, _⟩ => show win0_5.index _ (1 : Fin 3) * 4096 ≤ (i 1).val ∧ (i 1).val < win0_5.index _ (1 : Fin 3) * 4096 + 4096; rw [e1]; omega
  | ⟨2, _⟩ => show win0_5.index _ (2 : Fin 3) * 128 ≤ (i 2).val ∧ (i 2).val < win0_5.index _ (2 : Fin 3) * 128 + 128; rw [e2]; omega

/-- The output array after the run. -/
theorem final5 (c : Dev nD) : (dats m 0 c).arrAt 5 cfg0.N = outArr m c :=
  (dats m 0 c).arrAt_eq_of_cover 5 (outArr m c) (fun t _ => flushed5_eq m c t) (cover5)

/-- The program's result buffer after the reshape that follows the region: the reference's function of the
    six argument arrays, on finite inputs. -/
theorem result_eq (hpre : Cert.Pre_KernelIdeal (hPre_finite_inputs := Cert.Pre_finite_inputs.Gen.facts) m) (c : Dev nD) :
    Pipeline.afterTail₀ cfgs (dats m) 0 (V0 m) [hostOps1] c main_v7
      = Cert.RefValue.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  unfold Pipeline.afterTail₀
  show StableHlo.after hostOps1 _ (Proc.devRef .tc main_v7) = _
  after_results
  rw [(Pipeline.withArrays_arr spec0 launch0.win.arr_inj c _ _ 5).trans (final5 m c)]
  funext i
  obtain ⟨b, n, d, rfl⟩ : ∃ (b : Fin 128) (n : Fin 256) (d : Fin 128), i = ix3 b n d := ⟨i 0, i 1, i 2, eq_ix3 i⟩
  show shapeCast S128x256x128 (outArr m c) shapeCasts_S8x4096x128_S128x256x128 (ix3 b n d) = _
  rw [Cert.KernelIdeal.Layout.cast_out]
  have hb : b.val < 128 := b.isLt
  have hn : n.val < 256 := n.isLt
  unfold outArr
  have hg := Cert.KernelIdeal.BlockBridge.outBlk_eq_G m hpre c ⟨b.val / 16, lt_of_lt_of_eq (by omega) N_0.symm⟩ ⟨(b.val % 16) * 256 + n.val, by omega⟩ d
  refine hg.trans ?_
  congr 1
  funext a
  match a with
  | ⟨0, _⟩ => exact Fin.ext (by show b.val / 16 * 16 + ((b.val % 16) * 256 + n.val) / 256 = b.val; omega)
  | ⟨1, _⟩ => exact Fin.ext (by show ((b.val % 16) * 256 + n.val) % 256 = n.val; omega)
  | ⟨2, _⟩ => rfl

/-- The run, read: the result buffer at the reference's function of the arguments, the arguments unchanged. -/
theorem run_value (hpre : Cert.Pre_KernelIdeal (hPre_finite_inputs := Cert.Pre_finite_inputs.Gen.facts) m) :
    θ_run defs (onTc (τ := τ) (main (F := Ideal))) ⟨m, fun _ => 0, ρ⟩ (fun r => ∀ c : Dev nD,
      r.2.mem ((c.tc : Thread nD τ).loc main_v7) = Cert.RefValue.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v7 (Pipeline.mem_restRefs_of main_v7 (by decide) (by decide))).trans (result_eq m hpre c),
    (((h c).2 main_arg0 (Pipeline.mem_restRefs_of main_arg0 (by decide) (by decide))).trans (W_main_arg0 m (dats m) c)), (((h c).2 main_arg1 (Pipeline.mem_restRefs_of main_arg1 (by decide) (by decide))).trans (W_main_arg1 m (dats m) c)), (((h c).2 main_arg2 (Pipeline.mem_restRefs_of main_arg2 (by decide) (by decide))).trans (W_main_arg2 m (dats m) c)), (((h c).2 main_arg3 (Pipeline.mem_restRefs_of main_arg3 (by decide) (by decide))).trans (W_main_arg3 m (dats m) c)),
    ((h c).1 3).trans ((((dats m) 0 c).arrAt_in 3 rfl _).trans ((A_eq m c 3).trans (V_main_arg4 m c))), (((h c).2 main_arg5 (Pipeline.mem_restRefs_of main_arg5 (by decide) (by decide))).trans (W_main_arg5 m (dats m) c))⟩) (run_main m ρ)

end Cert.KernelIdeal.Gen

end
-- ==== Proof.RefFrame.lean ====
/-
  The reference program runs to completion from any memory and leaves its six argument arrays unchanged:
  its run with the result array's conjunct dropped.
-/
import proofs.«105909_g1906965479736_cont_8to1_1380_15_alg».proof.Defs
import proofs.«105909_g1906965479736_cont_8to1_1380_15_alg».proof.Proof.Gen.ReferenceIdeal.Run
import proofs.«105909_g1906965479736_cont_8to1_1380_15_alg».proof.Proof.Gen.Pre_finite_inputs

noncomputable section

namespace Cert.RefValue

open Idealize.ShloMosaic Idealize.ShloMosaic.TcCoe Idealize.SL.Sem

/-- Every weakly fair execution of the reference terminates with each argument array as at launch. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

end Cert.RefValue

end
-- ==== Proof.lean ====
/-
  The fused graph-convolution / feed-forward sub-layer against its reference, over the extended reals.

  The kernel computes, per grid point of sixteen graphs, relu(((mask · [h | 1 | 0]) / max(deg, 1)) · [W; b; 0]) · W_ff + b_ff
  with the degree read off the constant lane of the widened features; the reference computes
  relu((mask · (h · W + b)) / max(1, deg)) · W_ff + b_ff.  On finite inputs the two hidden pre-activations are
  one number (distributivity and the exchange of two finite sums over the reals; the divisor is at least one),
  so the two programs end with equal results.  The three frames are the programs' runs with the result
  dropped; the kernel's idealization rewrote nothing.
-/
import proofs.«105909_g1906965479736_cont_8to1_1380_15_alg».proof.Defs
import proofs.«105909_g1906965479736_cont_8to1_1380_15_alg».proof.Proof.Gen.Kernel
import proofs.«105909_g1906965479736_cont_8to1_1380_15_alg».proof.Proof.Gen.KernelIdeal
import proofs.«105909_g1906965479736_cont_8to1_1380_15_alg».proof.Proof.Gen.ReferenceIdeal
import proofs.«105909_g1906965479736_cont_8to1_1380_15_alg».proof.Proof.Gen.Pre_finite_inputs
import proofs.«105909_g1906965479736_cont_8to1_1380_15_alg».proof.Proof.KB.Frame
import proofs.«105909_g1906965479736_cont_8to1_1380_15_alg».proof.Proof.KI.Value
import proofs.«105909_g1906965479736_cont_8to1_1380_15_alg».proof.Proof.RefFrame
import proofs.«105909_g1906965479736_cont_8to1_1380_15_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to its end and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does the kernel read at the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- From memories that agree on the six arguments, both programs end at the reference's function of them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.RefValue.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Gen.run_value m ρ hpre, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v14_eq, Cert.RefValue.ref_eq_G,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, Cert.RefValue.frame_ri, trivial, algebraic⟩

end Cert.Proof

end
